-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S1 : Shape := ⟨1, ![1]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part9 {F : FTy → Type} [FloatOps F] (main_arg31 : FVec F S1024x1024 .f32) (main_arg32 : FVec F S1024 .f32) (main_v153 : IVec S_ 1) : IVec S_ 1 :=
  let main_v154 : FVec F S1024x1024 .f32 := Host.absf main_arg31
  let main_cst_60 : FVec F S_ .f32 := constant S_ .f32 0x7F800000#32
  let main_v155 : FVec F S1024x1024 .f32 := broadcastInDim S1024x1024 ![] bcast_S_S1024x1024 main_cst_60
  let main_v156 : IVec S1024x1024 1 := cmpf .olt main_v154 main_v155
  let main_c_61 : IVec S_ 1 := constantI S_ 1 1#1
  let main_v157 : IVec S_ 1 := (fun x v => Host.reduce IntOp.andi x v reducesTo_S1024x1024_S_d0_1 h_S_) main_v156 main_c_61
  let main_v158 : IVec S_ 1 := andi main_v153 main_v157
  let main_v159 : FVec F S1024 .f32 := Host.absf main_arg32
  let main_cst_62 : FVec F S_ .f32 := constant S_ .f32 0x7F800000#32
  let main_v160 : FVec F S1024 .f32 := broadcastInDim S1024 ![] bcast_S_S1024 main_cst_62
  let main_v161 : IVec S1024 1 := cmpf .olt main_v159 main_v160
  let main_c_63 : IVec S_ 1 := constantI S_ 1 1#1
  let main_v162 : IVec S_ 1 := (fun x v => Host.reduce IntOp.andi x v reducesTo_S1024_S_d0 h_S_) main_v161 main_c_63
  let main_v163 : IVec S_ 1 := andi main_v158 main_v162
  main_v163

def fn_part8 {F : FTy → Type} [FloatOps F] (main_arg28 : FVec F S1024 .f32) (main_arg29 : FVec F S1024x1024 .f32) (main_arg30 : FVec F S1024 .f32) (main_arg31 : FVec F S1024x1024 .f32) (main_arg32 : FVec F S1024 .f32) (main_v133 : IVec S_ 1) (main_v136 : IVec S1024x1024 1) : IVec S_ 1 :=
  let main_c_53 : IVec S_ 1 := constantI S_ 1 1#1
  let main_v137 : IVec S_ 1 := (fun x v => Host.reduce IntOp.andi x v reducesTo_S1024x1024_S_d0_1 h_S_) main_v136 main_c_53
  let main_v138 : IVec S_ 1 := andi main_v133 main_v137
  let main_v139 : FVec F S1024 .f32 := Host.absf main_arg28
  let main_cst_54 : FVec F S_ .f32 := constant S_ .f32 0x7F800000#32
  let main_v140 : FVec F S1024 .f32 := broadcastInDim S1024 ![] bcast_S_S1024 main_cst_54
  let main_v141 : IVec S1024 1 := cmpf .olt main_v139 main_v140
  let main_c_55 : IVec S_ 1 := constantI S_ 1 1#1
  let main_v142 : IVec S_ 1 := (fun x v => Host.reduce IntOp.andi x v reducesTo_S1024_S_d0 h_S_) main_v141 main_c_55
  let main_v143 : IVec S_ 1 := andi main_v138 main_v142
  let main_v144 : FVec F S1024x1024 .f32 := Host.absf main_arg29
  let main_cst_56 : FVec F S_ .f32 := constant S_ .f32 0x7F800000#32
  let main_v145 : FVec F S1024x1024 .f32 := broadcastInDim S1024x1024 ![] bcast_S_S1024x1024 main_cst_56
  let main_v146 : IVec S1024x1024 1 := cmpf .olt main_v144 main_v145
  let main_c_57 : IVec S_ 1 := constantI S_ 1 1#1
  let main_v147 : IVec S_ 1 := (fun x v => Host.reduce IntOp.andi x v reducesTo_S1024x1024_S_d0_1 h_S_) main_v146 main_c_57
  let main_v148 : IVec S_ 1 := andi main_v143 main_v147
  let main_v149 : FVec F S1024 .f32 := Host.absf main_arg30
  let main_cst_58 : FVec F S_ .f32 := constant S_ .f32 0x7F800000#32
  let main_v150 : FVec F S1024 .f32 := broadcastInDim S1024 ![] bcast_S_S1024 main_cst_58
  let main_v151 : IVec S1024 1 := cmpf .olt main_v149 main_v150
  let main_c_59 : IVec S_ 1 := constantI S_ 1 1#1
  let main_v152 : IVec S_ 1 := (fun x v => Host.reduce IntOp.andi x v reducesTo_S1024_S_d0 h_S_) main_v151 main_c_59
  let main_v153 : IVec S_ 1 := andi main_v148 main_v152
  fn_part9 (F := F) main_arg31 main_arg32 main_v153

def fn_part7 {F : FTy → Type} [FloatOps F] (main_arg25 : FVec F S1x1024 .f32) (main_arg26 : FVec F S1 .f32) (main_arg27 : FVec F S1024x1024 .f32) (main_arg28 : FVec F S1024 .f32) (main_arg29 : FVec F S1024x1024 .f32) (main_arg30 : FVec F S1024 .f32) (main_arg31 : FVec F S1024x1024 .f32) (main_arg32 : FVec F S1024 .f32) (main_v118 : IVec S_ 1) (main_v119 : FVec F S1024 .f32) : IVec S_ 1 :=
  let main_cst_46 : FVec F S_ .f32 := constant S_ .f32 0x7F800000#32
  let main_v120 : FVec F S1024 .f32 := broadcastInDim S1024 ![] bcast_S_S1024 main_cst_46
  let main_v121 : IVec S1024 1 := cmpf .olt main_v119 main_v120
  let main_c_47 : IVec S_ 1 := constantI S_ 1 1#1
  let main_v122 : IVec S_ 1 := (fun x v => Host.reduce IntOp.andi x v reducesTo_S1024_S_d0 h_S_) main_v121 main_c_47
  let main_v123 : IVec S_ 1 := andi main_v118 main_v122
  let main_v124 : FVec F S1x1024 .f32 := Host.absf main_arg25
  let main_cst_48 : FVec F S_ .f32 := constant S_ .f32 0x7F800000#32
  let main_v125 : FVec F S1x1024 .f32 := broadcastInDim S1x1024 ![] bcast_S_S1x1024 main_cst_48
  let main_v126 : IVec S1x1024 1 := cmpf .olt main_v124 main_v125
  let main_c_49 : IVec S_ 1 := constantI S_ 1 1#1
  let main_v127 : IVec S_ 1 := (fun x v => Host.reduce IntOp.andi x v reducesTo_S1x1024_S_d0_1 h_S_) main_v126 main_c_49
  let main_v128 : IVec S_ 1 := andi main_v123 main_v127
  let main_v129 : FVec F S1 .f32 := Host.absf main_arg26
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  let main_v134 : FVec F S1024x1024 .f32 := Host.absf main_arg27
  let main_cst_52 : FVec F S_ .f32 := constant S_ .f32 0x7F800000#32
  let main_v135 : FVec F S1024x1024 .f32 := broadcastInDim S1024x1024 ![] bcast_S_S1024x1024 main_cst_52
  let main_v136 : IVec S1024x1024 1 := cmpf .olt main_v134 main_v135
  fn_part8 (F := F) main_arg28 main_arg29 main_arg30 main_arg31 main_arg32 main_v133 main_v136

def fn_part6 {F : FTy → Type} [FloatOps F] (main_arg21 : FVec F S1024x1024 .f32) (main_arg22 : FVec F S1024 .f32) (main_arg23 : FVec F S1024x2048 .f32) (main_arg24 : FVec F S1024 .f32) (main_arg25 : FVec F S1x1024 .f32) (main_arg26 : FVec F S1 .f32) (main_arg27 : FVec F S1024x1024 .f32) (main_arg28 : FVec F S1024 .f32) (main_arg29 : FVec F S1024x1024 .f32) (main_arg30 : FVec F S1024 .f32) (main_arg31 : FVec F S1024x1024 .f32) (main_arg32 : FVec F S1024 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S1024x1024 .f32 := Host.absf main_arg21
  let main_cst_40 : FVec F S_ .f32 := constant S_ .f32 0x7F800000#32
  let main_v105 : FVec F S1024x1024 .f32 := broadcastInDim S1024x1024 ![] bcast_S_S1024x1024 main_cst_40
  let main_v106 : IVec S1024x1024 1 := cmpf .olt main_v104 main_v105
  let main_c_41 : IVec S_ 1 := constantI S_ 1 1#1
  let main_v107 : IVec S_ 1 := (fun x v => Host.reduce IntOp.andi x v reducesTo_S1024x1024_S_d0_1 h_S_) main_v106 main_c_41
  let main_v108 : IVec S_ 1 := andi main_v103 main_v107
  let main_v109 : FVec F S1024 .f32 := Host.absf main_arg22
  let main_cst_42 : FVec F S_ .f32 := constant S_ .f32 0x7F800000#32
  let main_v110 : FVec F S1024 .f32 := broadcastInDim S1024 ![] bcast_S_S1024 main_cst_42
  let main_v111 : IVec S1024 1 := cmpf .olt main_v109 main_v110
  let main_c_43 : IVec S_ 1 := constantI S_ 1 1#1
  let main_v112 : IVec S_ 1 := (fun x v => Host.reduce IntOp.andi x v reducesTo_S1024_S_d0 h_S_) main_v111 main_c_43
  let main_v113 : IVec S_ 1 := andi main_v108 main_v112
  let main_v114 : FVec F S1024x2048 .f32 := Host.absf main_arg23
  let main_cst_44 : FVec F S_ .f32 := constant S_ .f32 0x7F800000#32
  let main_v115 : FVec F S1024x2048 .f32 := broadcastInDim S1024x2048 ![] bcast_S_S1024x2048 main_cst_44
  let main_v116 : IVec S1024x2048 1 := cmpf .olt main_v114 main_v115
  let main_c_45 : IVec S_ 1 := constantI S_ 1 1#1
  let main_v117 : IVec S_ 1 := (fun x v => Host.reduce IntOp.andi x v reducesTo_S1024x2048_S_d0_1 h_S_) main_v116 main_c_45
  let main_v118 : IVec S_ 1 := andi main_v113 main_v117
  let main_v119 : FVec F S1024 .f32 := Host.absf main_arg24
  fn_part7 (F := F) main_arg25 main_arg26 main_arg27 main_arg28 main_arg29 main_arg30 main_arg31 main_arg32 main_v118 main_v119

def fn_part5 {F : FTy → Type} [FloatOps F] (main_arg18 : FVec F S1024 .f32) (main_arg19 : FVec F S1024x1024 .f32) (main_arg20 : FVec F S1024 .f32) (main_arg21 : FVec F S1024x1024 .f32) (main_arg22 : FVec F S1024 .f32) (main_arg23 : FVec F S1024x2048 .f32) (main_arg24 : FVec F S1024 .f32) (main_arg25 : FVec F S1x1024 .f32) (main_arg26 : FVec F S1 .f32) (main_arg27 : FVec F S1024x1024 .f32) (main_arg28 : FVec F S1024 .f32) (main_arg29 : FVec F S1024x1024 .f32) (main_arg30 : FVec F S1024 .f32) (main_arg31 : FVec F S1024x1024 .f32) (main_arg32 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024x1024 .f32 := Host.absf main_arg19
  let main_cst_36 : FVec F S_ .f32 := constant S_ .f32 0x7F800000#32
  let main_v95 : FVec F S1024x1024 .f32 := broadcastInDim S1024x1024 ![] bcast_S_S1024x1024 main_cst_36
  let main_v96 : IVec S1024x1024 1 := cmpf .olt main_v94 main_v95
  let main_c_37 : IVec S_ 1 := constantI S_ 1 1#1
  let main_v97 : IVec S_ 1 := (fun x v => Host.reduce IntOp.andi x v reducesTo_S1024x1024_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_v98 main_v101 main_c_39

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024x2048 .f32) (main_arg24 : FVec F S1024 .f32) (main_arg25 : FVec F S1x1024 .f32) (main_arg26 : FVec F S1 .f32) (main_arg27 : FVec F S1024x1024 .f32) (main_arg28 : FVec F S1024 .f32) (main_arg29 : FVec F S1024x1024 .f32) (main_arg30 : FVec F S1024 .f32) (main_arg31 : FVec F S1024x1024 .f32) (main_arg32 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024x2048 .f32) (main_arg24 : FVec F S1024 .f32) (main_arg25 : FVec F S1x1024 .f32) (main_arg26 : FVec F S1 .f32) (main_arg27 : FVec F S1024x1024 .f32) (main_arg28 : FVec F S1024 .f32) (main_arg29 : FVec F S1024x1024 .f32) (main_arg30 : FVec F S1024 .f32) (main_arg31 : FVec F S1024x1024 .f32) (main_arg32 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024x2048 .f32) (main_arg24 : FVec F S1024 .f32) (main_arg25 : FVec F S1x1024 .f32) (main_arg26 : FVec F S1 .f32) (main_arg27 : FVec F S1024x1024 .f32) (main_arg28 : FVec F S1024 .f32) (main_arg29 : FVec F S1024x1024 .f32) (main_arg30 : FVec F S1024 .f32) (main_arg31 : FVec F S1024x1024 .f32) (main_arg32 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024x2048 .f32) (main_arg24 : FVec F S1024 .f32) (main_arg25 : FVec F S1x1024 .f32) (main_arg26 : FVec F S1 .f32) (main_arg27 : FVec F S1024x1024 .f32) (main_arg28 : FVec F S1024 .f32) (main_arg29 : FVec F S1024x1024 .f32) (main_arg30 : FVec F S1024 .f32) (main_arg31 : FVec F S1024x1024 .f32) (main_arg32 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_arg19 : FVec F S1024x1024 .f32) (main_arg20 : FVec F S1024 .f32) (main_arg21 : FVec F S1024x1024 .f32) (main_arg22 : FVec F S1024 .f32) (main_arg23 : FVec F S1024x2048 .f32) (main_arg24 : FVec F S1024 .f32) (main_arg25 : FVec F S1x1024 .f32) (main_arg26 : FVec F S1 .f32) (main_arg27 : FVec F S1024x1024 .f32) (main_arg28 : FVec F S1024 .f32) (main_arg29 : FVec F S1024x1024 .f32) (main_arg30 : FVec F S1024 .f32) (main_arg31 : FVec F S1024x1024 .f32) (main_arg32 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S1 : Shape := ⟨1, ![1]⟩
abbrev S6144x1024 : Shape := ⟨2, ![6144, 1024]⟩
abbrev S_ : Shape := ⟨0, ![]⟩
abbrev S6144 : Shape := ⟨1, ![6144]⟩
abbrev S1x6144 : Shape := ⟨2, ![1, 6144]⟩
abbrev S1x1 : Shape := ⟨2, ![1, 1]⟩
abbrev S256x1024 : Shape := ⟨2, ![256, 1024]⟩
abbrev S256x6144 : Shape := ⟨2, ![256, 6144]⟩
abbrev S256 : Shape := ⟨1, ![256]⟩
abbrev S256x1 : Shape := ⟨2, ![256, 1]⟩

abbrev nBuf : Space → Nat
  | .hbm => 54
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S1024, .f32⟩
  | .hbm, ⟨21, _⟩ => ⟨S1024x1024, .f32⟩
  | .hbm, ⟨22, _⟩ => ⟨S1024, .f32⟩
  | .hbm, ⟨23, _⟩ => ⟨S1024x2048, .f32⟩
  | .hbm, ⟨24, _⟩ => ⟨S1024, .f32⟩
  | .hbm, ⟨25, _⟩ => ⟨S1x1024, .f32⟩
  | .hbm, ⟨26, _⟩ => ⟨S1, .f32⟩
  | .hbm, ⟨27, _⟩ => ⟨S1024x1024, .f32⟩
  | .hbm, ⟨28, _⟩ => ⟨S1024, .f32⟩
  | .hbm, ⟨29, _⟩ => ⟨S1024x1024, .f32⟩
  | .hbm, ⟨30, _⟩ => ⟨S1024, .f32⟩
  | .hbm, ⟨31, _⟩ => ⟨S1024x1024, .f32⟩
  | .hbm, ⟨32, _⟩ => ⟨S1024, .f32⟩
  | .hbm, ⟨33, _⟩ => ⟨S1024x1024, .f32⟩
  | .hbm, ⟨34, _⟩ => ⟨S1024x1024, .f32⟩
  | .hbm, ⟨35, _⟩ => ⟨S6144x1024, .f32⟩
  | .hbm, ⟨36, _⟩ => ⟨S6144x1024, .bf16⟩
  | .hbm, ⟨37, _⟩ => ⟨S6144x1024, .f32⟩
  | .hbm, ⟨38, _⟩ => ⟨S6144x1024, .bf16⟩
  | .hbm, ⟨39, _⟩ => ⟨S_, .f32⟩
  | .hbm, ⟨40, _⟩ => ⟨S1024, .f32⟩
  | .hbm, ⟨41, _⟩ => ⟨S6144, .f32⟩
  | .hbm, ⟨42, _⟩ => ⟨S6144, .f32⟩
  | .hbm, ⟨43, _⟩ => ⟨S6144, .f32⟩
  | .hbm, ⟨44, _⟩ => ⟨S1x6144, .f32⟩
  | .hbm, ⟨45, _⟩ => ⟨S1x1, .f32⟩
  | .hbm, ⟨46, _⟩ => ⟨S1024x1024, .bf16⟩
  | .hbm, ⟨47, _⟩ => ⟨S1024x1024, .bf16⟩
  | .hbm, ⟨48, _⟩ => ⟨S1024x1024, .bf16⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S8192x1024, .f32⟩
  | .hbm, ⟨53, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S6144x1024, .bf16⟩
  | .local _ .vmem, ⟨7, _⟩ => ⟨S6144x1024, .bf16⟩
  | .local _ .vmem, ⟨8, _⟩ => ⟨S1x6144, .f32⟩
  | .local _ .vmem, ⟨9, _⟩ => ⟨S1x1024, .f32⟩
  | .local _ .vmem, ⟨10, _⟩ => ⟨S1x1, .f32⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S1024x1024, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_cst : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18_0 : Ref sig .tc := ⟨.hbm, 52, rfl⟩
abbrev main_v18_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6144x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6144x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S1024x2048_S1024x1024_0_0 : S1024x2048.Slices ![0, 0] S1024x1024
  slices_S1024x2048_S1024x1024_0_1024 : S1024x2048.Slices ![0, 1024] S1024x1024
  concatenates_S1024x1024_S1024x1024_S1024x1024_S1024x1024_S1024x1024_S1024x1024_S6144x1024_d0 : Shape.Concatenates [S1024x1024, S1024x1024, S1024x1024, S1024x1024, S1024x1024, S1024x1024] S6144x1024 0
  bitsLt_bf16_f32 : FTy.bits .bf16 < FTy.bits .f32
  bcast_S_S1024 : S_.BroadcastsInDim S1024 (![] : Fin 0 → Fin S1024.rank)
  concatenates_S1024_S1024_S1024_S1024_S1024_S1024_S6144_d0 : Shape.Concatenates [S1024, S1024, S1024, S1024, S1024, S1024] S6144 0
  shapeCasts_S6144_S1x6144 : S6144.ShapeCasts S1x6144
  shapeCasts_S1_S1x1 : S1.ShapeCasts S1x1
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S6144x1024_S6144x1024_0_0 : ∀ a, (![0, 0] : Fin 2 → Nat) a + S6144x1024.size a ≤ S6144x1024.size a
  h_S6144x1024 : 0 < S6144x1024.numel
  shapeCasts_S6144x1024_S6144x1024 : S6144x1024.ShapeCasts S6144x1024
  inb_S1x6144_S1x6144_0_0 : ∀ a, (![0, 0] : Fin 2 → Nat) a + S1x6144.size a ≤ S1x6144.size a
  h_S1x6144 : 0 < S1x6144.numel
  shapeCasts_S1x6144_S1x6144 : S1x6144.ShapeCasts S1x6144
  broadcasts_S1x6144_S256x6144 : S1x6144.Broadcasts S256x6144
  slices_S256x6144_o0_0_S256x1024 : S256x6144.Slices ![0, 0] S256x1024
  slices_S256x6144_o0_1024_S256x1024 : S256x6144.Slices ![0, 1024] S256x1024
  slices_S256x6144_o0_2048_S256x1024 : S256x6144.Slices ![0, 2048] S256x1024
  slices_S256x6144_o0_3072_S256x1024 : S256x6144.Slices ![0, 3072] S256x1024
  slices_S256x6144_o0_4096_S256x1024 : S256x6144.Slices ![0, 4096] S256x1024
  slices_S256x6144_o0_5120_S256x1024 : S256x6144.Slices ![0, 5120] S256x1024
  inb_S1x1024_S1x1024_0_0 : ∀ a, (![0, 0] : Fin 2 → Nat) a + S1x1024.size a ≤ S1x1024.size a
  h_S1x1024 : 0 < S1x1024.numel
  broadcasts_S1x1024_S256x1024 : S1x1024.Broadcasts S256x1024
  reduces_S256x1024_S256 : S256x1024.Reduces [1] S256
  shapeCasts_S256_S256x1 : S256.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  broadcasts_S256x1_S256x1024 : S256x1.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1x1024_S1x1024 : S1x1024.ShapeCasts S1x1024
  dot_S256x1024_S6144x1024_S256x6144_1_1_0_0_n_n_wf : DotDims.WF S256x1024 S6144x1024 S256x6144 [1] [1] [0] [0] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6144x1024.size a ≤ S6144x1024.size a
  hwx0_3 : ∀ i : grid0.Coords, EltTy.bits .bf16 = 32 ∨ (Rect.block (s := S6144x1024) S6144x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6144x1024.size a ≤ S6144x1024.size a
  hwx0_4 : ∀ i : grid0.Coords, EltTy.bits .bf16 = 32 ∨ (Rect.block (s := S6144x1024) S6144x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x6144.size a ≤ S1x6144.size a
  hwx0_5 : ∀ i : grid0.Coords, EltTy.bits .f32 = 32 ∨ (Rect.block (s := S1x6144) S1x6144.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1024.size a ≤ S8192x1024.size a
  hwx0_14 : ∀ i : grid0.Coords, EltTy.bits .f32 = 32 ∨ (Rect.block (s := S8192x1024) S256x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S8192x1024.size a
  hwx0_15 : ∀ i : grid0.Coords, EltTy.bits .f32 = 32 ∨ (Rect.block (s := S8192x1024) S256x1024.size (cc0_transform_15 i) (hinb0_15 i)).WholeWords (EltTy.packing .f32)

variable [Facts₀]

def dot_S256x1024_S6144x1024_S256x6144_1_1_0_0_n_n : DotDims S256x1024 S6144x1024 S256x6144 where
  lhsContracting := [1]
  rhsContracting := [1]
  lhsNonContracting := [0]
  rhsNonContracting := [0]
  lhsBatch := []
  rhsBatch := []
  wf := dot_S256x1024_S6144x1024_S256x6144_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S6144x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S6144x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x6144.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg25) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18_0) S256x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v18_1) S256x1024.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S1 : Shape := ⟨1, ![1]⟩
abbrev S_ : Shape := ⟨0, ![]⟩
abbrev S8192x2048 : Shape := ⟨2, ![8192, 2048]⟩
abbrev S2048x1024 : Shape := ⟨2, ![2048, 1024]⟩
abbrev S1024x1 : Shape := ⟨2, ![1024, 1]⟩
abbrev S8192x1 : Shape := ⟨2, ![8192, 1]⟩
abbrev S1x1 : Shape := ⟨2, ![1, 1]⟩

abbrev nBuf : Space → Nat
  | .hbm => 173
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S1024x1024, .f32⟩
  | 14 => ⟨S1024, .f32⟩
  | 15 => ⟨S1024x1024, .f32⟩
  | 16 => ⟨S1024, .f32⟩
  | 17 => ⟨S1024x1024, .f32⟩
  | 18 => ⟨S1024, .f32⟩
  | 19 => ⟨S1024x1024, .f32⟩
  | 20 => ⟨S1024, .f32⟩
  | 21 => ⟨S1024x1024, .f32⟩
  | 22 => ⟨S1024, .f32⟩
  | 23 => ⟨S1024x2048, .f32⟩
  | 24 => ⟨S1024, .f32⟩
  | 25 => ⟨S1x1024, .f32⟩
  | 26 => ⟨S1, .f32⟩
  | 27 => ⟨S1024x1024, .f32⟩
  | 28 => ⟨S1024, .f32⟩
  | 29 => ⟨S1024x1024, .f32⟩
  | 30 => ⟨S1024, .f32⟩
  | 31 => ⟨S1024x1024, .f32⟩
  | 32 => ⟨S1024, .f32⟩
  | 33 => ⟨S1024x1024, .f32⟩
  | 34 => ⟨S8192x1024, .f32⟩
  | 35 => ⟨S1x1024, .f32⟩
  | 36 => ⟨S8192x1024, .f32⟩
  | 37 => ⟨S8192x1024, .f32⟩
  | 38 => ⟨S1024x1024, .f32⟩
  | 39 => ⟨S8192x1024, .f32⟩
  | 40 => ⟨S1x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S1024x1024, .f32⟩
  | 53 => ⟨S8192x1024, .f32⟩
  | 54 => ⟨S1x1024, .f32⟩
  | 55 => ⟨S8192x1024, .f32⟩
  | 56 => ⟨S8192x1024, .f32⟩
  | 57 => ⟨S1024x1024, .f32⟩
  | 58 => ⟨S8192x1024, .f32⟩
  | 59 => ⟨S1x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S1024x1024, .f32⟩
  | 72 => ⟨S8192x1024, .f32⟩
  | 73 => ⟨S1x1024, .f32⟩
  | 74 => ⟨S8192x1024, .f32⟩
  | 75 => ⟨S8192x1024, .f32⟩
  | 76 => ⟨S1024x1024, .f32⟩
  | 77 => ⟨S8192x1024, .f32⟩
  | 78 => ⟨S1x1024, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S_, .f32⟩
  | 88 => ⟨S8192x1024, .f32⟩
  | 89 => ⟨S8192x1024, .f32⟩
  | 90 => ⟨S1024x1024, .f32⟩
  | 91 => ⟨S8192x1024, .f32⟩
  | 92 => ⟨S1x1024, .f32⟩
  | 93 => ⟨S8192x1024, .f32⟩
  | 94 => ⟨S8192x1024, .f32⟩
  | 95 => ⟨S1024x1024, .f32⟩
  | 96 => ⟨S8192x1024, .f32⟩
  | 97 => ⟨S1x1024, .f32⟩
  | 98 => ⟨S8192x1024, .f32⟩
  | 99 => ⟨S8192x1024, .f32⟩
  | 100 => ⟨S8192x1024, .f32⟩
  | 101 => ⟨S8192x1024, .f32⟩
  | 102 => ⟨S8192x2048, .f32⟩
  | 103 => ⟨S2048x1024, .f32⟩
  | 104 => ⟨S8192x1024, .f32⟩
  | 105 => ⟨S1x1024, .f32⟩
  | 106 => ⟨S8192x1024, .f32⟩
  | 107 => ⟨S8192x1024, .f32⟩
  | 108 => ⟨S_, .f32⟩
  | 109 => ⟨S8192x1024, .f32⟩
  | 110 => ⟨S8192x1024, .f32⟩
  | 111 => ⟨S1024x1, .f32⟩
  | 112 => ⟨S8192x1, .f32⟩
  | 113 => ⟨S1x1, .f32⟩
  | 114 => ⟨S8192x1, .f32⟩
  | 115 => ⟨S8192x1, .f32⟩
  | 116 => ⟨S8192x1, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192x1, .f32⟩
  | 123 => ⟨S8192x1, .f32⟩
  | 124 => ⟨S1024x1024, .f32⟩
  | 125 => ⟨S8192x1024, .f32⟩
  | 126 => ⟨S1x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S1024x1024, .f32⟩
  | 2 => ⟨S8192x1024, .f32⟩
  | 3 => ⟨S1x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S1024x1024, .f32⟩
  | 22 => ⟨S8192x1024, .f32⟩
  | 23 => ⟨S1x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S1024x1024, .f32⟩
  | 30 => ⟨S8192x1024, .f32⟩
  | 31 => ⟨S1x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S1024x1024, .f32⟩
  | 38 => ⟨S8192x1024, .f32⟩
  | 39 => ⟨S1x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst : Ref sig .tc := ⟨.hbm, 46, rfl⟩
abbrev main_v13 : Ref sig .tc := ⟨.hbm, 47, rfl⟩
abbrev main_v14 : Ref sig .tc := ⟨.hbm, 48, rfl⟩
abbrev main_cst_0 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_1 : Ref sig .tc := ⟨.hbm, 65, rfl⟩
abbrev main_v30 : Ref sig .tc := ⟨.hbm, 66, rfl⟩
abbrev main_v31 : Ref sig .tc := ⟨.hbm, 67, rfl⟩
abbrev main_cst_2 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_3 : Ref sig .tc := ⟨.hbm, 84, rfl⟩
abbrev main_v47 : Ref sig .tc := ⟨.hbm, 85, rfl⟩
abbrev main_v48 : Ref sig .tc := ⟨.hbm, 86, rfl⟩
abbrev main_cst_4 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_call0_cst : Ref sig .tc := ⟨.hbm, 108, rfl⟩
abbrev main_call0_v0 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_5 : Ref sig .tc := ⟨.hbm, 118, rfl⟩
abbrev main_v77 : Ref sig .tc := ⟨.hbm, 119, rfl⟩
abbrev main_v78 : Ref sig .tc := ⟨.hbm, 120, rfl⟩
abbrev main_cst_6 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_7 : Ref sig .tc := ⟨.hbm, 137, rfl⟩
abbrev main_v94 : Ref sig .tc := ⟨.hbm, 138, rfl⟩
abbrev main_v95 : Ref sig .tc := ⟨.hbm, 139, rfl⟩
abbrev main_cst_8 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_call1_cst : Ref sig .tc := ⟨.hbm, 154, rfl⟩
abbrev main_call1_v0 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_call2_cst : Ref sig .tc := ⟨.hbm, 162, rfl⟩
abbrev main_call2_v0 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  concatenates_S8192x1024_S8192x1024_S8192x2048_d1 : Shape.Concatenates [S8192x1024, S8192x1024] S8192x2048 1
  transposes_S1024x2048_S2048x1024_1_0 : S1024x2048.Transposes [1, 0] S2048x1024
  transposes_S1x1024_S1024x1_1_0 : S1x1024.Transposes [1, 0] S1024x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  dot_S8192x1024_S1024x1024_S8192x1024_1_0_0_1_n_n_wf : DotDims.WF S8192x1024 S1024x1024 S8192x1024 [1] [0] [0] [1] [] []
  dot_S8192x2048_S2048x1024_S8192x1024_1_0_0_1_n_n_wf : DotDims.WF S8192x2048 S2048x1024 S8192x1024 [1] [0] [0] [1] [] []
  dot_S8192x1024_S1024x1_S8192x1_1_0_0_1_n_n_wf : DotDims.WF S8192x1024 S1024x1 S8192x1 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x1_S8192x1_1_0_0_1_n_n : DotDims S8192x1024 S1024x1 S8192x1 where
  lhsContracting := [1]
  rhsContracting := [0]
  lhsNonContracting := [0]
  rhsNonContracting := [1]
  lhsBatch := []
  rhsBatch := []
  wf := dot_S8192x1024_S1024x1_S8192x1_1_0_0_1_n_n_wf

class Facts : Prop extends Facts₀ where

variable [Facts]
-- ==== Proof.FrameKHost.lean ====
/- The program's entry function up to its one pipelined region, and the region's input blocks.
   The entry function is a straight line of nineteen host operations (slices, four concatenations, conversions,
   a sum, reshapes) followed by the region and nothing else.  This module states: the contents `V` of a core's
   buffers when the region is entered (the host line's effect on the launched memory); that the host line writes
   only its own nineteen results, so each of the thirty-three argument arrays is found as launched
   (`V_main_argK`); the entry function as "host line, then region" in the form the frame theorem takes (`hmain`);
   each window's block at a grid point read off `V` (`iblk`); and that an input window's current staging buffer
   holds that block at every point, whether the pipeline fetched it there or kept it from the point before
   (`before0_W_of`, for the fourteen input windows). -/
import proofs.«181006_j19473381720316_2_alg».proof.Proof.Gen.Kernel.Launch
import proofs.«181006_j19473381720316_2_alg».proof.Proof.Gen.Kernel.Skeleton
import proofs.«181006_j19473381720316_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The entry function up to the region -/

/-- Core `c`'s buffers when the region is entered: the launched contents after the host line. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The references the host line writes: its nineteen results, none of them an argument of the entry function. -/
abbrev hostResults : List (Ref sig .tc) :=
  [main_v0, main_v1, main_v2, main_v3, main_v4, main_v5, main_cst, main_v6, main_v7, main_v8, main_v9, main_v10, main_v11, main_v12, main_v13, main_v14, main_v15, main_v16, main_v17]

/-- Every host operation writes one buffer, and it is among `hostResults`. -/
theorem hostOps0_writes : (hostOps0 : List (HloOp τ sig (Elt F))).Forall fun op =>
    op.writes ⊆ (hostResults.map (Proc.devRef (τ := τ) .tc)).toFinset := by
  simp only [hostOps0, List.Forall, StableHlo.nullary_writes, StableHlo.unary_writes, StableHlo.binary_writes,
    StableHlo.reshape_writes, StableHlo.nary_writes, Finset.singleton_subset_iff, List.mem_toFinset]
  repeat' apply And.intro
  all_goals exact List.mem_map_of_mem (by decide)

/-- A reference that is no host result holds at the region's entry what it was launched with. -/
theorem V_of_not_result (c : Dev nD) (r : Ref sig .tc) (hr : r ∉ hostResults) : V m c r = m ((c : Thread nD τ).loc r) :=
  StableHlo.after_of_writes_sub hostOps0 (fun b => m (c, b)) hostOps0_writes hr

/-- The entry function is the host line then the region, at the certificate's variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ### Each argument array is found as launched -/

theorem V_main_arg0 (c : Dev nD) : V m c main_arg0 = m ((c : Thread nD τ).loc main_arg0) := V_of_not_result m c main_arg0 (by decide)
theorem V_main_arg1 (c : Dev nD) : V m c main_arg1 = m ((c : Thread nD τ).loc main_arg1) := V_of_not_result m c main_arg1 (by decide)
theorem V_main_arg2 (c : Dev nD) : V m c main_arg2 = m ((c : Thread nD τ).loc main_arg2) := V_of_not_result m c main_arg2 (by decide)
theorem V_main_arg3 (c : Dev nD) : V m c main_arg3 = m ((c : Thread nD τ).loc main_arg3) := V_of_not_result m c main_arg3 (by decide)
theorem V_main_arg4 (c : Dev nD) : V m c main_arg4 = m ((c : Thread nD τ).loc main_arg4) := V_of_not_result m c main_arg4 (by decide)
theorem V_main_arg5 (c : Dev nD) : V m c main_arg5 = m ((c : Thread nD τ).loc main_arg5) := V_of_not_result m c main_arg5 (by decide)
theorem V_main_arg6 (c : Dev nD) : V m c main_arg6 = m ((c : Thread nD τ).loc main_arg6) := V_of_not_result m c main_arg6 (by decide)
theorem V_main_arg7 (c : Dev nD) : V m c main_arg7 = m ((c : Thread nD τ).loc main_arg7) := V_of_not_result m c main_arg7 (by decide)
theorem V_main_arg8 (c : Dev nD) : V m c main_arg8 = m ((c : Thread nD τ).loc main_arg8) := V_of_not_result m c main_arg8 (by decide)
theorem V_main_arg9 (c : Dev nD) : V m c main_arg9 = m ((c : Thread nD τ).loc main_arg9) := V_of_not_result m c main_arg9 (by decide)
theorem V_main_arg10 (c : Dev nD) : V m c main_arg10 = m ((c : Thread nD τ).loc main_arg10) := V_of_not_result m c main_arg10 (by decide)
theorem V_main_arg11 (c : Dev nD) : V m c main_arg11 = m ((c : Thread nD τ).loc main_arg11) := V_of_not_result m c main_arg11 (by decide)
theorem V_main_arg12 (c : Dev nD) : V m c main_arg12 = m ((c : Thread nD τ).loc main_arg12) := V_of_not_result m c main_arg12 (by decide)
theorem V_main_arg13 (c : Dev nD) : V m c main_arg13 = m ((c : Thread nD τ).loc main_arg13) := V_of_not_result m c main_arg13 (by decide)
theorem V_main_arg14 (c : Dev nD) : V m c main_arg14 = m ((c : Thread nD τ).loc main_arg14) := V_of_not_result m c main_arg14 (by decide)
theorem V_main_arg15 (c : Dev nD) : V m c main_arg15 = m ((c : Thread nD τ).loc main_arg15) := V_of_not_result m c main_arg15 (by decide)
theorem V_main_arg16 (c : Dev nD) : V m c main_arg16 = m ((c : Thread nD τ).loc main_arg16) := V_of_not_result m c main_arg16 (by decide)
theorem V_main_arg17 (c : Dev nD) : V m c main_arg17 = m ((c : Thread nD τ).loc main_arg17) := V_of_not_result m c main_arg17 (by decide)
theorem V_main_arg18 (c : Dev nD) : V m c main_arg18 = m ((c : Thread nD τ).loc main_arg18) := V_of_not_result m c main_arg18 (by decide)
theorem V_main_arg19 (c : Dev nD) : V m c main_arg19 = m ((c : Thread nD τ).loc main_arg19) := V_of_not_result m c main_arg19 (by decide)
theorem V_main_arg20 (c : Dev nD) : V m c main_arg20 = m ((c : Thread nD τ).loc main_arg20) := V_of_not_result m c main_arg20 (by decide)
theorem V_main_arg21 (c : Dev nD) : V m c main_arg21 = m ((c : Thread nD τ).loc main_arg21) := V_of_not_result m c main_arg21 (by decide)
theorem V_main_arg22 (c : Dev nD) : V m c main_arg22 = m ((c : Thread nD τ).loc main_arg22) := V_of_not_result m c main_arg22 (by decide)
theorem V_main_arg23 (c : Dev nD) : V m c main_arg23 = m ((c : Thread nD τ).loc main_arg23) := V_of_not_result m c main_arg23 (by decide)
theorem V_main_arg24 (c : Dev nD) : V m c main_arg24 = m ((c : Thread nD τ).loc main_arg24) := V_of_not_result m c main_arg24 (by decide)
theorem V_main_arg25 (c : Dev nD) : V m c main_arg25 = m ((c : Thread nD τ).loc main_arg25) := V_of_not_result m c main_arg25 (by decide)
theorem V_main_arg26 (c : Dev nD) : V m c main_arg26 = m ((c : Thread nD τ).loc main_arg26) := V_of_not_result m c main_arg26 (by decide)
theorem V_main_arg27 (c : Dev nD) : V m c main_arg27 = m ((c : Thread nD τ).loc main_arg27) := V_of_not_result m c main_arg27 (by decide)
theorem V_main_arg28 (c : Dev nD) : V m c main_arg28 = m ((c : Thread nD τ).loc main_arg28) := V_of_not_result m c main_arg28 (by decide)
theorem V_main_arg29 (c : Dev nD) : V m c main_arg29 = m ((c : Thread nD τ).loc main_arg29) := V_of_not_result m c main_arg29 (by decide)
theorem V_main_arg30 (c : Dev nD) : V m c main_arg30 = m ((c : Thread nD τ).loc main_arg30) := V_of_not_result m c main_arg30 (by decide)
theorem V_main_arg31 (c : Dev nD) : V m c main_arg31 = m ((c : Thread nD τ).loc main_arg31) := V_of_not_result m c main_arg31 (by decide)
theorem V_main_arg32 (c : Dev nD) : V m c main_arg32 = m ((c : Thread nD τ).loc main_arg32) := V_of_not_result m c main_arg32 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ### An input window's staging buffer holds its block

For any proof data whose array for window `w` is `V`'s (`hA`) and whose body leaves the window's block in place
(`hafter`): the buffer the body is handed at point `t` reads `iblk … w t`.  Windows 0, 1, 2 move with the grid and
are fetched at every point; windows 3 to 13 have a constant block index and are fetched once, and at a later point the
buffer still holds the first point's block, which is every point's.  None is cut at the array's edge, none is ever
idle. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

end Cert.Kernel.Fr

end
-- ==== Proof.FrameKBody.lean ====
/- The kernel body as a transformer of its sixteen staging buffers.
   The body reads each of the fourteen input buffers whole, once; it also reads both output buffers (the values read
   are used by nothing) and then stores each output buffer whole, once.  So what it leaves in an output buffer is a
   function of the fourteen input blocks alone: `out0_15` is the payload `k0_pay9` of the inputs' loads and `out0_14` the
   payload `k0_pay10` (a sigmoid slice of the summed matrix products times the hyperbolic tangent of `k0_pay9`), each the
   one whole-buffer store read back.
   `sound_kernel` is the body's weakest-precondition triple over buffers held at read contents: inputs are returned
   as found, outputs are returned at `out0_14` / `out0_15` of the inputs, whatever they held before. -/
import proofs.«181006_j19473381720316_2_alg».proof.Proof.Gen.Kernel.Launch
import proofs.«181006_j19473381720316_2_alg».proof.Proof.Gen.Kernel.Skeleton
import proofs.«181006_j19473381720316_2_alg».proof.Proof.Gen.Kernel.Points
import proofs.«181006_j19473381720316_2_alg».proof.Proof.FrameKHost
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The whole-buffer rectangles the body loads and stores through -/

abbrev whole_S256x1024 : Rect S256x1024 := Rect.unit (s := S256x1024) ![0, 0] S256x1024.size inb_S256x1024_S256x1024_0_0
abbrev whole_S6144x1024 : Rect S6144x1024 := Rect.unit (s := S6144x1024) ![0, 0] S6144x1024.size inb_S6144x1024_S6144x1024_0_0
abbrev whole_S1x6144 : Rect S1x6144 := Rect.unit (s := S1x6144) ![0, 0] S1x6144.size inb_S1x6144_S1x6144_0_0
abbrev whole_S1x1024 : Rect S1x1024 := Rect.unit (s := S1x1024) ![0, 0] S1x1024.size inb_S1x1024_S1x1024_0_0
abbrev whole_S1x1 : Rect S1x1 := Rect.unit (s := S1x1) ![0, 0] S1x1.size inb_S1x1_S1x1_0_0
abbrev whole_S1024x1024 : Rect S1024x1024 := Rect.unit (s := S1024x1024) ![0, 0] S1024x1024.size inb_S1024x1024_S1024x1024_0_0

/-! ## What the body leaves in each output buffer

The arguments are the contents the fourteen input buffers read, in window order.  `x0` and `x1` are, rounded to
bf16, the left operands of the two 6144-wide matrix products, whose right operands are `x3` and `x4` and to whose sum
the row `x5` is added; `x2` enters `k0_pay9` multiplied by the second sigmoid slice; `x6` is the row the last slice,
clamped at zero, is multiplied by before it is summed along its rows, and `x7` the 1×1 term added to that sum;
`x8` … `x13` are three (matrix, bias row) pairs applied in turn to `x1` rounded to bf16. -/

/-- Output window 14's buffer after the body: its one store (of the whole buffer) read back. -/
def out0_14 (x0 : Vec F S256x1024 .f32) (x1 : Vec F S256x1024 .f32) (x2 : Vec F S256x1024 .f32) (x3 : Vec F S6144x1024 .bf16) (x4 : Vec F S6144x1024 .bf16) (x5 : Vec F S1x6144 .f32) (x6 : Vec F S1x1024 .f32) (x7 : Vec F S1x1 .f32) (x8 : Vec F S1024x1024 .bf16) (x9 : Vec F S1x1024 .f32) (x10 : Vec F S1024x1024 .bf16) (x11 : Vec F S1x1024 .f32) (x12 : Vec F S1024x1024 .bf16) (x13 : Vec F S1x1024 .f32) : Vec F S256x1024 .f32 :=
  View.canon [⟨whole_S256x1024, k0_pay10 (View.ld x2 whole_S256x1024) (k0_pay1 (View.ld x1 whole_S256x1024))
      (k0_pay3 (View.ld x0 whole_S256x1024) (View.ld x1 whole_S256x1024) (View.ld x3 whole_S6144x1024) (View.ld x4 whole_S6144x1024) (View.ld x5 whole_S1x6144))
      (k0_pay4 (View.ld x0 whole_S256x1024) (View.ld x1 whole_S256x1024) (View.ld x3 whole_S6144x1024) (View.ld x4 whole_S6144x1024) (View.ld x5 whole_S1x6144))
      (k0_pay5 (View.ld x0 whole_S256x1024) (View.ld x1 whole_S256x1024) (View.ld x3 whole_S6144x1024) (View.ld x4 whole_S6144x1024) (View.ld x5 whole_S1x6144))
      (k0_pay6 (View.ld x0 whole_S256x1024) (View.ld x1 whole_S256x1024) (View.ld x3 whole_S6144x1024) (View.ld x4 whole_S6144x1024) (View.ld x5 whole_S1x6144))
      (k0_pay7 (View.ld x0 whole_S256x1024) (View.ld x1 whole_S256x1024) (View.ld x3 whole_S6144x1024) (View.ld x4 whole_S6144x1024) (View.ld x5 whole_S1x6144))
      (k0_pay8 (View.ld x0 whole_S256x1024) (View.ld x1 whole_S256x1024) (View.ld x3 whole_S6144x1024) (View.ld x4 whole_S6144x1024) (View.ld x5 whole_S1x6144) (View.ld x6 whole_S1x1024) (View.ld x7 whole_S1x1))
      (View.ld x8 whole_S1024x1024) (View.ld x9 whole_S1x1024) (View.ld x10 whole_S1024x1024) (View.ld x11 whole_S1x1024) (View.ld x12 whole_S1024x1024) (View.ld x13 whole_S1x1024)⟩]

/-- Output window 15's buffer after the body: its one store (of the whole buffer) read back. -/
def out0_15 (x0 : Vec F S256x1024 .f32) (x1 : Vec F S256x1024 .f32) (x2 : Vec F S256x1024 .f32) (x3 : Vec F S6144x1024 .bf16) (x4 : Vec F S6144x1024 .bf16) (x5 : Vec F S1x6144 .f32) (x6 : Vec F S1x1024 .f32) (x7 : Vec F S1x1 .f32) (x8 : Vec F S1024x1024 .bf16) (x9 : Vec F S1x1024 .f32) (x10 : Vec F S1024x1024 .bf16) (x11 : Vec F S1x1024 .f32) (x12 : Vec F S1024x1024 .bf16) (x13 : Vec F S1x1024 .f32) : Vec F S256x1024 .f32 :=
  View.canon [⟨whole_S256x1024, k0_pay9 (View.ld x2 whole_S256x1024) (k0_pay1 (View.ld x1 whole_S256x1024))
      (k0_pay3 (View.ld x0 whole_S256x1024) (View.ld x1 whole_S256x1024) (View.ld x3 whole_S6144x1024) (View.ld x4 whole_S6144x1024) (View.ld x5 whole_S1x6144))
      (k0_pay4 (View.ld x0 whole_S256x1024) (View.ld x1 whole_S256x1024) (View.ld x3 whole_S6144x1024) (View.ld x4 whole_S6144x1024) (View.ld x5 whole_S1x6144))
      (k0_pay6 (View.ld x0 whole_S256x1024) (View.ld x1 whole_S256x1024) (View.ld x3 whole_S6144x1024) (View.ld x4 whole_S6144x1024) (View.ld x5 whole_S1x6144))
      (k0_pay7 (View.ld x0 whole_S256x1024) (View.ld x1 whole_S256x1024) (View.ld x3 whole_S6144x1024) (View.ld x4 whole_S6144x1024) (View.ld x5 whole_S1x6144))
      (k0_pay8 (View.ld x0 whole_S256x1024) (View.ld x1 whole_S256x1024) (View.ld x3 whole_S6144x1024) (View.ld x4 whole_S6144x1024) (View.ld x5 whole_S1x6144) (View.ld x6 whole_S1x1024) (View.ld x7 whole_S1x1))
      (View.ld x8 whole_S1024x1024) (View.ld x9 whole_S1x1024) (View.ld x10 whole_S1024x1024) (View.ld x11 whole_S1x1024) (View.ld x12 whole_S1024x1024) (View.ld x13 whole_S1x1024)⟩]

/-- One store of the whole buffer covers it. -/
theorem cover0_14 (p0 : Vec F S256x1024 .f32) (y : S256x1024.Idx) :
    ∃ pc ∈ ([⟨whole_S256x1024, p0⟩] : List (View.Piece (Elt F) S256x1024 .f32)), y ∈ pc.1.set :=
  View.cover_of_tiled [⟨whole_S256x1024, p0⟩] S256x1024.size (by rfl) y

theorem cover0_15 (p0 : Vec F S256x1024 .f32) (y : S256x1024.Idx) :
    ∃ pc ∈ ([⟨whole_S256x1024, p0⟩] : List (View.Piece (Elt F) S256x1024 .f32)), y ∈ pc.1.set :=
  cover0_14 p0 y

/-! ## The body's triple -/

set_option maxHeartbeats 4000000 in
/-- From the fourteen input buffers held whole at read contents `xW` and the two output buffers held whole at any
    contents, the body runs to the continuation, which receives the inputs as they were and the outputs at
    `out0_14` and `out0_15` of the inputs. -/
theorem sound_kernel (c : Dev nD) (E : Set ℕ) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S256x1024 .f32) (harg3 : arg3.IsWhole)
    (arg4 : Memref sig .tc .vmem S6144x1024 .bf16) (harg4 : arg4.IsWhole)
    (arg5 : Memref sig .tc .vmem S6144x1024 .bf16) (harg5 : arg5.IsWhole)
    (arg6 : Memref sig .tc .vmem S1x6144 .f32) (harg6 : arg6.IsWhole)
    (arg7 : Memref sig .tc .vmem S1x1024 .f32) (harg7 : arg7.IsWhole)
    (arg8 : Memref sig .tc .vmem S1x1 .f32) (harg8 : arg8.IsWhole)
    (arg9 : Memref sig .tc .vmem S1024x1024 .bf16) (harg9 : arg9.IsWhole)
    (arg10 : Memref sig .tc .vmem S1x1024 .f32) (harg10 : arg10.IsWhole)
    (arg11 : Memref sig .tc .vmem S1024x1024 .bf16) (harg11 : arg11.IsWhole)
    (arg12 : Memref sig .tc .vmem S1x1024 .f32) (harg12 : arg12.IsWhole)
    (arg13 : Memref sig .tc .vmem S1024x1024 .bf16) (harg13 : arg13.IsWhole)
    (arg14 : Memref sig .tc .vmem S1x1024 .f32) (harg14 : arg14.IsWhole)
    (arg15 : Memref sig .tc .vmem S256x1024 .f32) (harg15 : arg15.IsWhole)
    (arg16 : Memref sig .tc .vmem S256x1024 .f32) (harg16 : arg16.IsWhole)
    (x0 : Vec F S256x1024 .f32) (x1 : Vec F S256x1024 .f32) (x2 : Vec F S256x1024 .f32) (x3 : Vec F S6144x1024 .bf16) (x4 : Vec F S6144x1024 .bf16) (x5 : Vec F S1x6144 .f32) (x6 : Vec F S1x1024 .f32) (x7 : Vec F S1x1 .f32) (x8 : Vec F S1024x1024 .bf16) (x9 : Vec F S1x1024 .f32) (x10 : Vec F S1024x1024 .bf16) (x11 : Vec F S1x1024 .f32) (x12 : Vec F S1024x1024 .bf16) (x13 : Vec F S1x1024 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (∃ d, owns (c : Thread nD τ) arg16 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (out0_14 x0 x1 x2 x3 x4 x5 x6 x7 x8 x9 x10 x11 x12 x13)
            ∗ owns (c : Thread nD τ) arg16 fullShare (out0_15 x0 x1 x2 x3 x4 x5 x6 x7 x8 x9 x10 x11 x12 x13)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover0_14 _)
  iexists _; isplitr
  swap; · iexact H15
  ipureintro
  exact View.read_writes_eq_canon _ _ _ (cover0_15 _)

end Cert.Kernel.Fr

end
-- ==== Proof.FrameK.lean ====
/- The frame of the program: every execution of the entry function terminates and leaves each of its
   thirty-three argument arrays as launched.
   The pipelined region is given its proof data (`dats`): the arrays as the region finds them, after the body at a
   point each input buffer at its block and each output buffer at `out0_14` / `out0_15` of the fourteen input
   blocks.  The body's triple (`sound_kernel`) then gives the library's body obligation at every grid point, the
   library's frame theorem gives the run (`run_main`), and its post, read at the argument arrays, is the frame
   (`frame`): arguments 0, 1, 2 and 25 are the arrays of input windows 0, 1, 2 and 6, which the region only reads;
   every other argument is staged by no window, the region does not touch it, and the host line before the region
   does not write it. -/
import proofs.«181006_j19473381720316_2_alg».proof.Proof.Gen.Kernel.Launch
import proofs.«181006_j19473381720316_2_alg».proof.Proof.Gen.Kernel.Skeleton
import proofs.«181006_j19473381720316_2_alg».proof.Proof.Gen.Kernel.Points
import proofs.«181006_j19473381720316_2_alg».proof.Proof.FrameKHost
import proofs.«181006_j19473381720316_2_alg».proof.Proof.FrameKBody
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- For any proof data whose arrays are the region-entry contents, a run to the library's frame post, read at the
    thirty-three argument arrays, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (by decide)).trans (V_main_arg3 m c),
      ((h c).2 main_arg4 (by decide)).trans (V_main_arg4 m c),
      ((h c).2 main_arg5 (by decide)).trans (V_main_arg5 m c),
      ((h c).2 main_arg6 (by decide)).trans (V_main_arg6 m c),
      ((h c).2 main_arg7 (by decide)).trans (V_main_arg7 m c),
      ((h c).2 main_arg8 (by decide)).trans (V_main_arg8 m c),
      ((h c).2 main_arg9 (by decide)).trans (V_main_arg9 m c),
      ((h c).2 main_arg10 (by decide)).trans (V_main_arg10 m c),
      ((h c).2 main_arg11 (by decide)).trans (V_main_arg11 m c),
      ((h c).2 main_arg12 (by decide)).trans (V_main_arg12 m c),
      ((h c).2 main_arg13 (by decide)).trans (V_main_arg13 m c),
      ((h c).2 main_arg14 (by decide)).trans (V_main_arg14 m c),
      ((h c).2 main_arg15 (by decide)).trans (V_main_arg15 m c),
      ((h c).2 main_arg16 (by decide)).trans (V_main_arg16 m c),
      ((h c).2 main_arg17 (by decide)).trans (V_main_arg17 m c),
      ((h c).2 main_arg18 (by decide)).trans (V_main_arg18 m c),
      ((h c).2 main_arg19 (by decide)).trans (V_main_arg19 m c),
      ((h c).2 main_arg20 (by decide)).trans (V_main_arg20 m c),
      ((h c).2 main_arg21 (by decide)).trans (V_main_arg21 m c),
      ((h c).2 main_arg22 (by decide)).trans (V_main_arg22 m c),
      ((h c).2 main_arg23 (by decide)).trans (V_main_arg23 m c),
      ((h c).2 main_arg24 (by decide)).trans (V_main_arg24 m c),
      ((h c).1 6).trans (((dats 0 c).arrAt_in 6 rfl _).trans ((hA c 6).trans (V_main_arg25 m c))),
      ((h c).2 main_arg26 (by decide)).trans (V_main_arg26 m c),
      ((h c).2 main_arg27 (by decide)).trans (V_main_arg27 m c),
      ((h c).2 main_arg28 (by decide)).trans (V_main_arg28 m c),
      ((h c).2 main_arg29 (by decide)).trans (V_main_arg29 m c),
      ((h c).2 main_arg30 (by decide)).trans (V_main_arg30 m c),
      ((h c).2 main_arg31 (by decide)).trans (V_main_arg31 m c),
      ((h c).2 main_arg32 (by decide)).trans (V_main_arg32 m c)⟩) h

/-! ## The pipeline's proof data -/

/-- The proof data of the one pipeline on core `c`: the arrays as the region finds them; after the body at point `t`
    each input buffer at its block and each output buffer at `out0_14` / `out0_15` of the input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 16, h⟩ => absurd h (Nat.not_lt.2 (Nat.le_add_left _ _))
  Φ _ := Pipeline.ΦA spec0 c
  q _ := fullShare
  owed _ := 0

/-- The proof data's arrays are the region-entry contents (a projection of the definition; the host line's fold is
    not opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t`: the invariant, what the core owes, and the sixteen current staging
    buffers, each at what the proof data says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns: the same, the buffers at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 2000000 in
/-- The body at any point: the input buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the entry
    function on the TensorCores terminates, and every final state has every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Fr.run_main' depends on axioms: [propext, Classical.choice, Quot.sound] -/
#guard_msgs in #print axioms run_main

/-- THE FRAME, at any `F`: every execution terminates and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  frame_of m ρ (dats m) (A_eq m) (run_main m ρ)

end Cert.Kernel.Fr

end
-- ==== Proof.FrameKIHost.lean ====
/- The program's entry function up to its one pipelined region, and the region's input blocks.
   The entry function is a straight line of nineteen host operations (slices, four concatenations, conversions,
   a sum, reshapes) followed by the region and nothing else.  This module states: the contents `V` of a core's
   buffers when the region is entered (the host line's effect on the launched memory); that the host line writes
   only its own nineteen results, so each of the thirty-three argument arrays is found as launched
   (`V_main_argK`); the entry function as "host line, then region" in the form the frame theorem takes (`hmain`);
   each window's block at a grid point read off `V` (`iblk`); and that an input window's current staging buffer
   holds that block at every point, whether the pipeline fetched it there or kept it from the point before
   (`before0_W_of`, for the fourteen input windows). -/
import proofs.«181006_j19473381720316_2_alg».proof.Proof.Gen.KernelIdeal.Launch
import proofs.«181006_j19473381720316_2_alg».proof.Proof.Gen.KernelIdeal.Skeleton
import proofs.«181006_j19473381720316_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The entry function up to the region -/

/-- Core `c`'s buffers when the region is entered: the launched contents after the host line. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The references the host line writes: its nineteen results, none of them an argument of the entry function. -/
abbrev hostResults : List (Ref sig .tc) :=
  [main_v0, main_v1, main_v2, main_v3, main_v4, main_v5, main_cst, main_v6, main_v7, main_v8, main_v9, main_v10, main_v11, main_v12, main_v13, main_v14, main_v15, main_v16, main_v17]

/-- Every host operation writes one buffer, and it is among `hostResults`. -/
theorem hostOps0_writes : (hostOps0 : List (HloOp τ sig (Elt F))).Forall fun op =>
    op.writes ⊆ (hostResults.map (Proc.devRef (τ := τ) .tc)).toFinset := by
  simp only [hostOps0, List.Forall, StableHlo.nullary_writes, StableHlo.unary_writes, StableHlo.binary_writes,
    StableHlo.reshape_writes, StableHlo.nary_writes, Finset.singleton_subset_iff, List.mem_toFinset]
  repeat' apply And.intro
  all_goals exact List.mem_map_of_mem (by decide)

/-- A reference that is no host result holds at the region's entry what it was launched with. -/
theorem V_of_not_result (c : Dev nD) (r : Ref sig .tc) (hr : r ∉ hostResults) : V m c r = m ((c : Thread nD τ).loc r) :=
  StableHlo.after_of_writes_sub hostOps0 (fun b => m (c, b)) hostOps0_writes hr

/-- The entry function is the host line then the region, at the certificate's variants `𝒱₀`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ### Each argument array is found as launched -/

theorem V_main_arg0 (c : Dev nD) : V m c main_arg0 = m ((c : Thread nD τ).loc main_arg0) := V_of_not_result m c main_arg0 (by decide)
theorem V_main_arg1 (c : Dev nD) : V m c main_arg1 = m ((c : Thread nD τ).loc main_arg1) := V_of_not_result m c main_arg1 (by decide)
theorem V_main_arg2 (c : Dev nD) : V m c main_arg2 = m ((c : Thread nD τ).loc main_arg2) := V_of_not_result m c main_arg2 (by decide)
theorem V_main_arg3 (c : Dev nD) : V m c main_arg3 = m ((c : Thread nD τ).loc main_arg3) := V_of_not_result m c main_arg3 (by decide)
theorem V_main_arg4 (c : Dev nD) : V m c main_arg4 = m ((c : Thread nD τ).loc main_arg4) := V_of_not_result m c main_arg4 (by decide)
theorem V_main_arg5 (c : Dev nD) : V m c main_arg5 = m ((c : Thread nD τ).loc main_arg5) := V_of_not_result m c main_arg5 (by decide)
theorem V_main_arg6 (c : Dev nD) : V m c main_arg6 = m ((c : Thread nD τ).loc main_arg6) := V_of_not_result m c main_arg6 (by decide)
theorem V_main_arg7 (c : Dev nD) : V m c main_arg7 = m ((c : Thread nD τ).loc main_arg7) := V_of_not_result m c main_arg7 (by decide)
theorem V_main_arg8 (c : Dev nD) : V m c main_arg8 = m ((c : Thread nD τ).loc main_arg8) := V_of_not_result m c main_arg8 (by decide)
theorem V_main_arg9 (c : Dev nD) : V m c main_arg9 = m ((c : Thread nD τ).loc main_arg9) := V_of_not_result m c main_arg9 (by decide)
theorem V_main_arg10 (c : Dev nD) : V m c main_arg10 = m ((c : Thread nD τ).loc main_arg10) := V_of_not_result m c main_arg10 (by decide)
theorem V_main_arg11 (c : Dev nD) : V m c main_arg11 = m ((c : Thread nD τ).loc main_arg11) := V_of_not_result m c main_arg11 (by decide)
theorem V_main_arg12 (c : Dev nD) : V m c main_arg12 = m ((c : Thread nD τ).loc main_arg12) := V_of_not_result m c main_arg12 (by decide)
theorem V_main_arg13 (c : Dev nD) : V m c main_arg13 = m ((c : Thread nD τ).loc main_arg13) := V_of_not_result m c main_arg13 (by decide)
theorem V_main_arg14 (c : Dev nD) : V m c main_arg14 = m ((c : Thread nD τ).loc main_arg14) := V_of_not_result m c main_arg14 (by decide)
theorem V_main_arg15 (c : Dev nD) : V m c main_arg15 = m ((c : Thread nD τ).loc main_arg15) := V_of_not_result m c main_arg15 (by decide)
theorem V_main_arg16 (c : Dev nD) : V m c main_arg16 = m ((c : Thread nD τ).loc main_arg16) := V_of_not_result m c main_arg16 (by decide)
theorem V_main_arg17 (c : Dev nD) : V m c main_arg17 = m ((c : Thread nD τ).loc main_arg17) := V_of_not_result m c main_arg17 (by decide)
theorem V_main_arg18 (c : Dev nD) : V m c main_arg18 = m ((c : Thread nD τ).loc main_arg18) := V_of_not_result m c main_arg18 (by decide)
theorem V_main_arg19 (c : Dev nD) : V m c main_arg19 = m ((c : Thread nD τ).loc main_arg19) := V_of_not_result m c main_arg19 (by decide)
theorem V_main_arg20 (c : Dev nD) : V m c main_arg20 = m ((c : Thread nD τ).loc main_arg20) := V_of_not_result m c main_arg20 (by decide)
theorem V_main_arg21 (c : Dev nD) : V m c main_arg21 = m ((c : Thread nD τ).loc main_arg21) := V_of_not_result m c main_arg21 (by decide)
theorem V_main_arg22 (c : Dev nD) : V m c main_arg22 = m ((c : Thread nD τ).loc main_arg22) := V_of_not_result m c main_arg22 (by decide)
theorem V_main_arg23 (c : Dev nD) : V m c main_arg23 = m ((c : Thread nD τ).loc main_arg23) := V_of_not_result m c main_arg23 (by decide)
theorem V_main_arg24 (c : Dev nD) : V m c main_arg24 = m ((c : Thread nD τ).loc main_arg24) := V_of_not_result m c main_arg24 (by decide)
theorem V_main_arg25 (c : Dev nD) : V m c main_arg25 = m ((c : Thread nD τ).loc main_arg25) := V_of_not_result m c main_arg25 (by decide)
theorem V_main_arg26 (c : Dev nD) : V m c main_arg26 = m ((c : Thread nD τ).loc main_arg26) := V_of_not_result m c main_arg26 (by decide)
theorem V_main_arg27 (c : Dev nD) : V m c main_arg27 = m ((c : Thread nD τ).loc main_arg27) := V_of_not_result m c main_arg27 (by decide)
theorem V_main_arg28 (c : Dev nD) : V m c main_arg28 = m ((c : Thread nD τ).loc main_arg28) := V_of_not_result m c main_arg28 (by decide)
theorem V_main_arg29 (c : Dev nD) : V m c main_arg29 = m ((c : Thread nD τ).loc main_arg29) := V_of_not_result m c main_arg29 (by decide)
theorem V_main_arg30 (c : Dev nD) : V m c main_arg30 = m ((c : Thread nD τ).loc main_arg30) := V_of_not_result m c main_arg30 (by decide)
theorem V_main_arg31 (c : Dev nD) : V m c main_arg31 = m ((c : Thread nD τ).loc main_arg31) := V_of_not_result m c main_arg31 (by decide)
theorem V_main_arg32 (c : Dev nD) : V m c main_arg32 = m ((c : Thread nD τ).loc main_arg32) := V_of_not_result m c main_arg32 (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ### An input window's staging buffer holds its block

For any proof data whose array for window `w` is `V`'s (`hA`) and whose body leaves the window's block in place
(`hafter`): the buffer the body is handed at point `t` reads `iblk … w t`.  Windows 0, 1, 2 move with the grid and
are fetched at every point; windows 3 to 13 have a constant block index and are fetched once, and at a later point the
buffer still holds the first point's block, which is every point's.  None is cut at the array's edge, none is ever
idle. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Fr

end
-- ==== Proof.FrameKIBody.lean ====
/- The kernel body as a transformer of its sixteen staging buffers.
   The body reads each of the fourteen input buffers whole, once; it also reads both output buffers (the values read
   are used by nothing) and then stores each output buffer whole, once.  So what it leaves in an output buffer is a
   function of the fourteen input blocks alone: `out0_15` is the payload `k0_pay9` of the inputs' loads and `out0_14` the
   payload `k0_pay10` (a sigmoid slice of the summed matrix products times the hyperbolic tangent of `k0_pay9`), each the
   one whole-buffer store read back.
   `sound_kernel` is the body's weakest-precondition triple over buffers held at read contents: inputs are returned
   as found, outputs are returned at `out0_14` / `out0_15` of the inputs, whatever they held before. -/
import proofs.«181006_j19473381720316_2_alg».proof.Proof.Gen.KernelIdeal.Launch
import proofs.«181006_j19473381720316_2_alg».proof.Proof.Gen.KernelIdeal.Skeleton
import proofs.«181006_j19473381720316_2_alg».proof.Proof.Gen.KernelIdeal.Points
import proofs.«181006_j19473381720316_2_alg».proof.Proof.FrameKIHost
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The whole-buffer rectangles the body loads and stores through -/

abbrev whole_S256x1024 : Rect S256x1024 := Rect.unit (s := S256x1024) ![0, 0] S256x1024.size inb_S256x1024_S256x1024_0_0
abbrev whole_S6144x1024 : Rect S6144x1024 := Rect.unit (s := S6144x1024) ![0, 0] S6144x1024.size inb_S6144x1024_S6144x1024_0_0
abbrev whole_S1x6144 : Rect S1x6144 := Rect.unit (s := S1x6144) ![0, 0] S1x6144.size inb_S1x6144_S1x6144_0_0
abbrev whole_S1x1024 : Rect S1x1024 := Rect.unit (s := S1x1024) ![0, 0] S1x1024.size inb_S1x1024_S1x1024_0_0
abbrev whole_S1x1 : Rect S1x1 := Rect.unit (s := S1x1) ![0, 0] S1x1.size inb_S1x1_S1x1_0_0
abbrev whole_S1024x1024 : Rect S1024x1024 := Rect.unit (s := S1024x1024) ![0, 0] S1024x1024.size inb_S1024x1024_S1024x1024_0_0

/-! ## What the body leaves in each output buffer

The arguments are the contents the fourteen input buffers read, in window order.  `x0` and `x1` are, rounded to
bf16, the left operands of the two 6144-wide matrix products, whose right operands are `x3` and `x4` and to whose sum
the row `x5` is added; `x2` enters `k0_pay9` multiplied by the second sigmoid slice; `x6` is the row the last slice,
clamped at zero, is multiplied by before it is summed along its rows, and `x7` the 1×1 term added to that sum;
`x8` … `x13` are three (matrix, bias row) pairs applied in turn to `x1` rounded to bf16. -/

/-- Output window 14's buffer after the body: its one store (of the whole buffer) read back. -/
def out0_14 (x0 : Vec F S256x1024 .f32) (x1 : Vec F S256x1024 .f32) (x2 : Vec F S256x1024 .f32) (x3 : Vec F S6144x1024 .bf16) (x4 : Vec F S6144x1024 .bf16) (x5 : Vec F S1x6144 .f32) (x6 : Vec F S1x1024 .f32) (x7 : Vec F S1x1 .f32) (x8 : Vec F S1024x1024 .bf16) (x9 : Vec F S1x1024 .f32) (x10 : Vec F S1024x1024 .bf16) (x11 : Vec F S1x1024 .f32) (x12 : Vec F S1024x1024 .bf16) (x13 : Vec F S1x1024 .f32) : Vec F S256x1024 .f32 :=
  View.canon [⟨whole_S256x1024, k0_pay10 (View.ld x2 whole_S256x1024) (k0_pay1 (View.ld x1 whole_S256x1024))
      (k0_pay3 (View.ld x0 whole_S256x1024) (View.ld x1 whole_S256x1024) (View.ld x3 whole_S6144x1024) (View.ld x4 whole_S6144x1024) (View.ld x5 whole_S1x6144))
      (k0_pay4 (View.ld x0 whole_S256x1024) (View.ld x1 whole_S256x1024) (View.ld x3 whole_S6144x1024) (View.ld x4 whole_S6144x1024) (View.ld x5 whole_S1x6144))
      (k0_pay5 (View.ld x0 whole_S256x1024) (View.ld x1 whole_S256x1024) (View.ld x3 whole_S6144x1024) (View.ld x4 whole_S6144x1024) (View.ld x5 whole_S1x6144))
      (k0_pay6 (View.ld x0 whole_S256x1024) (View.ld x1 whole_S256x1024) (View.ld x3 whole_S6144x1024) (View.ld x4 whole_S6144x1024) (View.ld x5 whole_S1x6144))
      (k0_pay7 (View.ld x0 whole_S256x1024) (View.ld x1 whole_S256x1024) (View.ld x3 whole_S6144x1024) (View.ld x4 whole_S6144x1024) (View.ld x5 whole_S1x6144))
      (k0_pay8 (View.ld x0 whole_S256x1024) (View.ld x1 whole_S256x1024) (View.ld x3 whole_S6144x1024) (View.ld x4 whole_S6144x1024) (View.ld x5 whole_S1x6144) (View.ld x6 whole_S1x1024) (View.ld x7 whole_S1x1))
      (View.ld x8 whole_S1024x1024) (View.ld x9 whole_S1x1024) (View.ld x10 whole_S1024x1024) (View.ld x11 whole_S1x1024) (View.ld x12 whole_S1024x1024) (View.ld x13 whole_S1x1024)⟩]

/-- Output window 15's buffer after the body: its one store (of the whole buffer) read back. -/
def out0_15 (x0 : Vec F S256x1024 .f32) (x1 : Vec F S256x1024 .f32) (x2 : Vec F S256x1024 .f32) (x3 : Vec F S6144x1024 .bf16) (x4 : Vec F S6144x1024 .bf16) (x5 : Vec F S1x6144 .f32) (x6 : Vec F S1x1024 .f32) (x7 : Vec F S1x1 .f32) (x8 : Vec F S1024x1024 .bf16) (x9 : Vec F S1x1024 .f32) (x10 : Vec F S1024x1024 .bf16) (x11 : Vec F S1x1024 .f32) (x12 : Vec F S1024x1024 .bf16) (x13 : Vec F S1x1024 .f32) : Vec F S256x1024 .f32 :=
  View.canon [⟨whole_S256x1024, k0_pay9 (View.ld x2 whole_S256x1024) (k0_pay1 (View.ld x1 whole_S256x1024))
      (k0_pay3 (View.ld x0 whole_S256x1024) (View.ld x1 whole_S256x1024) (View.ld x3 whole_S6144x1024) (View.ld x4 whole_S6144x1024) (View.ld x5 whole_S1x6144))
      (k0_pay4 (View.ld x0 whole_S256x1024) (View.ld x1 whole_S256x1024) (View.ld x3 whole_S6144x1024) (View.ld x4 whole_S6144x1024) (View.ld x5 whole_S1x6144))
      (k0_pay6 (View.ld x0 whole_S256x1024) (View.ld x1 whole_S256x1024) (View.ld x3 whole_S6144x1024) (View.ld x4 whole_S6144x1024) (View.ld x5 whole_S1x6144))
      (k0_pay7 (View.ld x0 whole_S256x1024) (View.ld x1 whole_S256x1024) (View.ld x3 whole_S6144x1024) (View.ld x4 whole_S6144x1024) (View.ld x5 whole_S1x6144))
      (k0_pay8 (View.ld x0 whole_S256x1024) (View.ld x1 whole_S256x1024) (View.ld x3 whole_S6144x1024) (View.ld x4 whole_S6144x1024) (View.ld x5 whole_S1x6144) (View.ld x6 whole_S1x1024) (View.ld x7 whole_S1x1))
      (View.ld x8 whole_S1024x1024) (View.ld x9 whole_S1x1024) (View.ld x10 whole_S1024x1024) (View.ld x11 whole_S1x1024) (View.ld x12 whole_S1024x1024) (View.ld x13 whole_S1x1024)⟩]

/-- One store of the whole buffer covers it. -/
theorem cover0_14 (p0 : Vec F S256x1024 .f32) (y : S256x1024.Idx) :
    ∃ pc ∈ ([⟨whole_S256x1024, p0⟩] : List (View.Piece (Elt F) S256x1024 .f32)), y ∈ pc.1.set :=
  View.cover_of_tiled [⟨whole_S256x1024, p0⟩] S256x1024.size (by rfl) y

theorem cover0_15 (p0 : Vec F S256x1024 .f32) (y : S256x1024.Idx) :
    ∃ pc ∈ ([⟨whole_S256x1024, p0⟩] : List (View.Piece (Elt F) S256x1024 .f32)), y ∈ pc.1.set :=
  cover0_14 p0 y

/-! ## The body's triple -/

set_option maxHeartbeats 4000000 in
/-- From the fourteen input buffers held whole at read contents `xW` and the two output buffers held whole at any
    contents, the body runs to the continuation, which receives the inputs as they were and the outputs at
    `out0_14` and `out0_15` of the inputs. -/
theorem sound_kernel (c : Dev nD) (E : Set ℕ) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S256x1024 .f32) (harg3 : arg3.IsWhole)
    (arg4 : Memref sig .tc .vmem S6144x1024 .bf16) (harg4 : arg4.IsWhole)
    (arg5 : Memref sig .tc .vmem S6144x1024 .bf16) (harg5 : arg5.IsWhole)
    (arg6 : Memref sig .tc .vmem S1x6144 .f32) (harg6 : arg6.IsWhole)
    (arg7 : Memref sig .tc .vmem S1x1024 .f32) (harg7 : arg7.IsWhole)
    (arg8 : Memref sig .tc .vmem S1x1 .f32) (harg8 : arg8.IsWhole)
    (arg9 : Memref sig .tc .vmem S1024x1024 .bf16) (harg9 : arg9.IsWhole)
    (arg10 : Memref sig .tc .vmem S1x1024 .f32) (harg10 : arg10.IsWhole)
    (arg11 : Memref sig .tc .vmem S1024x1024 .bf16) (harg11 : arg11.IsWhole)
    (arg12 : Memref sig .tc .vmem S1x1024 .f32) (harg12 : arg12.IsWhole)
    (arg13 : Memref sig .tc .vmem S1024x1024 .bf16) (harg13 : arg13.IsWhole)
    (arg14 : Memref sig .tc .vmem S1x1024 .f32) (harg14 : arg14.IsWhole)
    (arg15 : Memref sig .tc .vmem S256x1024 .f32) (harg15 : arg15.IsWhole)
    (arg16 : Memref sig .tc .vmem S256x1024 .f32) (harg16 : arg16.IsWhole)
    (x0 : Vec F S256x1024 .f32) (x1 : Vec F S256x1024 .f32) (x2 : Vec F S256x1024 .f32) (x3 : Vec F S6144x1024 .bf16) (x4 : Vec F S6144x1024 .bf16) (x5 : Vec F S1x6144 .f32) (x6 : Vec F S1x1024 .f32) (x7 : Vec F S1x1 .f32) (x8 : Vec F S1024x1024 .bf16) (x9 : Vec F S1x1024 .f32) (x10 : Vec F S1024x1024 .bf16) (x11 : Vec F S1x1024 .f32) (x12 : Vec F S1024x1024 .bf16) (x13 : Vec F S1x1024 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ (∃ d, owns (c : Thread nD τ) arg15 fullShare d)
        ∗ (∃ d, owns (c : Thread nD τ) arg16 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare (out0_14 x0 x1 x2 x3 x4 x5 x6 x7 x8 x9 x10 x11 x12 x13)
            ∗ owns (c : Thread nD τ) arg16 fullShare (out0_15 x0 x1 x2 x3 x4 x5 x6 x7 x8 x9 x10 x11 x12 x13)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover0_14 _)
  iexists _; isplitr
  swap; · iexact H15
  ipureintro
  exact View.read_writes_eq_canon _ _ _ (cover0_15 _)

end Cert.KernelIdeal.Fr

end
-- ==== Proof.FrameKI.lean ====
/- The frame of the program: every execution of the entry function terminates and leaves each of its
   thirty-three argument arrays as launched.
   The pipelined region is given its proof data (`dats`): the arrays as the region finds them, after the body at a
   point each input buffer at its block and each output buffer at `out0_14` / `out0_15` of the fourteen input
   blocks.  The body's triple (`sound_kernel`) then gives the library's body obligation at every grid point, the
   library's frame theorem gives the run (`run_main`), and its post, read at the argument arrays, is the frame
   (`frame`): arguments 0, 1, 2 and 25 are the arrays of input windows 0, 1, 2 and 6, which the region only reads;
   every other argument is staged by no window, the region does not touch it, and the host line before the region
   does not write it. -/
import proofs.«181006_j19473381720316_2_alg».proof.Proof.Gen.KernelIdeal.Launch
import proofs.«181006_j19473381720316_2_alg».proof.Proof.Gen.KernelIdeal.Skeleton
import proofs.«181006_j19473381720316_2_alg».proof.Proof.Gen.KernelIdeal.Points
import proofs.«181006_j19473381720316_2_alg».proof.Proof.FrameKIHost
import proofs.«181006_j19473381720316_2_alg».proof.Proof.FrameKIBody
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- For any proof data whose arrays are the region-entry contents, a run to the library's frame post, read at the
    thirty-three argument arrays, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (by decide)).trans (V_main_arg3 m c),
      ((h c).2 main_arg4 (by decide)).trans (V_main_arg4 m c),
      ((h c).2 main_arg5 (by decide)).trans (V_main_arg5 m c),
      ((h c).2 main_arg6 (by decide)).trans (V_main_arg6 m c),
      ((h c).2 main_arg7 (by decide)).trans (V_main_arg7 m c),
      ((h c).2 main_arg8 (by decide)).trans (V_main_arg8 m c),
      ((h c).2 main_arg9 (by decide)).trans (V_main_arg9 m c),
      ((h c).2 main_arg10 (by decide)).trans (V_main_arg10 m c),
      ((h c).2 main_arg11 (by decide)).trans (V_main_arg11 m c),
      ((h c).2 main_arg12 (by decide)).trans (V_main_arg12 m c),
      ((h c).2 main_arg13 (by decide)).trans (V_main_arg13 m c),
      ((h c).2 main_arg14 (by decide)).trans (V_main_arg14 m c),
      ((h c).2 main_arg15 (by decide)).trans (V_main_arg15 m c),
      ((h c).2 main_arg16 (by decide)).trans (V_main_arg16 m c),
      ((h c).2 main_arg17 (by decide)).trans (V_main_arg17 m c),
      ((h c).2 main_arg18 (by decide)).trans (V_main_arg18 m c),
      ((h c).2 main_arg19 (by decide)).trans (V_main_arg19 m c),
      ((h c).2 main_arg20 (by decide)).trans (V_main_arg20 m c),
      ((h c).2 main_arg21 (by decide)).trans (V_main_arg21 m c),
      ((h c).2 main_arg22 (by decide)).trans (V_main_arg22 m c),
      ((h c).2 main_arg23 (by decide)).trans (V_main_arg23 m c),
      ((h c).2 main_arg24 (by decide)).trans (V_main_arg24 m c),
      ((h c).1 6).trans (((dats 0 c).arrAt_in 6 rfl _).trans ((hA c 6).trans (V_main_arg25 m c))),
      ((h c).2 main_arg26 (by decide)).trans (V_main_arg26 m c),
      ((h c).2 main_arg27 (by decide)).trans (V_main_arg27 m c),
      ((h c).2 main_arg28 (by decide)).trans (V_main_arg28 m c),
      ((h c).2 main_arg29 (by decide)).trans (V_main_arg29 m c),
      ((h c).2 main_arg30 (by decide)).trans (V_main_arg30 m c),
      ((h c).2 main_arg31 (by decide)).trans (V_main_arg31 m c),
      ((h c).2 main_arg32 (by decide)).trans (V_main_arg32 m c)⟩) h

/-! ## The pipeline's proof data -/

/-- The proof data of the one pipeline on core `c`: the arrays as the region finds them; after the body at point `t`
    each input buffer at its block and each output buffer at `out0_14` / `out0_15` of the input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 16, h⟩ => absurd h (Nat.not_lt.2 (Nat.le_add_left _ _))
  Φ _ := Pipeline.ΦA spec0 c
  q _ := fullShare
  owed _ := 0

/-- The proof data's arrays are the region-entry contents (a projection of the definition; the host line's fold is
    not opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t`: the invariant, what the core owes, and the sixteen current staging
    buffers, each at what the proof data says it holds before the body. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns: the same, the buffers at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 2000000 in
/-- The body at any point: the input buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the entry
    function on the TensorCores terminates, and every final state has every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Fr.run_main' depends on axioms: [propext, Classical.choice, Quot.sound] -/
#guard_msgs in #print axioms run_main

/-- THE FRAME, at any `F`: every execution terminates and each argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  frame_of m ρ (dats m) (A_eq m) (run_main m ρ)

end Cert.KernelIdeal.Fr

end
-- ==== Proof.CellSpec.lean ====
/-
  One row of the cell, over the extended reals.

  A row of the batch enters as three vectors of length 1024: the input row `x`, the previous hidden row `h` and the
  previous cell row `cp`.  Five gates (input, forget, output, candidate, scale) each apply two affine maps, one to
  `x` and one to `h`, and add them; a sixth affine map reads the 2048 entries of `x` followed by `h`, is
  rectified, and is contracted against one more row to give a scalar `alpha`; three further affine layers of `h`,
  the first two rectified, give a residual.  The new cell row is
      c = sigmoid f * cp + sigmoid i * tanh g * sigmoid s * alpha + residual
  and the new hidden row is  sigmoid o * tanh c.

  The sum of the two affine maps of a gate can be arranged in two ways,
      (x . W + bW) + (h . U + bU)        or        (x . W + h . U) + (bW + bU),
  and the sixth map can contract the joined row at once or contract its two halves and add, with bias `b + 0`.
  Both arrangements are written out below and shown equal: addition of extended reals is commutative and
  associative, a finite sum over 1024 + 1024 indices splits in two, and `b + 0 = b`.  No entry needs to be finite.
-/
import Idealize.ShloMosaic.PureOps.Ideal

noncomputable section

namespace Cert.Cell

open Idealize.ShloMosaic

/-- The inner product of two rows. -/
def dot {K : ℕ} (u v : Fin K → EReal) : EReal := ∑ k, u k * v k

/-- The larger of a number and zero. -/
def relu (z : EReal) : EReal := max z 0

/-- The weights of the cell: a matrix is read as `M n k`, output coordinate `n` first. -/
structure Wts where
  Wi : Fin 1024 → Fin 1024 → EReal
  Wf : Fin 1024 → Fin 1024 → EReal
  Wo : Fin 1024 → Fin 1024 → EReal
  Wc : Fin 1024 → Fin 1024 → EReal
  Ws : Fin 1024 → Fin 1024 → EReal
  Ui : Fin 1024 → Fin 1024 → EReal
  Uf : Fin 1024 → Fin 1024 → EReal
  Uo : Fin 1024 → Fin 1024 → EReal
  Uc : Fin 1024 → Fin 1024 → EReal
  Us : Fin 1024 → Fin 1024 → EReal
  bWi : Fin 1024 → EReal
  bWf : Fin 1024 → EReal
  bWo : Fin 1024 → EReal
  bWc : Fin 1024 → EReal
  bWs : Fin 1024 → EReal
  bUi : Fin 1024 → EReal
  bUf : Fin 1024 → EReal
  bUo : Fin 1024 → EReal
  bUc : Fin 1024 → EReal
  bUs : Fin 1024 → EReal
  A1 : Fin 1024 → Fin 2048 → EReal
  bA1 : Fin 1024 → EReal
  A2 : Fin 1024 → EReal
  bA2 : EReal
  R1 : Fin 1024 → Fin 1024 → EReal
  R2 : Fin 1024 → Fin 1024 → EReal
  R3 : Fin 1024 → Fin 1024 → EReal
  bR1 : Fin 1024 → EReal
  bR2 : Fin 1024 → EReal
  bR3 : Fin 1024 → EReal

variable (P : Wts) (x h cp : Fin 1024 → EReal)

/-- A gate's pre-activation, each affine map with its own bias. -/
def preSep (W U : Fin 1024 → Fin 1024 → EReal) (bW bU : Fin 1024 → EReal) (n : Fin 1024) : EReal :=
  (dot x (W n) + bW n) + (dot h (U n) + bU n)

/-- A gate's pre-activation, the two contractions added first and the two biases added first. -/
def preFused (W U : Fin 1024 → Fin 1024 → EReal) (bW bU : Fin 1024 → EReal) (n : Fin 1024) : EReal :=
  (dot x (W n) + dot h (U n)) + (bW n + bU n)

theorem preFused_eq_preSep (W U : Fin 1024 → Fin 1024 → EReal) (bW bU : Fin 1024 → EReal) :
    preFused x h W U bW bU = preSep x h W U bW bU := by
  funext n
  unfold preFused preSep
  exact add_add_add_comm _ _ _ _

/-- The row `x` followed by the row `h`. -/
def joined : Fin 2048 → EReal :=
  fun k => if hk : k.val < 1024 then x ⟨k.val, hk⟩ else h ⟨k.val - 1024, by have := k.isLt; omega⟩

/-- The sixth map contracted against the joined row, rectified. -/
def hidJoined (n : Fin 1024) : EReal := relu (dot (joined x h) (P.A1 n) + P.bA1 n)

/-- The sixth map contracted half by half, the bias with a zero added, rectified. -/
def hidSplit (n : Fin 1024) : EReal :=
  relu ((dot x (fun k => P.A1 n ⟨k.val, by have := k.isLt; omega⟩)
      + dot h (fun k => P.A1 n ⟨1024 + k.val, by have := k.isLt; omega⟩)) + (P.bA1 n + 0))

/-- A contraction over 2048 indices of the joined row is the sum of the contractions of its halves. -/
theorem dot_joined (a : Fin 2048 → EReal) :
    dot (joined x h) a
      = dot x (fun k => a ⟨k.val, by have := k.isLt; omega⟩) + dot h (fun k => a ⟨1024 + k.val, by have := k.isLt; omega⟩) := by
  unfold dot
  have e := Fin.sum_univ_add (M := EReal) (a := 1024) (b := 1024) (fun k => joined x h k * a k)
  refine e.trans ?_
  congr 1 <;> first | rfl | skip

theorem hidSplit_eq_hidJoined : hidSplit P x h = hidJoined P x h := by
  funext n
  unfold hidSplit hidJoined
  rw [add_zero, dot_joined]

/-- The scalar gate of a row, from its rectified hidden vector. -/
def alpha (a1 : Fin 1024 → EReal) : EReal := Ideal.logistic (dot a1 P.A2 + P.bA2)

/-- The residual: three affine layers of `h`, the first two rectified. -/
def residual (n : Fin 1024) : EReal :=
  dot (fun j => relu (dot (fun i => relu (dot h (P.R1 i) + P.bR1 i)) (P.R2 j) + P.bR2 j)) (P.R3 n) + P.bR3 n

/-- The new cell row from the four pre-activations that enter it and the scalar gate. -/
def cellOf (pi pf pg ps : Fin 1024 → EReal) (al : EReal) (n : Fin 1024) : EReal :=
  (Ideal.logistic (pf n) * cp n + Ideal.logistic (pi n) * Ideal.tanh (pg n) * Ideal.logistic (ps n) * al)
    + residual P h n

/-- The new hidden row from the output gate's pre-activation and the new cell row. -/
def hiddenOf (po c : Fin 1024 → EReal) (n : Fin 1024) : EReal := Ideal.logistic (po n) * Ideal.tanh (c n)

/-- The new cell row, every affine map with its own bias and the sixth map over the joined row. -/
def cellSep : Fin 1024 → EReal :=
  cellOf P h cp (preSep x h P.Wi P.Ui P.bWi P.bUi) (preSep x h P.Wf P.Uf P.bWf P.bUf)
    (preSep x h P.Wc P.Uc P.bWc P.bUc) (preSep x h P.Ws P.Us P.bWs P.bUs) (alpha P (hidJoined P x h))

/-- The new hidden row in the same arrangement. -/
def hiddenSep : Fin 1024 → EReal := hiddenOf (preSep x h P.Wo P.Uo P.bWo P.bUo) (cellSep P x h cp)

/-- The new cell row, contractions and biases added separately and the sixth map half by half. -/
def cellFused : Fin 1024 → EReal :=
  cellOf P h cp (preFused x h P.Wi P.Ui P.bWi P.bUi) (preFused x h P.Wf P.Uf P.bWf P.bUf)
    (preFused x h P.Wc P.Uc P.bWc P.bUc) (preFused x h P.Ws P.Us P.bWs P.bUs) (alpha P (hidSplit P x h))

/-- The new hidden row in the same arrangement. -/
def hiddenFused : Fin 1024 → EReal := hiddenOf (preFused x h P.Wo P.Uo P.bWo P.bUo) (cellFused P x h cp)

theorem cellFused_eq_cellSep : cellFused P x h cp = cellSep P x h cp := by
  unfold cellFused cellSep
  rw [preFused_eq_preSep, preFused_eq_preSep, preFused_eq_preSep, preFused_eq_preSep, hidSplit_eq_hidJoined]

theorem hiddenFused_eq_hiddenSep : hiddenFused P x h cp = hiddenSep P x h cp := by
  unfold hiddenFused hiddenSep
  rw [preFused_eq_preSep, cellFused_eq_cellSep]

end Cert.Cell

end
-- ==== Proof.LibDotLast.lean ====
/-
  Matrix products whose two operands are both contracted on their LAST axis, read at an entry.

  Rank 2: an [n, K] operand and an [M, K] operand into [n, M] (the right operand "transposed"): entry (p, c) is the
  sum over k of L (p, k) * R (c, k). Rank 3, batched on the leading axis: [B, n, K] and [B, M, K] into [B, n, M]:
  entry (b, p, c) is the sum over k of L (b, p, k) * R (b, c, k). In both, the sum over the dimension numbers'
  contraction index is re-indexed by the one contracted coordinate; the other coordinates of the two operand indices
  are read off the output index. Over the extended reals a kernel's matrix unit into a zero accumulator and the host's
  dot_general are both this sum: nothing is left of rounding or of the order of accumulation.
-/
import Idealize.ShloMosaic.PureOps.Ideal.Laws
import Idealize.ShloMosaic.Lib.ValueIdx

noncomputable section

namespace Cert.LibDotLast

open Idealize.ShloMosaic Idealize.ShloMosaic.ValueIdx

section Rank2

variable {n K M : Nat}

/-- Dimension numbers of a rank-2 product contracting both last axes, no batch axis. -/
structure IsLast2 (d : DotDims ⟨2, ![n, K]⟩ ⟨2, ![M, K]⟩ ⟨2, ![n, M]⟩) : Prop where
  lc : d.lhsContracting = [1]
  rc : d.rhsContracting = [1]
  ln : d.lhsNonContracting = [0]
  rn : d.rhsNonContracting = [0]
  lb : d.lhsBatch = []
  rb : d.rhsBatch = []

/-- The contraction sum at output index i is the sum over the contracted coordinate k of (i 0, k) against (i 1, k). -/
theorem sum_contr2 {α : Type} [AddCommMonoid α] (d : DotDims ⟨2, ![n, K]⟩ ⟨2, ![M, K]⟩ ⟨2, ![n, M]⟩) (hd : IsLast2 d)
    (f : (⟨2, ![n, K]⟩ : Shape).Idx → (⟨2, ![M, K]⟩ : Shape).Idx → α) (i : (⟨2, ![n, M]⟩ : Shape).Idx) :
    ∑ q : d.contr.Idx, f (d.lhsIdx i q) (d.rhsIdx i q) = ∑ k : Fin K, f (ix2 (i 0) k) (ix2 (i 1) k) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![M, K]⟩ ⟨2, ![n, M]⟩ := ⟨[1], [1], [0], [0], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 (i 1) k := funext fun a => Fin.ext (by
    match a with
    | ⟨0, _⟩ =>
      show (d.rhsIdx i _ 0).val = (i 1).val
      unfold DotDims.rhsIdx
      rw [dif_neg (show ¬(0 : Fin (⟨2, ![M, K]⟩ : Shape).rank) ∈ d.rhsBatch from List.not_mem_nil),
        dif_pos (show (0 : Fin (⟨2, ![M, K]⟩ : Shape).rank) ∈ d.rhsNonContracting from List.mem_singleton.mpr rfl)]
      rfl
    | ⟨1, _⟩ => exact (d.rhsIdx_val_of_single rfl i _).trans hk)
  rw [el, er]
  try rfl

variable {φ₁ φ₂ : FTy}

/-- A kernel's matrix-unit product with such dimension numbers into a zero accumulator, at entry (p, c). -/
theorem matmul_zero_apply (d : DotDims ⟨2, ![n, K]⟩ ⟨2, ![M, K]⟩ ⟨2, ![n, M]⟩) (hd : IsLast2 d) (prec : Option ContractPrecision)
    (lhs : FVec Ideal ⟨2, ![n, K]⟩ φ₁) (rhs : FVec Ideal ⟨2, ![M, K]⟩ φ₂) (p : Fin n) (c : Fin M) :
    FloatOps.matmul d prec lhs rhs (constant ⟨2, ![n, M]⟩ .f32 0x00000000#32) (ix2 p c)
      = ∑ k : Fin K, lhs (ix2 p k) * rhs (ix2 c k) :=
  (Ideal.matmul_constant_zero_apply d prec lhs rhs (ix2 p c)).trans
    (sum_contr2 d hd (fun a b => lhs a * rhs b) (ix2 p c))

end Rank2

section Rank3

variable {B n K M : Nat}

/-- Dimension numbers of a rank-3 product batched on axis 0 and contracting both last axes. -/
structure IsLast3 (d : DotDims ⟨3, ![B, n, K]⟩ ⟨3, ![B, M, K]⟩ ⟨3, ![B, n, M]⟩) : Prop where
  lc : d.lhsContracting = [2]
  rc : d.rhsContracting = [2]
  ln : d.lhsNonContracting = [1]
  rn : d.rhsNonContracting = [1]
  lb : d.lhsBatch = [0]
  rb : d.rhsBatch = [0]

/-- The contraction sum at output index i is the sum over k of (i 0, i 1, k) against (i 0, i 2, k). -/
theorem sum_contr3 {α : Type} [AddCommMonoid α] (d : DotDims ⟨3, ![B, n, K]⟩ ⟨3, ![B, M, K]⟩ ⟨3, ![B, n, M]⟩) (hd : IsLast3 d)
    (f : (⟨3, ![B, n, K]⟩ : Shape).Idx → (⟨3, ![B, M, K]⟩ : Shape).Idx → α) (i : (⟨3, ![B, n, M]⟩ : Shape).Idx) :
    ∑ q : d.contr.Idx, f (d.lhsIdx i q) (d.rhsIdx i q) = ∑ k : Fin K, f (ix3 (i 0) (i 1) k) (ix3 (i 0) (i 2) k) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨3, ![B, n, K]⟩ ⟨3, ![B, M, K]⟩ ⟨3, ![B, n, M]⟩ := ⟨[2], [2], [1], [1], [0], [0], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix3 (i 0) (i 1) k := funext fun a => Fin.ext (by
    match a with
    | ⟨0, _⟩ =>
      show (d.lhsIdx i _ 0).val = (i 0).val
      unfold DotDims.lhsIdx
      rw [dif_pos (show (0 : Fin (⟨3, ![B, n, K]⟩ : Shape).rank) ∈ d.lhsBatch from List.mem_singleton.mpr rfl)]
      rfl
    | ⟨1, _⟩ =>
      show (d.lhsIdx i _ 1).val = (i 1).val
      unfold DotDims.lhsIdx
      rw [dif_neg (show ¬(1 : Fin (⟨3, ![B, n, K]⟩ : Shape).rank) ∈ d.lhsBatch from fun h => Nat.one_ne_zero (congrArg Fin.val (List.mem_singleton.mp h))),
        dif_pos (show (1 : Fin (⟨3, ![B, n, K]⟩ : Shape).rank) ∈ d.lhsNonContracting from List.mem_singleton.mpr rfl)]
      rfl
    | ⟨2, _⟩ => exact (d.lhsIdx_val_of_single rfl i _).trans hk)
  have er : d.rhsIdx i ((contrEquiv1 d K rfl rfl).symm k) = ix3 (i 0) (i 2) k := funext fun a => Fin.ext (by
    match a with
    | ⟨0, _⟩ =>
      show (d.rhsIdx i _ 0).val = (i 0).val
      unfold DotDims.rhsIdx
      rw [dif_pos (show (0 : Fin (⟨3, ![B, M, K]⟩ : Shape).rank) ∈ d.rhsBatch from List.mem_singleton.mpr rfl)]
      rfl
    | ⟨1, _⟩ =>
      show (d.rhsIdx i _ 1).val = (i 2).val
      unfold DotDims.rhsIdx
      rw [dif_neg (show ¬(1 : Fin (⟨3, ![B, M, K]⟩ : Shape).rank) ∈ d.rhsBatch from fun h => Nat.one_ne_zero (congrArg Fin.val (List.mem_singleton.mp h))),
        dif_pos (show (1 : Fin (⟨3, ![B, M, K]⟩ : Shape).rank) ∈ d.rhsNonContracting from List.mem_singleton.mpr rfl)]
      rfl
    | ⟨2, _⟩ => exact (d.rhsIdx_val_of_single rfl i _).trans hk)
  rw [el, er]
  try rfl

variable {φ₁ φ₂ : FTy}

/-- The host's dot_general with such dimension numbers, at entry (b, p, c). -/
theorem dotGeneral_apply (d : DotDims ⟨3, ![B, n, K]⟩ ⟨3, ![B, M, K]⟩ ⟨3, ![B, n, M]⟩) (hd : IsLast3 d) (prec : Option ContractPrecision)
    (sched : HostSchedule) (lhs : FVec Ideal ⟨3, ![B, n, K]⟩ φ₁) (rhs : FVec Ideal ⟨3, ![B, M, K]⟩ φ₂)
    (b : Fin B) (p : Fin n) (c : Fin M) :
    FloatOps.dotGeneral d prec sched lhs rhs (ix3 b p c) = ∑ k : Fin K, lhs (ix3 b p k) * rhs (ix3 b c k) :=
  (Ideal.dotGeneral_apply d prec sched lhs rhs (ix3 b p c)).trans
    (sum_contr3 d hd (fun a b => lhs a * rhs b) (ix3 b p c))

end Rank3

end Cert.LibDotLast

end
-- ==== Proof.LibKeepdims.lean ====
/-
  Row-wise reductions with kept dimensions, read at an entry.

  For an [a, b] matrix: a sum or a maximum along axis 1 at row p is the sum, or the fold of `max` from the initial
  value, over the b entries of row p — for a lane reduction inside a kernel body and for a host reduction alike; the
  reduced [a] vector cast to an [a, 1] column reads at (p, 0) the vector at p; and an [a, 1] column broadcast to [a, b]
  reads at (p, c) the column at (p, 0). Together these read `reduce(keepdims=True)` followed by a broadcast back.
-/
import Idealize.ShloMosaic.PureOps.Ideal.Laws
import Idealize.ShloMosaic.Lib.Pipeline.Value
import Idealize.ShloMosaic.Lib.ValueIdx

noncomputable section

namespace Cert.LibKeepdims

open Idealize.ShloMosaic Idealize.ShloMosaic.ValueIdx

variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The reduced index p of a reduction along axis 1 with coordinate k put back is (p, k). -/
theorem lift_row {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- A lane sum along axis 1, at row p: the sum of the row. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A lane maximum along axis 1, at row p: the fold of `max` from the accumulator's value over the row. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (lift_row h p k)))

/-- The host's sum along axis 1, at row p: the initial value plus the sum of the row. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-- The host's maximum along axis 1, at row p: the fold of `max` from the initial value over the row. -/
theorem hostReduce_max_row {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => Finset.fold max (init (Shape.Idx.first hu)) f (Finset.univ : Finset (Fin b)))
      (funext fun k => congrArg x (lift_row h p k)))

end Cert.LibKeepdims

end
-- ==== Proof.KGates.lean ====
/-
  The block's wide pre-activation and its gate slices, read at an entry.

  For a block of 256 rows the body forms one 256 x 6144 matrix: row p, column j holds
      (x_p . Wcat_j + h_p . Ucat_j) + bias_j,
  the two products contracting the last axis of both operands.  Columns 0..1023 feed the input gate, the next
  thousand-odd the forget gate, then output, candidate and scale; each gate applies the logistic function or
  the hyperbolic tangent entry by entry to its slice.
-/
import proofs.«181006_j19473381720316_2_alg».proof.Proof.Gen.KernelIdeal.Skeleton
import proofs.«181006_j19473381720316_2_alg».proof.Proof.CellSpec
import proofs.«181006_j19473381720316_2_alg».proof.Proof.LibDotLast
import proofs.«181006_j19473381720316_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Cert.Cell Idealize.ShloMosaic Idealize.ShloMosaic.ValueIdx

theorem wide_last : Cert.LibDotLast.IsLast2 dot_S256x1024_S6144x1024_S256x6144_1_1_0_0_n_n := ⟨rfl, rfl, rfl, rfl, rfl, rfl⟩
theorem square_last : Cert.LibDotLast.IsLast2 dot_S256x1024_S1024x1024_S256x1024_1_1_0_0_n_n := ⟨rfl, rfl, rfl, rfl, rfl, rfl⟩

/-- Row `p` of a 256-row block. -/
def brow (v : FVec Ideal S256x1024 .f32) (p : Fin 256) : Fin 1024 → EReal := fun k => v (ix2 p k)

/-- The wide pre-activation at row p, column j. -/
def wide (v0 v1 : FVec Ideal S256x1024 .f32) (v5 v8 : FVec Ideal S6144x1024 .bf16) (v12 : FVec Ideal S1x6144 .f32)
    (p : Fin 256) (j : Fin 6144) : EReal :=
  (dot (brow v0 p) (fun k => v5 (ix2 j k)) + dot (brow v1 p) (fun k => v8 (ix2 j k))) + v12 (ix2 (0 : Fin 1) j)

theorem pay2_apply (v0 v1 : FVec Ideal S256x1024 .f32) (v5 v8 : FVec Ideal S6144x1024 .bf16) (v12 : FVec Ideal S1x6144 .f32)
    (p : Fin 256) (j : Fin 6144) :
    k0_pay2 (F := Ideal) v0 v1 v5 v8 v12 (ix2 p j) = wide v0 v1 v5 v8 v12 p j := by
  unfold k0_pay2 k0_pay1 wide
  rw [addf_apply, addf_apply, shapeCast_self, shapeCast_self, shapeCast_self]
  refine congrArg₂ (· + ·) (congrArg₂ (· + ·) ?_ ?_) ?_
  · exact Cert.LibDotLast.matmul_zero_apply _ wide_last none (truncf .bf16 v0 bitsLt_bf16_f32) v5 p j
  · exact Cert.LibDotLast.matmul_zero_apply _ wide_last none (truncf .bf16 v1 bitsLt_bf16_f32) v8 p j
  · exact broadcastTo_1b_ab_apply v12 _ p j

/-- A slice of the wide pre-activation starting at column `o`, at row p and column n, is the wide entry at column o + n. -/
theorem slice_wide (o : ℕ) (ho : o + 1024 ≤ 6144) (hs : S256x6144.Slices ![0, o] S256x1024)
    (v0 v1 : FVec Ideal S256x1024 .f32) (v5 v8 : FVec Ideal S6144x1024 .bf16) (v12 : FVec Ideal S1x6144 .f32)
    (p : Fin 256) (n : Fin 1024) :
    extractStridedSlice S256x1024 ![0, o] (k0_pay2 (F := Ideal) v0 v1 v5 v8 v12) hs (ix2 p n)
      = wide v0 v1 v5 v8 v12 p ⟨o + n.val, by have := n.isLt; omega⟩ :=
  (slice2_axis1_apply o (k0_pay2 (F := Ideal) v0 v1 v5 v8 v12) hs p n ⟨o + n.val, by have := n.isLt; omega⟩ rfl).trans
    (pay2_apply v0 v1 v5 v8 v12 p _)

section Gates

variable (v0 v1 : FVec Ideal S256x1024 .f32) (v5 v8 : FVec Ideal S6144x1024 .bf16) (v12 : FVec Ideal S1x6144 .f32)
  (p : Fin 256) (n : Fin 1024)

/-- The input gate. -/
theorem pay3_apply : k0_pay3 (F := Ideal) v0 v1 v5 v8 v12 (ix2 p n)
    = Ideal.logistic (wide v0 v1 v5 v8 v12 p ⟨0 + n.val, by have := n.isLt; omega⟩) :=
  congrArg Ideal.logistic (slice_wide 0 (by norm_num) _ v0 v1 v5 v8 v12 p n)

/-- The forget gate. -/
theorem pay4_apply : k0_pay4 (F := Ideal) v0 v1 v5 v8 v12 (ix2 p n)
    = Ideal.logistic (wide v0 v1 v5 v8 v12 p ⟨1024 + n.val, by have := n.isLt; omega⟩) :=
  congrArg Ideal.logistic (slice_wide 1024 (by norm_num) _ v0 v1 v5 v8 v12 p n)

/-- The output gate. -/
theorem pay5_apply : k0_pay5 (F := Ideal) v0 v1 v5 v8 v12 (ix2 p n)
    = Ideal.logistic (wide v0 v1 v5 v8 v12 p ⟨2048 + n.val, by have := n.isLt; omega⟩) :=
  congrArg Ideal.logistic (slice_wide 2048 (by norm_num) _ v0 v1 v5 v8 v12 p n)

/-- The candidate. -/
theorem pay6_apply : k0_pay6 (F := Ideal) v0 v1 v5 v8 v12 (ix2 p n)
    = Ideal.tanh (wide v0 v1 v5 v8 v12 p ⟨3072 + n.val, by have := n.isLt; omega⟩) :=
  congrArg Ideal.tanh (slice_wide 3072 (by norm_num) _ v0 v1 v5 v8 v12 p n)

/-- The scale gate. -/
theorem pay7_apply : k0_pay7 (F := Ideal) v0 v1 v5 v8 v12 (ix2 p n)
    = Ideal.logistic (wide v0 v1 v5 v8 v12 p ⟨4096 + n.val, by have := n.isLt; omega⟩) :=
  congrArg Ideal.logistic (slice_wide 4096 (by norm_num) _ v0 v1 v5 v8 v12 p n)

/-- The scalar gate of row p: the logistic function of the rectified sixth slice contracted against the row `v29`,
    plus the one-entry bias `v34`. -/
theorem pay8_apply (v29 : FVec Ideal S1x1024 .f32) (v34 : FVec Ideal S1x1 .f32) (u : Fin 1) :
    k0_pay8 (F := Ideal) v0 v1 v5 v8 v12 v29 v34 (ix2 p u)
      = Ideal.logistic (dot (fun k : Fin 1024 => relu (wide v0 v1 v5 v8 v12 p ⟨5120 + k.val, by have := k.isLt; omega⟩))
          (fun k => v29 (ix2 (0 : Fin 1) k)) + v34 (ix2 (0 : Fin 1) u)) := by
  unfold k0_pay8
  refine congrArg Ideal.logistic ?_
  rw [addf_apply, shapeCast_self]
  refine congrArg₂ (· + ·) ?_ ?_
  · refine (Cert.LibKeepdims.shapeCast_a_a1_apply _ shapeCasts_S256_S256x1 p u).trans ?_
    refine (Cert.LibKeepdims.multiReduction_add_row _ 0x00000000#32 reduces_S256x1024_S256 (.inl rfl) rfl p).trans ?_
    unfold dot
    refine Finset.sum_congr rfl fun k _ => ?_
    rw [mulf_apply, maximumf_apply, broadcast_apply]
    refine congrArg₂ (· * ·) ?_ ?_
    · refine congrArg₂ max (slice_wide 5120 (by norm_num) _ v0 v1 v5 v8 v12 p k) ?_
      exact Ideal.ofBits_zero_f32
    · exact broadcastTo_1b_ab_apply v29 _ p k
  · exact broadcastTo_1b_ab_apply v34 _ p u

end Gates

end Cert.KernelIdeal.Body

end
-- ==== Proof.KCell.lean ====
/-
  The block's new cell and hidden entries.

  With the gates of a row in hand the body forms, entry by entry,
      c = f * cp + i * g * s * alpha + residual,        h' = o * tanh c,
  where the residual is three affine layers of the row of h, each a product contracting the last axis of both operands
  plus a bias row, the first two rectified.  When the weight blocks hold the cell's weights (the stacked matrices row
  block by row block, the stacked bias as the sum of the two biases), row p of the block is the cell's row function
  of row p of the three input blocks, in the arrangement that adds contractions first and biases first.
-/
import proofs.«181006_j19473381720316_2_alg».proof.Proof.Gen.KernelIdeal.Skeleton
import proofs.«181006_j19473381720316_2_alg».proof.Proof.CellSpec
import proofs.«181006_j19473381720316_2_alg».proof.Proof.KGates
import proofs.«181006_j19473381720316_2_alg».proof.Proof.LibDotLast
import proofs.«181006_j19473381720316_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Cert.Cell Idealize.ShloMosaic Idealize.ShloMosaic.ValueIdx

/-- An affine layer of a block: the product contracting both last axes into a zero accumulator plus a bias row,
    at row p and column n. -/
theorem layer_apply (a : FVec Ideal S256x1024 .bf16) (w : FVec Ideal S1024x1024 .bf16) (b : FVec Ideal S1x1024 .f32)
    (p : Fin 256) (n : Fin 1024) :
    addf (matmul dot_S256x1024_S1024x1024_S256x1024_1_1_0_0_n_n none a
          (shapeCast S1024x1024 w shapeCasts_S1024x1024_S1024x1024) (constant S256x1024 .f32 0x00000000#32))
        (broadcastTo S256x1024 (shapeCast S1x1024 b shapeCasts_S1x1024_S1x1024) broadcasts_S1x1024_S256x1024) (ix2 p n)
      = dot (fun k => a (ix2 p k)) (fun k => w (ix2 n k)) + b (ix2 (0 : Fin 1) n) := by
  rw [addf_apply, shapeCast_self, shapeCast_self]
  exact congrArg₂ (· + ·) (Cert.LibDotLast.matmul_zero_apply _ square_last none a w p n) (broadcastTo_1b_ab_apply b _ p n)

/-- A rectified block narrowed to the matrix unit's input format reads, at an entry, the larger of the entry and zero. -/
theorem relu_apply (L : FVec Ideal S256x1024 .f32) (p : Fin 256) (k : Fin 1024) :
    (truncf .bf16 (maximumf L (broadcast S256x1024 (Scalar.ofBits (F := Ideal) .f32 0x00000000#32))) bitsLt_bf16_f32
      : FVec Ideal S256x1024 .bf16) (ix2 p k) = relu (L (ix2 p k)) := by
  rw [truncf_apply, maximumf_apply, broadcast_apply]
  exact congrArg (max _) Ideal.ofBits_zero_f32

/-- The residual of row p over the six residual blocks. -/
def resid (hb : FVec Ideal S256x1024 .bf16) (v45 v55 v65 : FVec Ideal S1024x1024 .bf16) (v48 v58 v68 : FVec Ideal S1x1024 .f32)
    (p : Fin 256) (n : Fin 1024) : EReal :=
  dot (fun j : Fin 1024 => relu (dot (fun i : Fin 1024 => relu (dot (fun k => hb (ix2 p k)) (fun k => v45 (ix2 i k)) + v48 (ix2 (0 : Fin 1) i)))
      (fun i => v55 (ix2 j i)) + v58 (ix2 (0 : Fin 1) j))) (fun j => v65 (ix2 n j)) + v68 (ix2 (0 : Fin 1) n)

theorem pay9_apply (v2 : FVec Ideal S256x1024 .f32) (v4 : FVec Ideal S256x1024 .bf16) (v22 v23 v25 v26 : FVec Ideal S256x1024 .f32)
    (v38 : FVec Ideal S256x1 .f32) (v45 : FVec Ideal S1024x1024 .bf16) (v48 : FVec Ideal S1x1024 .f32)
    (v55 : FVec Ideal S1024x1024 .bf16) (v58 : FVec Ideal S1x1024 .f32) (v65 : FVec Ideal S1024x1024 .bf16) (v68 : FVec Ideal S1x1024 .f32)
    (p : Fin 256) (n : Fin 1024) :
    k0_pay9 (F := Ideal) v2 v4 v22 v23 v25 v26 v38 v45 v48 v55 v58 v65 v68 (ix2 p n)
      = (v23 (ix2 p n) * v2 (ix2 p n) + v22 (ix2 p n) * v25 (ix2 p n) * v26 (ix2 p n) * v38 (ix2 p (0 : Fin 1)))
        + resid v4 v45 v55 v65 v48 v58 v68 p n := by
  unfold k0_pay9 resid
  rw [addf_apply]
  refine congrArg₂ (· + ·) ?_ ?_
  · rw [addf_apply, mulf_apply, mulf_apply, mulf_apply, mulf_apply]
    exact congrArg (fun z => v23 (ix2 p n) * v2 (ix2 p n) + v22 (ix2 p n) * v25 (ix2 p n) * v26 (ix2 p n) * z)
      (Cert.LibKeepdims.broadcastTo_a1_ab_apply v38 _ p n)
  · refine (layer_apply _ v65 v68 p n).trans ?_
    refine congrArg (fun f : Fin 1024 → EReal => dot f (fun j => v65 (ix2 n j)) + v68 (ix2 (0 : Fin 1) n)) (funext fun j => ?_)
    refine (relu_apply _ p j).trans (congrArg relu ?_)
    refine (layer_apply _ v55 v58 p j).trans ?_
    refine congrArg (fun f : Fin 1024 → EReal => dot f (fun i => v55 (ix2 j i)) + v58 (ix2 (0 : Fin 1) j)) (funext fun i => ?_)
    refine (relu_apply _ p i).trans (congrArg relu ?_)
    exact layer_apply v4 v45 v48 p i

theorem pay10_apply (v2 : FVec Ideal S256x1024 .f32) (v4 : FVec Ideal S256x1024 .bf16) (v22 v23 v24 v25 v26 : FVec Ideal S256x1024 .f32)
    (v38 : FVec Ideal S256x1 .f32) (v45 : FVec Ideal S1024x1024 .bf16) (v48 : FVec Ideal S1x1024 .f32)
    (v55 : FVec Ideal S1024x1024 .bf16) (v58 : FVec Ideal S1x1024 .f32) (v65 : FVec Ideal S1024x1024 .bf16) (v68 : FVec Ideal S1x1024 .f32)
    (p : Fin 256) (n : Fin 1024) :
    k0_pay10 (F := Ideal) v2 v4 v22 v23 v24 v25 v26 v38 v45 v48 v55 v58 v65 v68 (ix2 p n)
      = v24 (ix2 p n) * Ideal.tanh (k0_pay9 (F := Ideal) v2 v4 v22 v23 v25 v26 v38 v45 v48 v55 v58 v65 v68 (ix2 p n)) := by
  unfold k0_pay10
  rw [mulf_apply]
  rfl

/-- The weight blocks hold the cell's weights: the two stacked matrices row block by row block (the sixth block the
    two halves of the 2048-column matrix), the stacked bias the sum of the two biases (the sixth entry block the bias
    plus zero), the remaining blocks the scalar gate's row and bias and the residual's matrices and bias rows. -/
structure BlockOf (P : Wts) (x3 x4 : FVec Ideal S6144x1024 .bf16) (x5 : FVec Ideal S1x6144 .f32) (x6 : FVec Ideal S1x1024 .f32)
    (x7 : FVec Ideal S1x1 .f32) (x8 : FVec Ideal S1024x1024 .bf16) (x9 : FVec Ideal S1x1024 .f32)
    (x10 : FVec Ideal S1024x1024 .bf16) (x11 : FVec Ideal S1x1024 .f32) (x12 : FVec Ideal S1024x1024 .bf16) (x13 : FVec Ideal S1x1024 .f32) : Prop where
  Wi : ∀ (n k : Fin 1024), x3 (ix2 (⟨0 + n.val, by have := n.isLt; omega⟩ : Fin 6144) k) = P.Wi n k
  Wf : ∀ (n k : Fin 1024), x3 (ix2 (⟨1024 + n.val, by have := n.isLt; omega⟩ : Fin 6144) k) = P.Wf n k
  Wo : ∀ (n k : Fin 1024), x3 (ix2 (⟨2048 + n.val, by have := n.isLt; omega⟩ : Fin 6144) k) = P.Wo n k
  Wc : ∀ (n k : Fin 1024), x3 (ix2 (⟨3072 + n.val, by have := n.isLt; omega⟩ : Fin 6144) k) = P.Wc n k
  Ws : ∀ (n k : Fin 1024), x3 (ix2 (⟨4096 + n.val, by have := n.isLt; omega⟩ : Fin 6144) k) = P.Ws n k
  A1x : ∀ (n k : Fin 1024), x3 (ix2 (⟨5120 + n.val, by have := n.isLt; omega⟩ : Fin 6144) k) = P.A1 n ⟨k.val, by have := k.isLt; omega⟩
  Ui : ∀ (n k : Fin 1024), x4 (ix2 (⟨0 + n.val, by have := n.isLt; omega⟩ : Fin 6144) k) = P.Ui n k
  Uf : ∀ (n k : Fin 1024), x4 (ix2 (⟨1024 + n.val, by have := n.isLt; omega⟩ : Fin 6144) k) = P.Uf n k
  Uo : ∀ (n k : Fin 1024), x4 (ix2 (⟨2048 + n.val, by have := n.isLt; omega⟩ : Fin 6144) k) = P.Uo n k
  Uc : ∀ (n k : Fin 1024), x4 (ix2 (⟨3072 + n.val, by have := n.isLt; omega⟩ : Fin 6144) k) = P.Uc n k
  Us : ∀ (n k : Fin 1024), x4 (ix2 (⟨4096 + n.val, by have := n.isLt; omega⟩ : Fin 6144) k) = P.Us n k
  A1h : ∀ (n k : Fin 1024), x4 (ix2 (⟨5120 + n.val, by have := n.isLt; omega⟩ : Fin 6144) k) = P.A1 n ⟨1024 + k.val, by have := k.isLt; omega⟩
  bi : ∀ n : Fin 1024, x5 (ix2 (0 : Fin 1) (⟨0 + n.val, by have := n.isLt; omega⟩ : Fin 6144)) = P.bWi n + P.bUi n
  bf : ∀ n : Fin 1024, x5 (ix2 (0 : Fin 1) (⟨1024 + n.val, by have := n.isLt; omega⟩ : Fin 6144)) = P.bWf n + P.bUf n
  bo : ∀ n : Fin 1024, x5 (ix2 (0 : Fin 1) (⟨2048 + n.val, by have := n.isLt; omega⟩ : Fin 6144)) = P.bWo n + P.bUo n
  bc : ∀ n : Fin 1024, x5 (ix2 (0 : Fin 1) (⟨3072 + n.val, by have := n.isLt; omega⟩ : Fin 6144)) = P.bWc n + P.bUc n
  bs : ∀ n : Fin 1024, x5 (ix2 (0 : Fin 1) (⟨4096 + n.val, by have := n.isLt; omega⟩ : Fin 6144)) = P.bWs n + P.bUs n
  bA1 : ∀ n : Fin 1024, x5 (ix2 (0 : Fin 1) (⟨5120 + n.val, by have := n.isLt; omega⟩ : Fin 6144)) = P.bA1 n + 0
  A2 : ∀ k : Fin 1024, x6 (ix2 (0 : Fin 1) k) = P.A2 k
  bA2 : x7 (ix2 (0 : Fin 1) (0 : Fin 1)) = P.bA2
  R1 : ∀ (n k : Fin 1024), x8 (ix2 n k) = P.R1 n k
  bR1 : ∀ n : Fin 1024, x9 (ix2 (0 : Fin 1) n) = P.bR1 n
  R2 : ∀ (n k : Fin 1024), x10 (ix2 n k) = P.R2 n k
  bR2 : ∀ n : Fin 1024, x11 (ix2 (0 : Fin 1) n) = P.bR2 n
  R3 : ∀ (n k : Fin 1024), x12 (ix2 n k) = P.R3 n k
  bR3 : ∀ n : Fin 1024, x13 (ix2 (0 : Fin 1) n) = P.bR3 n

section Block

variable {P : Wts} {x3 x4 : FVec Ideal S6144x1024 .bf16} {x5 : FVec Ideal S1x6144 .f32} {x6 : FVec Ideal S1x1024 .f32}
  {x7 : FVec Ideal S1x1 .f32} {x8 : FVec Ideal S1024x1024 .bf16} {x9 : FVec Ideal S1x1024 .f32}
  {x10 : FVec Ideal S1024x1024 .bf16} {x11 : FVec Ideal S1x1024 .f32} {x12 : FVec Ideal S1024x1024 .bf16} {x13 : FVec Ideal S1x1024 .f32}
  (x0 x1 x2 : FVec Ideal S256x1024 .f32)

/-- A thousand-column stretch of the wide pre-activation whose rows of the stacked matrices are the rows of `W` and
    `U` and whose bias entries are `bW + bU` is that gate's pre-activation, contractions and biases added separately. -/
theorem wide_gate (o : ℕ) (ho : o + 1024 ≤ 6144) (W U : Fin 1024 → Fin 1024 → EReal) (bW bU : Fin 1024 → EReal)
    (hW : ∀ n k : Fin 1024, x3 (ix2 (⟨o + n.val, by have := n.isLt; omega⟩ : Fin 6144) k) = W n k)
    (hU : ∀ n k : Fin 1024, x4 (ix2 (⟨o + n.val, by have := n.isLt; omega⟩ : Fin 6144) k) = U n k)
    (hb : ∀ n : Fin 1024, x5 (ix2 (0 : Fin 1) (⟨o + n.val, by have := n.isLt; omega⟩ : Fin 6144)) = bW n + bU n)
    (p : Fin 256) (n : Fin 1024) :
    wide x0 x1 x3 x4 x5 p ⟨o + n.val, by have := n.isLt; omega⟩ = preFused (brow x0 p) (brow x1 p) W U bW bU n := by
  unfold wide preFused
  exact congrArg₂ (· + ·) (congrArg₂ (· + ·) (congrArg (dot (brow x0 p)) (funext (hW n))) (congrArg (dot (brow x1 p)) (funext (hU n)))) (hb n)

variable (hB : BlockOf P x3 x4 x5 x6 x7 x8 x9 x10 x11 x12 x13)
include hB

theorem alpha_block (p : Fin 256) (u : Fin 1) :
    k0_pay8 (F := Ideal) x0 x1 x3 x4 x5 x6 x7 (ix2 p u) = alpha P (hidSplit P (brow x0 p) (brow x1 p)) := by
  rw [pay8_apply]
  unfold alpha
  have hu : u = 0 := Subsingleton.elim _ _
  subst hu
  refine congrArg Ideal.logistic (congrArg₂ (· + ·) (congrArg₂ dot (funext fun k => congrArg relu ?_) (funext hB.A2)) hB.bA2)
  exact wide_gate x0 x1 5120 (by norm_num) (fun n k => P.A1 n ⟨k.val, by have := k.isLt; omega⟩)
    (fun n k => P.A1 n ⟨1024 + k.val, by have := k.isLt; omega⟩) P.bA1 (fun _ => 0) hB.A1x hB.A1h hB.bA1 p k

theorem resid_block (p : Fin 256) (n : Fin 1024) :
    resid (k0_pay1 (F := Ideal) x1) x8 x10 x12 x9 x11 x13 p n = Cert.Cell.residual P (brow x1 p) n := by
  unfold resid Cert.Cell.residual
  simp only [hB.R1, hB.bR1, hB.R2, hB.bR2, hB.R3, hB.bR3]
  rfl

theorem cell_block (p : Fin 256) (n : Fin 1024) :
    k0_pay9 (F := Ideal) x2 (k0_pay1 x1) (k0_pay3 x0 x1 x3 x4 x5) (k0_pay4 x0 x1 x3 x4 x5) (k0_pay6 x0 x1 x3 x4 x5)
        (k0_pay7 x0 x1 x3 x4 x5) (k0_pay8 x0 x1 x3 x4 x5 x6 x7) x8 x9 x10 x11 x12 x13 (ix2 p n)
      = cellFused P (brow x0 p) (brow x1 p) (brow x2 p) n := by
  rw [pay9_apply, pay3_apply, pay4_apply, pay6_apply, pay7_apply, alpha_block x0 x1 hB p 0, resid_block x1 hB p n]
  unfold cellFused cellOf
  refine congrArg₂ (· + ·) (congrArg₂ (· + ·) (congrArg₂ (· * ·) (congrArg Ideal.logistic ?_) rfl)
    (congrArg₂ (· * ·) (congrArg₂ (· * ·) (congrArg₂ (· * ·) (congrArg Ideal.logistic ?_) (congrArg Ideal.tanh ?_))
      (congrArg Ideal.logistic ?_)) rfl)) rfl
  · exact wide_gate x0 x1 1024 (by norm_num) P.Wf P.Uf P.bWf P.bUf hB.Wf hB.Uf hB.bf p n
  · exact wide_gate x0 x1 0 (by norm_num) P.Wi P.Ui P.bWi P.bUi hB.Wi hB.Ui hB.bi p n
  · exact wide_gate x0 x1 3072 (by norm_num) P.Wc P.Uc P.bWc P.bUc hB.Wc hB.Uc hB.bc p n
  · exact wide_gate x0 x1 4096 (by norm_num) P.Ws P.Us P.bWs P.bUs hB.Ws hB.Us hB.bs p n

theorem hidden_block (p : Fin 256) (n : Fin 1024) :
    k0_pay10 (F := Ideal) x2 (k0_pay1 x1) (k0_pay3 x0 x1 x3 x4 x5) (k0_pay4 x0 x1 x3 x4 x5) (k0_pay5 x0 x1 x3 x4 x5)
        (k0_pay6 x0 x1 x3 x4 x5) (k0_pay7 x0 x1 x3 x4 x5) (k0_pay8 x0 x1 x3 x4 x5 x6 x7) x8 x9 x10 x11 x12 x13 (ix2 p n)
      = hiddenFused P (brow x0 p) (brow x1 p) (brow x2 p) n := by
  rw [pay10_apply, cell_block x0 x1 x2 hB p n, pay5_apply]
  unfold hiddenFused hiddenOf
  exact congrArg₂ (· * ·) (congrArg Ideal.logistic
    (wide_gate x0 x1 2048 (by norm_num) P.Wo P.Uo P.bWo P.bUo hB.Wo hB.Uo hB.bo p n)) rfl

end Block

end Cert.KernelIdeal.Body

end
-- ==== Proof.CellArrays.lean ====
/-
  The cell over whole arrays.

  The batch is an 8192 x 1024 matrix per input; row `r` of each is one row of the cell, and the rows do not
  interact.  The weights arrive as thirty arrays in the order the programs take them: five (matrix, bias) pairs
  applied to `x`, five applied to `h`, the 1024 x 2048 matrix of the sixth map with its bias, the 1 x 1024 row and
  the one-entry bias of the scalar gate, and three (matrix, bias) pairs of the residual.  The result arrays are the
  row function at every row, in either arrangement of the sums; the two arrangements are equal entry by entry.
-/
import proofs.«181006_j19473381720316_2_alg».proof.Proof.CellSpec
import Idealize.ShloMosaic.Lib.ValueIdx

noncomputable section

namespace Cert.Cell

open Idealize.ShloMosaic Idealize.ShloMosaic.ValueIdx

/-- A matrix of extended reals with literal extents. -/
abbrev Mat (a b : ℕ) : Type := (⟨2, ![a, b]⟩ : Shape).Idx → EReal
/-- A vector of extended reals with a literal extent. -/
abbrev Vect (a : ℕ) : Type := (⟨1, ![a]⟩ : Shape).Idx → EReal

/-- Row `r` of a matrix. -/
def rowOf {a b : ℕ} (M : Mat a b) (r : Fin a) : Fin b → EReal := fun k => M (ix2 r k)
/-- A matrix read coordinate by coordinate. -/
def matOf {a b : ℕ} (M : Mat a b) : Fin a → Fin b → EReal := fun n k => M (ix2 n k)
/-- A vector read by its coordinate. -/
def vecOf {a : ℕ} (v : Vect a) : Fin a → EReal := fun k => v (ix1 k)

/-- The weights from the thirty weight arrays, in the programs' argument order (arguments 3 to 32). -/
def wtsOf (a3 : Mat 1024 1024) (a4 : Vect 1024) (a5 : Mat 1024 1024) (a6 : Vect 1024) (a7 : Mat 1024 1024) (a8 : Vect 1024)
    (a9 : Mat 1024 1024) (a10 : Vect 1024) (a11 : Mat 1024 1024) (a12 : Vect 1024)
    (a13 : Mat 1024 1024) (a14 : Vect 1024) (a15 : Mat 1024 1024) (a16 : Vect 1024) (a17 : Mat 1024 1024) (a18 : Vect 1024)
    (a19 : Mat 1024 1024) (a20 : Vect 1024) (a21 : Mat 1024 1024) (a22 : Vect 1024)
    (a23 : Mat 1024 2048) (a24 : Vect 1024) (a25 : Mat 1 1024) (a26 : Vect 1)
    (a27 : Mat 1024 1024) (a28 : Vect 1024) (a29 : Mat 1024 1024) (a30 : Vect 1024) (a31 : Mat 1024 1024) (a32 : Vect 1024) : Wts where
  Wi := matOf a3
  bWi := vecOf a4
  Wf := matOf a5
  bWf := vecOf a6
  Wo := matOf a7
  bWo := vecOf a8
  Wc := matOf a9
  bWc := vecOf a10
  Ws := matOf a11
  bWs := vecOf a12
  Ui := matOf a13
  bUi := vecOf a14
  Uf := matOf a15
  bUf := vecOf a16
  Uo := matOf a17
  bUo := vecOf a18
  Uc := matOf a19
  bUc := vecOf a20
  Us := matOf a21
  bUs := vecOf a22
  A1 := matOf a23
  bA1 := vecOf a24
  A2 := rowOf a25 0
  bA2 := a26 (ix1 0)
  R1 := matOf a27
  bR1 := vecOf a28
  R2 := matOf a29
  bR2 := vecOf a30
  R3 := matOf a31
  bR3 := vecOf a32

variable (P : Wts) (a0 a1 a2 : Mat 8192 1024)

/-- The new cell array, every affine map with its own bias. -/
def cellArr : Mat 8192 1024 := fun j => cellSep P (rowOf a0 (j 0)) (rowOf a1 (j 0)) (rowOf a2 (j 0)) (j 1)
/-- The new hidden array in the same arrangement. -/
def hiddenArr : Mat 8192 1024 := fun j => hiddenSep P (rowOf a0 (j 0)) (rowOf a1 (j 0)) (rowOf a2 (j 0)) (j 1)
/-- The new cell array, contractions and biases added separately. -/
def cellArrFused : Mat 8192 1024 := fun j => cellFused P (rowOf a0 (j 0)) (rowOf a1 (j 0)) (rowOf a2 (j 0)) (j 1)
/-- The new hidden array in the same arrangement. -/
def hiddenArrFused : Mat 8192 1024 := fun j => hiddenFused P (rowOf a0 (j 0)) (rowOf a1 (j 0)) (rowOf a2 (j 0)) (j 1)

theorem cellArrFused_eq : cellArrFused P a0 a1 a2 = cellArr P a0 a1 a2 := by
  funext j; unfold cellArrFused cellArr; rw [cellFused_eq_cellSep]

theorem hiddenArrFused_eq : hiddenArrFused P a0 a1 a2 = hiddenArr P a0 a1 a2 := by
  funext j; unfold hiddenArrFused hiddenArr; rw [hiddenFused_eq_hiddenSep]

theorem cellArr_apply (r : Fin 8192) (n : Fin 1024) :
    cellArr P a0 a1 a2 (ix2 r n) = cellSep P (rowOf a0 r) (rowOf a1 r) (rowOf a2 r) n := rfl
theorem hiddenArr_apply (r : Fin 8192) (n : Fin 1024) :
    hiddenArr P a0 a1 a2 (ix2 r n) = hiddenSep P (rowOf a0 r) (rowOf a1 r) (rowOf a2 r) n := rfl
theorem cellArrFused_apply (r : Fin 8192) (n : Fin 1024) :
    cellArrFused P a0 a1 a2 (ix2 r n) = cellFused P (rowOf a0 r) (rowOf a1 r) (rowOf a2 r) n := rfl
theorem hiddenArrFused_apply (r : Fin 8192) (n : Fin 1024) :
    hiddenArrFused P a0 a1 a2 (ix2 r n) = hiddenFused P (rowOf a0 r) (rowOf a1 r) (rowOf a2 r) n := rfl

end Cert.Cell

end
-- ==== Proof.KValue.lean ====
/-
  From blocks to whole arrays.

  The grid has 32 points; at point t the three batch windows and the two result windows hold rows t * 256 .. t * 256 + 255
  of their arrays and every other window holds its whole array.  So what point t writes back is rows t * 256 .. of the
  row-wise cell function of the arrays, and since the 32 blocks of 256 rows cover all 8192 rows, each result array ends
  holding that function at every row.
-/
import proofs.«181006_j19473381720316_2_alg».proof.Proof.FrameKI
import proofs.«181006_j19473381720316_2_alg».proof.Proof.KCell
import proofs.«181006_j19473381720316_2_alg».proof.Proof.CellArrays
import Idealize.ShloMosaic.Lib.Pipeline.Value

set_option maxRecDepth 16384

noncomputable section

namespace Cert.KernelIdeal.Val

open Cert.KernelIdeal Cert.KernelIdeal.Gen Cert.KernelIdeal.Fr Cert.KernelIdeal.Body Cert.Cell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The batch windows and the result windows move down one block of rows per point and stay at column block 0. -/
theorem idx_moving : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_14.index t (0 : Fin 2) = t.val ∧ win0_14.index t (1 : Fin 2) = 0)
    ∧ (win0_15.index t (0 : Fin 2) = t.val ∧ win0_15.index t (1 : Fin 2) = 0) :=
  (by decide +kernel : ∀ t : Fin grid0.N, _)

/-- Every other window stays at block (0, 0). -/
theorem idx_const : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

theorem t_lt (t : Fin cfg0.N) : t.val < 32 := lt_of_lt_of_eq t.isLt N_0

/-- Window 3 stages its whole array at every point. -/
theorem iblk_3 (c : Dev nD) (t : Fin cfg0.N) : (iblk m c 3 t : S6144x1024.Idx → EReal) = (V m c main_v3 : S6144x1024.Idx → EReal) := by
  funext y
  show V m c main_v3 (((cfg0.win 3).blk t).view.emb y) = V m c main_v3 y
  refine congrArg (V m c main_v3) (funext fun a => Fin.ext ?_)
  obtain ⟨e0, e1⟩ := (idx_const t).1
  match a with
  | ⟨0, _⟩ => show win0_3.index t (0 : Fin 2) * 6144 + 1 * (y 0).val = (y 0).val; rw [e0]; omega
  | ⟨1, _⟩ => show win0_3.index t (1 : Fin 2) * 1024 + 1 * (y 1).val = (y 1).val; rw [e1]; omega

/-- Window 4 stages its whole array at every point. -/
theorem iblk_4 (c : Dev nD) (t : Fin cfg0.N) : (iblk m c 4 t : S6144x1024.Idx → EReal) = (V m c main_v5 : S6144x1024.Idx → EReal) := by
  funext y
  show V m c main_v5 (((cfg0.win 4).blk t).view.emb y) = V m c main_v5 y
  refine congrArg (V m c main_v5) (funext fun a => Fin.ext ?_)
  obtain ⟨e0, e1⟩ := (idx_const t).2.1
  match a with
  | ⟨0, _⟩ => show win0_4.index t (0 : Fin 2) * 6144 + 1 * (y 0).val = (y 0).val; rw [e0]; omega
  | ⟨1, _⟩ => show win0_4.index t (1 : Fin 2) * 1024 + 1 * (y 1).val = (y 1).val; rw [e1]; omega

/-- Window 5 stages its whole array at every point. -/
theorem iblk_5 (c : Dev nD) (t : Fin cfg0.N) : (iblk m c 5 t : S1x6144.Idx → EReal) = (V m c main_v10 : S1x6144.Idx → EReal) := by
  funext y
  show V m c main_v10 (((cfg0.win 5).blk t).view.emb y) = V m c main_v10 y
  refine congrArg (V m c main_v10) (funext fun a => Fin.ext ?_)
  obtain ⟨e0, e1⟩ := (idx_const t).2.2.1
  match a with
  | ⟨0, _⟩ => show win0_5.index t (0 : Fin 2) * 1 + 1 * (y 0).val = (y 0).val; rw [e0]; omega
  | ⟨1, _⟩ => show win0_5.index t (1 : Fin 2) * 6144 + 1 * (y 1).val = (y 1).val; rw [e1]; omega

/-- Window 6 stages its whole array at every point. -/
theorem iblk_6 (c : Dev nD) (t : Fin cfg0.N) : (iblk m c 6 t : S1x1024.Idx → EReal) = (V m c main_arg25 : S1x1024.Idx → EReal) := by
  funext y
  show V m c main_arg25 (((cfg0.win 6).blk t).view.emb y) = V m c main_arg25 y
  refine congrArg (V m c main_arg25) (funext fun a => Fin.ext ?_)
  obtain ⟨e0, e1⟩ := (idx_const t).2.2.2.1
  match a with
  | ⟨0, _⟩ => show win0_6.index t (0 : Fin 2) * 1 + 1 * (y 0).val = (y 0).val; rw [e0]; omega
  | ⟨1, _⟩ => show win0_6.index t (1 : Fin 2) * 1024 + 1 * (y 1).val = (y 1).val; rw [e1]; omega

/-- Window 7 stages its whole array at every point. -/
theorem iblk_7 (c : Dev nD) (t : Fin cfg0.N) : (iblk m c 7 t : S1x1.Idx → EReal) = (V m c main_v11 : S1x1.Idx → EReal) := by
  funext y
  show V m c main_v11 (((cfg0.win 7).blk t).view.emb y) = V m c main_v11 y
  refine congrArg (V m c main_v11) (funext fun a => Fin.ext ?_)
  obtain ⟨e0, e1⟩ := (idx_const t).2.2.2.2.1
  match a with
  | ⟨0, _⟩ => show win0_7.index t (0 : Fin 2) * 1 + 1 * (y 0).val = (y 0).val; rw [e0]; omega
  | ⟨1, _⟩ => show win0_7.index t (1 : Fin 2) * 1 + 1 * (y 1).val = (y 1).val; rw [e1]; omega

/-- Window 8 stages its whole array at every point. -/
theorem iblk_8 (c : Dev nD) (t : Fin cfg0.N) : (iblk m c 8 t : S1024x1024.Idx → EReal) = (V m c main_v12 : S1024x1024.Idx → EReal) := by
  funext y
  show V m c main_v12 (((cfg0.win 8).blk t).view.emb y) = V m c main_v12 y
  refine congrArg (V m c main_v12) (funext fun a => Fin.ext ?_)
  obtain ⟨e0, e1⟩ := (idx_const t).2.2.2.2.2.1
  match a with
  | ⟨0, _⟩ => show win0_8.index t (0 : Fin 2) * 1024 + 1 * (y 0).val = (y 0).val; rw [e0]; omega
  | ⟨1, _⟩ => show win0_8.index t (1 : Fin 2) * 1024 + 1 * (y 1).val = (y 1).val; rw [e1]; omega

/-- Window 9 stages its whole array at every point. -/
theorem iblk_9 (c : Dev nD) (t : Fin cfg0.N) : (iblk m c 9 t : S1x1024.Idx → EReal) = (V m c main_v15 : S1x1024.Idx → EReal) := by
  funext y
  show V m c main_v15 (((cfg0.win 9).blk t).view.emb y) = V m c main_v15 y
  refine congrArg (V m c main_v15) (funext fun a => Fin.ext ?_)
  obtain ⟨e0, e1⟩ := (idx_const t).2.2.2.2.2.2.1
  match a with
  | ⟨0, _⟩ => show win0_9.index t (0 : Fin 2) * 1 + 1 * (y 0).val = (y 0).val; rw [e0]; omega
  | ⟨1, _⟩ => show win0_9.index t (1 : Fin 2) * 1024 + 1 * (y 1).val = (y 1).val; rw [e1]; omega

/-- Window 10 stages its whole array at every point. -/
theorem iblk_10 (c : Dev nD) (t : Fin cfg0.N) : (iblk m c 10 t : S1024x1024.Idx → EReal) = (V m c main_v13 : S1024x1024.Idx → EReal) := by
  funext y
  show V m c main_v13 (((cfg0.win 10).blk t).view.emb y) = V m c main_v13 y
  refine congrArg (V m c main_v13) (funext fun a => Fin.ext ?_)
  obtain ⟨e0, e1⟩ := (idx_const t).2.2.2.2.2.2.2.1
  match a with
  | ⟨0, _⟩ => show win0_10.index t (0 : Fin 2) * 1024 + 1 * (y 0).val = (y 0).val; rw [e0]; omega
  | ⟨1, _⟩ => show win0_10.index t (1 : Fin 2) * 1024 + 1 * (y 1).val = (y 1).val; rw [e1]; omega

/-- Window 11 stages its whole array at every point. -/
theorem iblk_11 (c : Dev nD) (t : Fin cfg0.N) : (iblk m c 11 t : S1x1024.Idx → EReal) = (V m c main_v16 : S1x1024.Idx → EReal) := by
  funext y
  show V m c main_v16 (((cfg0.win 11).blk t).view.emb y) = V m c main_v16 y
  refine congrArg (V m c main_v16) (funext fun a => Fin.ext ?_)
  obtain ⟨e0, e1⟩ := (idx_const t).2.2.2.2.2.2.2.2.1
  match a with
  | ⟨0, _⟩ => show win0_11.index t (0 : Fin 2) * 1 + 1 * (y 0).val = (y 0).val; rw [e0]; omega
  | ⟨1, _⟩ => show win0_11.index t (1 : Fin 2) * 1024 + 1 * (y 1).val = (y 1).val; rw [e1]; omega

/-- Window 12 stages its whole array at every point. -/
theorem iblk_12 (c : Dev nD) (t : Fin cfg0.N) : (iblk m c 12 t : S1024x1024.Idx → EReal) = (V m c main_v14 : S1024x1024.Idx → EReal) := by
  funext y
  show V m c main_v14 (((cfg0.win 12).blk t).view.emb y) = V m c main_v14 y
  refine congrArg (V m c main_v14) (funext fun a => Fin.ext ?_)
  obtain ⟨e0, e1⟩ := (idx_const t).2.2.2.2.2.2.2.2.2.1
  match a with
  | ⟨0, _⟩ => show win0_12.index t (0 : Fin 2) * 1024 + 1 * (y 0).val = (y 0).val; rw [e0]; omega
  | ⟨1, _⟩ => show win0_12.index t (1 : Fin 2) * 1024 + 1 * (y 1).val = (y 1).val; rw [e1]; omega

/-- Window 13 stages its whole array at every point. -/
theorem iblk_13 (c : Dev nD) (t : Fin cfg0.N) : (iblk m c 13 t : S1x1024.Idx → EReal) = (V m c main_v17 : S1x1024.Idx → EReal) := by
  funext y
  show V m c main_v17 (((cfg0.win 13).blk t).view.emb y) = V m c main_v17 y
  refine congrArg (V m c main_v17) (funext fun a => Fin.ext ?_)
  obtain ⟨e0, e1⟩ := (idx_const t).2.2.2.2.2.2.2.2.2.2
  match a with
  | ⟨0, _⟩ => show win0_13.index t (0 : Fin 2) * 1 + 1 * (y 0).val = (y 0).val; rw [e0]; omega
  | ⟨1, _⟩ => show win0_13.index t (1 : Fin 2) * 1024 + 1 * (y 1).val = (y 1).val; rw [e1]; omega

/-- Row p of window 0's block at point t is row t * 256 + p of its array. -/
theorem iblk_0_apply (c : Dev nD) (t : Fin cfg0.N) (p : Fin 256) (k : Fin 1024) (r : Fin 8192) (hr : r.val = t.val * 256 + p.val) :
    (iblk m c 0 t : S256x1024.Idx → EReal) (ix2 p k) = (V m c main_arg0 : S8192x1024.Idx → EReal) (ix2 r k) := by
  show V m c main_arg0 (((cfg0.win 0).blk t).view.emb (ix2 p k)) = V m c main_arg0 (ix2 r k)
  refine congrArg (V m c main_arg0) (funext fun a => Fin.ext ?_)
  obtain ⟨e0, e1⟩ := (idx_moving t).1
  match a with
  | ⟨0, _⟩ => show win0_0.index t (0 : Fin 2) * 256 + 1 * p.val = r.val; rw [e0]; omega
  | ⟨1, _⟩ => show win0_0.index t (1 : Fin 2) * 1024 + 1 * k.val = k.val; rw [e1]; omega

/-- Row p of window 1's block at point t is row t * 256 + p of its array. -/
theorem iblk_1_apply (c : Dev nD) (t : Fin cfg0.N) (p : Fin 256) (k : Fin 1024) (r : Fin 8192) (hr : r.val = t.val * 256 + p.val) :
    (iblk m c 1 t : S256x1024.Idx → EReal) (ix2 p k) = (V m c main_arg1 : S8192x1024.Idx → EReal) (ix2 r k) := by
  show V m c main_arg1 (((cfg0.win 1).blk t).view.emb (ix2 p k)) = V m c main_arg1 (ix2 r k)
  refine congrArg (V m c main_arg1) (funext fun a => Fin.ext ?_)
  obtain ⟨e0, e1⟩ := (idx_moving t).2.1
  match a with
  | ⟨0, _⟩ => show win0_1.index t (0 : Fin 2) * 256 + 1 * p.val = r.val; rw [e0]; omega
  | ⟨1, _⟩ => show win0_1.index t (1 : Fin 2) * 1024 + 1 * k.val = k.val; rw [e1]; omega

/-- Row p of window 2's block at point t is row t * 256 + p of its array. -/
theorem iblk_2_apply (c : Dev nD) (t : Fin cfg0.N) (p : Fin 256) (k : Fin 1024) (r : Fin 8192) (hr : r.val = t.val * 256 + p.val) :
    (iblk m c 2 t : S256x1024.Idx → EReal) (ix2 p k) = (V m c main_arg2 : S8192x1024.Idx → EReal) (ix2 r k) := by
  show V m c main_arg2 (((cfg0.win 2).blk t).view.emb (ix2 p k)) = V m c main_arg2 (ix2 r k)
  refine congrArg (V m c main_arg2) (funext fun a => Fin.ext ?_)
  obtain ⟨e0, e1⟩ := (idx_moving t).2.2.1
  match a with
  | ⟨0, _⟩ => show win0_2.index t (0 : Fin 2) * 256 + 1 * p.val = r.val; rw [e0]; omega
  | ⟨1, _⟩ => show win0_2.index t (1 : Fin 2) * 1024 + 1 * k.val = k.val; rw [e1]; omega

/-- Over plain blocks: if the three batch blocks are rows tv * 256 .. of three arrays and the weight blocks hold the cell's
    weights, the body's stored cell value at a block entry is the cell function of the arrays at the array entry it sits at. -/
theorem cell_at {P : Wts} {x3 x4 : FVec Ideal S6144x1024 .bf16} {x5 : FVec Ideal S1x6144 .f32} {x6 : FVec Ideal S1x1024 .f32}
    {x7 : FVec Ideal S1x1 .f32} {x8 : FVec Ideal S1024x1024 .bf16} {x9 : FVec Ideal S1x1024 .f32}
    {x10 : FVec Ideal S1024x1024 .bf16} {x11 : FVec Ideal S1x1024 .f32} {x12 : FVec Ideal S1024x1024 .bf16} {x13 : FVec Ideal S1x1024 .f32}
    (hB : BlockOf P x3 x4 x5 x6 x7 x8 x9 x10 x11 x12 x13) (x0 x1 x2 : FVec Ideal S256x1024 .f32) (a0 a1 a2 : Mat 8192 1024) (tv : ℕ)
    (h0 : ∀ (p : Fin 256) (k : Fin 1024) (r : Fin 8192), r.val = tv * 256 + p.val → x0 (ix2 p k) = a0 (ix2 r k))
    (h1 : ∀ (p : Fin 256) (k : Fin 1024) (r : Fin 8192), r.val = tv * 256 + p.val → x1 (ix2 p k) = a1 (ix2 r k))
    (h2 : ∀ (p : Fin 256) (k : Fin 1024) (r : Fin 8192), r.val = tv * 256 + p.val → x2 (ix2 p k) = a2 (ix2 r k))
    (p : Fin 256) (n : Fin 1024) (r : Fin 8192) (hr : r.val = tv * 256 + p.val) :
    k0_pay9 (F := Ideal) x2 (k0_pay1 x1) (k0_pay3 x0 x1 x3 x4 x5) (k0_pay4 x0 x1 x3 x4 x5) (k0_pay6 x0 x1 x3 x4 x5)
        (k0_pay7 x0 x1 x3 x4 x5) (k0_pay8 x0 x1 x3 x4 x5 x6 x7) x8 x9 x10 x11 x12 x13 (ix2 p n)
      = cellArrFused P a0 a1 a2 (ix2 r n) := by
  rw [cell_block x0 x1 x2 hB p n, cellArrFused_apply]
  have e0 : brow x0 p = rowOf a0 r := funext fun k => h0 p k r hr
  have e1 : brow x1 p = rowOf a1 r := funext fun k => h1 p k r hr
  have e2 : brow x2 p = rowOf a2 r := funext fun k => h2 p k r hr
  rw [e0, e1, e2]

/-- The same for the stored hidden value. -/
theorem hidden_at {P : Wts} {x3 x4 : FVec Ideal S6144x1024 .bf16} {x5 : FVec Ideal S1x6144 .f32} {x6 : FVec Ideal S1x1024 .f32}
    {x7 : FVec Ideal S1x1 .f32} {x8 : FVec Ideal S1024x1024 .bf16} {x9 : FVec Ideal S1x1024 .f32}
    {x10 : FVec Ideal S1024x1024 .bf16} {x11 : FVec Ideal S1x1024 .f32} {x12 : FVec Ideal S1024x1024 .bf16} {x13 : FVec Ideal S1x1024 .f32}
    (hB : BlockOf P x3 x4 x5 x6 x7 x8 x9 x10 x11 x12 x13) (x0 x1 x2 : FVec Ideal S256x1024 .f32) (a0 a1 a2 : Mat 8192 1024) (tv : ℕ)
    (h0 : ∀ (p : Fin 256) (k : Fin 1024) (r : Fin 8192), r.val = tv * 256 + p.val → x0 (ix2 p k) = a0 (ix2 r k))
    (h1 : ∀ (p : Fin 256) (k : Fin 1024) (r : Fin 8192), r.val = tv * 256 + p.val → x1 (ix2 p k) = a1 (ix2 r k))
    (h2 : ∀ (p : Fin 256) (k : Fin 1024) (r : Fin 8192), r.val = tv * 256 + p.val → x2 (ix2 p k) = a2 (ix2 r k))
    (p : Fin 256) (n : Fin 1024) (r : Fin 8192) (hr : r.val = tv * 256 + p.val) :
    k0_pay10 (F := Ideal) x2 (k0_pay1 x1) (k0_pay3 x0 x1 x3 x4 x5) (k0_pay4 x0 x1 x3 x4 x5) (k0_pay5 x0 x1 x3 x4 x5)
        (k0_pay6 x0 x1 x3 x4 x5) (k0_pay7 x0 x1 x3 x4 x5) (k0_pay8 x0 x1 x3 x4 x5 x6 x7) x8 x9 x10 x11 x12 x13 (ix2 p n)
      = hiddenArrFused P a0 a1 a2 (ix2 r n) := by
  rw [hidden_block x0 x1 x2 hB p n, hiddenArrFused_apply]
  have e0 : brow x0 p = rowOf a0 r := funext fun k => h0 p k r hr
  have e1 : brow x1 p = rowOf a1 r := funext fun k => h1 p k r hr
  have e2 : brow x2 p = rowOf a2 r := funext fun k => h2 p k r hr
  rw [e0, e1, e2]

/-! ## The result arrays -/

/-- The cell's weights read off the launched weight arrays. -/
def wts (c : Dev nD) : Wts := wtsOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32))

/-- The arrays of the eleven whole-array windows, as the host operations before the region leave them, hold the cell's weights. -/
abbrev HostBlocks (c : Dev nD) : Prop := BlockOf (wts m c) (V m c main_v3 : S6144x1024.Idx → EReal) (V m c main_v5 : S6144x1024.Idx → EReal) (V m c main_v10 : S1x6144.Idx → EReal) (V m c main_arg25 : S1x1024.Idx → EReal) (V m c main_v11 : S1x1.Idx → EReal) (V m c main_v12 : S1024x1024.Idx → EReal) (V m c main_v15 : S1x1024.Idx → EReal) (V m c main_v13 : S1024x1024.Idx → EReal) (V m c main_v16 : S1x1024.Idx → EReal) (V m c main_v14 : S1024x1024.Idx → EReal) (V m c main_v17 : S1x1024.Idx → EReal)

/-- What point t writes back through result window 15: rows t * 256 .. of the cell array. -/
theorem flushed15_eq (c : Dev nD) (hH : HostBlocks m c) (t : Fin cfg0.N) :
    (dats m 0 c).flushed 15 t = ((cfg0.win 15).blk t).view.read (Elt Ideal)
      (cellArrFused (wts m c) (m ((c.tc : Thread nD τ).loc main_arg0)) (m ((c.tc : Thread nD τ).loc main_arg1)) (m ((c.tc : Thread nD τ).loc main_arg2))) := by
  show (cfg0.win 15).cut (grid0.coords t) ((dats m 0 c).after 15 t) = _
  rw [after0_15]
  unfold out0_15
  rw [View.canon_unit_zero hz]
  simp only [View.ld_unit_zero (S := S256x1024) hz, View.ld_unit_zero (S := S6144x1024) hz, View.ld_unit_zero (S := S1x6144) hz, View.ld_unit_zero (S := S1x1024) hz, View.ld_unit_zero (S := S1x1) hz, View.ld_unit_zero (S := S1024x1024) hz]
  rw [iblk_3 m c t, iblk_4 m c t, iblk_5 m c t, iblk_6 m c t, iblk_7 m c t, iblk_8 m c t, iblk_9 m c t, iblk_10 m c t, iblk_11 m c t, iblk_12 m c t, iblk_13 m c t]
  funext j
  obtain ⟨p, n, rfl⟩ : ∃ (p : Fin 256) (n : Fin 1024), j = ix2 p n := ⟨j 0, j 1, eq_ix2 j⟩
  have hr : t.val * 256 + p.val < 8192 := by have := t_lt t; have := p.isLt; omega
  have hemb : ((cfg0.win 15).blk t).view.emb (ix2 p n) = ix2 (⟨t.val * 256 + p.val, hr⟩ : Fin 8192) n := by
    funext a; apply Fin.ext
    obtain ⟨e0, e1⟩ := (idx_moving t).2.2.2.2
    match a with
    | ⟨0, _⟩ => show win0_15.index t (0 : Fin 2) * 256 + 1 * p.val = t.val * 256 + p.val; rw [e0]; omega
    | ⟨1, _⟩ => show win0_15.index t (1 : Fin 2) * 1024 + 1 * n.val = n.val; rw [e1]; omega
  show _ = cellArrFused (wts m c) (m ((c.tc : Thread nD τ).loc main_arg0)) (m ((c.tc : Thread nD τ).loc main_arg1)) (m ((c.tc : Thread nD τ).loc main_arg2)) (((cfg0.win 15).blk t).view.emb (ix2 p n))
  rw [hemb]
  exact cell_at hH (iblk m c 0 t) (iblk m c 1 t) (iblk m c 2 t) (m ((c.tc : Thread nD τ).loc main_arg0)) (m ((c.tc : Thread nD τ).loc main_arg1)) (m ((c.tc : Thread nD τ).loc main_arg2)) t.val
    (fun p k r hr => (iblk_0_apply m c t p k r hr).trans (congrFun (V_main_arg0 m c) _))
    (fun p k r hr => (iblk_1_apply m c t p k r hr).trans (congrFun (V_main_arg1 m c) _))
    (fun p k r hr => (iblk_2_apply m c t p k r hr).trans (congrFun (V_main_arg2 m c) _))
    p n ⟨t.val * 256 + p.val, hr⟩ rfl

/-- What point t writes back through result window 14: rows t * 256 .. of the hidden array. -/
theorem flushed14_eq (c : Dev nD) (hH : HostBlocks m c) (t : Fin cfg0.N) :
    (dats m 0 c).flushed 14 t = ((cfg0.win 14).blk t).view.read (Elt Ideal)
      (hiddenArrFused (wts m c) (m ((c.tc : Thread nD τ).loc main_arg0)) (m ((c.tc : Thread nD τ).loc main_arg1)) (m ((c.tc : Thread nD τ).loc main_arg2))) := by
  show (cfg0.win 14).cut (grid0.coords t) ((dats m 0 c).after 14 t) = _
  rw [after0_14]
  unfold out0_14
  rw [View.canon_unit_zero hz]
  simp only [View.ld_unit_zero (S := S256x1024) hz, View.ld_unit_zero (S := S6144x1024) hz, View.ld_unit_zero (S := S1x6144) hz, View.ld_unit_zero (S := S1x1024) hz, View.ld_unit_zero (S := S1x1) hz, View.ld_unit_zero (S := S1024x1024) hz]
  rw [iblk_3 m c t, iblk_4 m c t, iblk_5 m c t, iblk_6 m c t, iblk_7 m c t, iblk_8 m c t, iblk_9 m c t, iblk_10 m c t, iblk_11 m c t, iblk_12 m c t, iblk_13 m c t]
  funext j
  obtain ⟨p, n, rfl⟩ : ∃ (p : Fin 256) (n : Fin 1024), j = ix2 p n := ⟨j 0, j 1, eq_ix2 j⟩
  have hr : t.val * 256 + p.val < 8192 := by have := t_lt t; have := p.isLt; omega
  have hemb : ((cfg0.win 14).blk t).view.emb (ix2 p n) = ix2 (⟨t.val * 256 + p.val, hr⟩ : Fin 8192) n := by
    funext a; apply Fin.ext
    obtain ⟨e0, e1⟩ := (idx_moving t).2.2.2.1
    match a with
    | ⟨0, _⟩ => show win0_14.index t (0 : Fin 2) * 256 + 1 * p.val = t.val * 256 + p.val; rw [e0]; omega
    | ⟨1, _⟩ => show win0_14.index t (1 : Fin 2) * 1024 + 1 * n.val = n.val; rw [e1]; omega
  show _ = hiddenArrFused (wts m c) (m ((c.tc : Thread nD τ).loc main_arg0)) (m ((c.tc : Thread nD τ).loc main_arg1)) (m ((c.tc : Thread nD τ).loc main_arg2)) (((cfg0.win 14).blk t).view.emb (ix2 p n))
  rw [hemb]
  exact hidden_at hH (iblk m c 0 t) (iblk m c 1 t) (iblk m c 2 t) (m ((c.tc : Thread nD τ).loc main_arg0)) (m ((c.tc : Thread nD τ).loc main_arg1)) (m ((c.tc : Thread nD τ).loc main_arg2)) t.val
    (fun p k r hr => (iblk_0_apply m c t p k r hr).trans (congrFun (V_main_arg0 m c) _))
    (fun p k r hr => (iblk_1_apply m c t p k r hr).trans (congrFun (V_main_arg1 m c) _))
    (fun p k r hr => (iblk_2_apply m c t p k r hr).trans (congrFun (V_main_arg2 m c) _))
    p n ⟨t.val * 256 + p.val, hr⟩ rfl

/-- An entry of the array is in point t's block of result window 14 iff each coordinate is in the block's range. -/
theorem mem_blk14 (t : Fin cfg0.N) (i : S8192x1024.Idx) :
    i ∈ ((cfg0.win 14).blk t).view.set ↔ ∀ a : Fin 2, win0_14.index t a * S256x1024.size a ≤ (i a).val ∧ (i a).val < win0_14.index t a * S256x1024.size a + S256x1024.size a := by
  show i ∈ ((View.whole main_v18_0).slice (win0_14.rect t)).set ↔ _
  rw [View.set_slice_whole, Rect.mem_set_unit]
  exact Iff.rfl

/-- Every row lies in the block of the point numbered by the row divided by 256. -/
theorem cover14 (i : S8192x1024.Idx) : ∃ t : Fin cfg0.N, (cfg0.win 14).flush t = true ∧ i ∈ ((cfg0.win 14).blk t).view.set := by
  have hi0 : (i 0).val < 8192 := (i 0).isLt
  have hi1 : (i 1).val < 1024 := (i 1).isLt
  have ht : (i 0).val / 256 < cfg0.N := by show _ < grid0.N; rw [N_0]; omega
  refine ⟨⟨(i 0).val / 256, ht⟩, flush0_14 _, ?_⟩
  rw [mem_blk14]
  obtain ⟨e0, e1⟩ := (idx_moving ⟨(i 0).val / 256, ht⟩).2.2.2.1
  intro a
  match a with
  | ⟨0, _⟩ => show win0_14.index ⟨(i 0).val / 256, ht⟩ (0 : Fin 2) * 256 ≤ (i 0).val ∧ (i 0).val < win0_14.index ⟨(i 0).val / 256, ht⟩ (0 : Fin 2) * 256 + 256; rw [e0]; show (i 0).val / 256 * 256 ≤ (i 0).val ∧ (i 0).val < (i 0).val / 256 * 256 + 256; omega
  | ⟨1, _⟩ => show win0_14.index ⟨(i 0).val / 256, ht⟩ (1 : Fin 2) * 1024 ≤ (i 1).val ∧ (i 1).val < win0_14.index ⟨(i 0).val / 256, ht⟩ (1 : Fin 2) * 1024 + 1024; rw [e1]; omega

/-- An entry of the array is in point t's block of result window 15 iff each coordinate is in the block's range. -/
theorem mem_blk15 (t : Fin cfg0.N) (i : S8192x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v18_1).slice (win0_15.rect t)).set ↔ _
  rw [View.set_slice_whole, Rect.mem_set_unit]
  exact Iff.rfl

/-- Every row lies in the block of the point numbered by the row divided by 256. -/
theorem cover15 (i : S8192x1024.Idx) : ∃ t : Fin cfg0.N, (cfg0.win 15).flush t = true ∧ i ∈ ((cfg0.win 15).blk t).view.set := by
  have hi0 : (i 0).val < 8192 := (i 0).isLt
  have hi1 : (i 1).val < 1024 := (i 1).isLt
  have ht : (i 0).val / 256 < cfg0.N := by show _ < grid0.N; rw [N_0]; omega
  refine ⟨⟨(i 0).val / 256, ht⟩, flush0_15 _, ?_⟩
  rw [mem_blk15]
  obtain ⟨e0, e1⟩ := (idx_moving ⟨(i 0).val / 256, ht⟩).2.2.2.2
  intro a
  match a with
  | ⟨0, _⟩ => show win0_15.index ⟨(i 0).val / 256, ht⟩ (0 : Fin 2) * 256 ≤ (i 0).val ∧ (i 0).val < win0_15.index ⟨(i 0).val / 256, ht⟩ (0 : Fin 2) * 256 + 256; rw [e0]; show (i 0).val / 256 * 256 ≤ (i 0).val ∧ (i 0).val < (i 0).val / 256 * 256 + 256; omega
  | ⟨1, _⟩ => show win0_15.index ⟨(i 0).val / 256, ht⟩ (1 : Fin 2) * 1024 ≤ (i 1).val ∧ (i 1).val < win0_15.index ⟨(i 0).val / 256, ht⟩ (1 : Fin 2) * 1024 + 1024; rw [e1]; omega

/-- The cell result array after the run. -/
theorem final15 (c : Dev nD) (hH : HostBlocks m c) :
    (dats m 0 c).arrAt 15 cfg0.N = cellArr (wts m c) (m ((c.tc : Thread nD τ).loc main_arg0)) (m ((c.tc : Thread nD τ).loc main_arg1)) (m ((c.tc : Thread nD τ).loc main_arg2)) :=
  ((dats m 0 c).arrAt_eq_of_cover 15 _ (fun t _ => flushed15_eq m c hH t) cover15).trans (cellArrFused_eq _ _ _ _)

/-- The hidden result array after the run. -/
theorem final14 (c : Dev nD) (hH : HostBlocks m c) :
    (dats m 0 c).arrAt 14 cfg0.N = hiddenArr (wts m c) (m ((c.tc : Thread nD τ).loc main_arg0)) (m ((c.tc : Thread nD τ).loc main_arg1)) (m ((c.tc : Thread nD τ).loc main_arg2)) :=
  ((dats m 0 c).arrAt_eq_of_cover 14 _ (fun t _ => flushed14_eq m c hH t) cover14).trans (hiddenArrFused_eq _ _ _ _)

/-- The thirty-three argument arrays end as launched: the four a window stages as inputs, the others untouched by the region. -/
theorem kept (r : PUnit × MemSt nD τ sig (Elt Ideal)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (by decide)).trans (V_main_arg3 m c),
    ((h c).2 main_arg4 (by decide)).trans (V_main_arg4 m c),
    ((h c).2 main_arg5 (by decide)).trans (V_main_arg5 m c),
    ((h c).2 main_arg6 (by decide)).trans (V_main_arg6 m c),
    ((h c).2 main_arg7 (by decide)).trans (V_main_arg7 m c),
    ((h c).2 main_arg8 (by decide)).trans (V_main_arg8 m c),
    ((h c).2 main_arg9 (by decide)).trans (V_main_arg9 m c),
    ((h c).2 main_arg10 (by decide)).trans (V_main_arg10 m c),
    ((h c).2 main_arg11 (by decide)).trans (V_main_arg11 m c),
    ((h c).2 main_arg12 (by decide)).trans (V_main_arg12 m c),
    ((h c).2 main_arg13 (by decide)).trans (V_main_arg13 m c),
    ((h c).2 main_arg14 (by decide)).trans (V_main_arg14 m c),
    ((h c).2 main_arg15 (by decide)).trans (V_main_arg15 m c),
    ((h c).2 main_arg16 (by decide)).trans (V_main_arg16 m c),
    ((h c).2 main_arg17 (by decide)).trans (V_main_arg17 m c),
    ((h c).2 main_arg18 (by decide)).trans (V_main_arg18 m c),
    ((h c).2 main_arg19 (by decide)).trans (V_main_arg19 m c),
    ((h c).2 main_arg20 (by decide)).trans (V_main_arg20 m c),
    ((h c).2 main_arg21 (by decide)).trans (V_main_arg21 m c),
    ((h c).2 main_arg22 (by decide)).trans (V_main_arg22 m c),
    ((h c).2 main_arg23 (by decide)).trans (V_main_arg23 m c),
    ((h c).2 main_arg24 (by decide)).trans (V_main_arg24 m c),
    ((h c).1 6).trans (((dats m 0 c).arrAt_in 6 rfl _).trans ((A_eq m c 6).trans (V_main_arg25 m c))),
    ((h c).2 main_arg26 (by decide)).trans (V_main_arg26 m c),
    ((h c).2 main_arg27 (by decide)).trans (V_main_arg27 m c),
    ((h c).2 main_arg28 (by decide)).trans (V_main_arg28 m c),
    ((h c).2 main_arg29 (by decide)).trans (V_main_arg29 m c),
    ((h c).2 main_arg30 (by decide)).trans (V_main_arg30 m c),
    ((h c).2 main_arg31 (by decide)).trans (V_main_arg31 m c),
    ((h c).2 main_arg32 (by decide)).trans (V_main_arg32 m c)⟩

/-- The run, read: each result array at the row-wise cell function of the launched arrays, the arguments unchanged. -/
theorem run (hH : ∀ c, HostBlocks m c) : θ_run defs (onTc (τ := τ) (main (F := Ideal))) ⟨m, fun _ => 0, ρ⟩ fun r => ∀ c : Dev nD,
      r.2.mem ((c.tc : Thread nD τ).loc main_v18_0) = hiddenArr (wts m c) (m ((c.tc : Thread nD τ).loc main_arg0)) (m ((c.tc : Thread nD τ).loc main_arg1)) (m ((c.tc : Thread nD τ).loc main_arg2))
      ∧ r.2.mem ((c.tc : Thread nD τ).loc main_v18_1) = cellArr (wts m c) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32) :=
  (θ_run defs _ _).mono (fun r h c => ⟨((h c).1 14).trans (final14 m c (hH c)), ((h c).1 15).trans (final15 m c (hH c)), kept m r h c⟩)
    (run_main m ρ)

end Cert.KernelIdeal.Val

end
-- ==== Proof.KHostTerms.lean ====
/-
  The weight blocks the region is handed, as functions of the launched weight arrays.

  Before its one pipelined region the entry function prepares, on the host, the arrays of input windows 3 to 13:
  the two stacked 6144 x 1024 gate matrices (five launched matrices and one column half of the 1024 x 2048 matrix laid
  one under the other, then narrowed to bf16), the one-entry bias as a 1 x 1 array,
  the three residual matrices narrowed to bf16 and their biases as 1 x 1024 rows.  This module reads each of those
  arrays at the region's entry as the corresponding term over the launched arrays (the stacked bias row of window 5
  is read in a module of its own).
-/
import proofs.«181006_j19473381720316_2_alg».proof.Proof.FrameKIHost
import Idealize.ShloMosaic.Lib.ValueIdx

noncomputable section

namespace Cert.KernelIdeal.HostVal

open Cert.KernelIdeal Cert.KernelIdeal.Gen Idealize.ShloMosaic Idealize.ShloMosaic.TcCoe Idealize.ShloMosaic.ValueIdx
open Idealize.SL.Sem

/-- The result of each host operation at the buffer asked for, once more: for the operands of a concatenation,
    whose references are literal only after the operation's function has been applied to them. -/
local macro "host_results" : tactic => `(tactic| repeat (first
  | rw [StableHlo.nullary_result] | rw [StableHlo.unary_result] | rw [StableHlo.binary_result]
  | rw [StableHlo.reshape_result] | rw [StableHlo.nary_result]
  | (rw [StableHlo.nullary_result_ne]; rotate_left; decide)
  | (rw [StableHlo.unary_result_ne]; rotate_left; decide)
  | (rw [StableHlo.binary_result_ne]; rotate_left; decide)
  | (rw [StableHlo.reshape_result_ne]; rotate_left; decide)
  | (rw [StableHlo.nary_result_ne]; rotate_left; decide)))

variable (m : (ℓ : Loc nD τ sig) → Buf (Elt Ideal) ℓ) (c : Dev nD)

/-- Window 3's array: arguments 3, 5, 7, 9, 11 and the left column half of argument 23, stacked, narrowed. -/
theorem v3_eq : @Eq (FVec Ideal S6144x1024 .bf16) (Fr.V m c main_v3)
    (truncf (F := Ideal) .bf16 (concatenate S6144x1024 0 [⟨S1024x1024, (m ((c : Thread nD τ).loc main_arg3))⟩, ⟨S1024x1024, (m ((c : Thread nD τ).loc main_arg5))⟩, ⟨S1024x1024, (m ((c : Thread nD τ).loc main_arg7))⟩, ⟨S1024x1024, (m ((c : Thread nD τ).loc main_arg9))⟩, ⟨S1024x1024, (m ((c : Thread nD τ).loc main_arg11))⟩, ⟨S1024x1024, extractStridedSlice S1024x1024 ![0, 0] (m ((c : Thread nD τ).loc main_arg23)) slices_S1024x2048_S1024x1024_0_0⟩] concatenates_S1024x1024_S1024x1024_S1024x1024_S1024x1024_S1024x1024_S1024x1024_S6144x1024_d0) bitsLt_bf16_f32) := by
  dsimp only [Fr.V, Gen.hostOps0]; after_results
  dsimp only [Matrix.cons_val]
  host_results

/-- Window 4's array: arguments 13, 15, 17, 19, 21 and the right column half of argument 23, stacked, narrowed. -/
theorem v5_eq : @Eq (FVec Ideal S6144x1024 .bf16) (Fr.V m c main_v5)
    (truncf (F := Ideal) .bf16 (concatenate S6144x1024 0 [⟨S1024x1024, (m ((c : Thread nD τ).loc main_arg13))⟩, ⟨S1024x1024, (m ((c : Thread nD τ).loc main_arg15))⟩, ⟨S1024x1024, (m ((c : Thread nD τ).loc main_arg17))⟩, ⟨S1024x1024, (m ((c : Thread nD τ).loc main_arg19))⟩, ⟨S1024x1024, (m ((c : Thread nD τ).loc main_arg21))⟩, ⟨S1024x1024, extractStridedSlice S1024x1024 ![0, 1024] (m ((c : Thread nD τ).loc main_arg23)) slices_S1024x2048_S1024x1024_0_1024⟩] concatenates_S1024x1024_S1024x1024_S1024x1024_S1024x1024_S1024x1024_S1024x1024_S6144x1024_d0) bitsLt_bf16_f32) := by
  dsimp only [Fr.V, Gen.hostOps0]; after_results
  dsimp only [Matrix.cons_val]
  host_results

/-- Window 7's array: argument 26 as a 1 x 1 array. -/
theorem v11_eq : @Eq (FVec Ideal S1x1 .f32) (Fr.V m c main_v11)
    (shapeCast (α := EReal) S1x1 (m ((c : Thread nD τ).loc main_arg26)) shapeCasts_S1_S1x1) := by
  dsimp only [Fr.V, Gen.hostOps0]; after_results; rfl

/-- Windows 8, 10, 12: arguments 27, 29, 31 narrowed. -/
theorem v12_eq : @Eq (FVec Ideal S1024x1024 .bf16) (Fr.V m c main_v12)
    (truncf (F := Ideal) .bf16 (m ((c : Thread nD τ).loc main_arg27)) bitsLt_bf16_f32) := by
  dsimp only [Fr.V, Gen.hostOps0]; after_results
theorem v13_eq : @Eq (FVec Ideal S1024x1024 .bf16) (Fr.V m c main_v13)
    (truncf (F := Ideal) .bf16 (m ((c : Thread nD τ).loc main_arg29)) bitsLt_bf16_f32) := by
  dsimp only [Fr.V, Gen.hostOps0]; after_results
theorem v14_eq : @Eq (FVec Ideal S1024x1024 .bf16) (Fr.V m c main_v14)
    (truncf (F := Ideal) .bf16 (m ((c : Thread nD τ).loc main_arg31)) bitsLt_bf16_f32) := by
  dsimp only [Fr.V, Gen.hostOps0]; after_results

/-- Windows 9, 11, 13: arguments 28, 30, 32 as 1 x 1024 rows. -/
theorem v15_eq : @Eq (FVec Ideal S1x1024 .f32) (Fr.V m c main_v15)
    (shapeCast (α := EReal) S1x1024 (m ((c : Thread nD τ).loc main_arg28)) shapeCasts_S1024_S1x1024) := by
  dsimp only [Fr.V, Gen.hostOps0]; after_results; rfl
theorem v16_eq : @Eq (FVec Ideal S1x1024 .f32) (Fr.V m c main_v16)
    (shapeCast (α := EReal) S1x1024 (m ((c : Thread nD τ).loc main_arg30)) shapeCasts_S1024_S1x1024) := by
  dsimp only [Fr.V, Gen.hostOps0]; after_results; rfl
theorem v17_eq : @Eq (FVec Ideal S1x1024 .f32) (Fr.V m c main_v17)
    (shapeCast (α := EReal) S1x1024 (m ((c : Thread nD τ).loc main_arg32)) shapeCasts_S1024_S1x1024) := by
  dsimp only [Fr.V, Gen.hostOps0]; after_results; rfl

end Cert.KernelIdeal.HostVal

end
-- ==== Proof.KHostBias.lean ====
/-
  The stacked bias row the region is handed, as a function of the launched bias vectors.

  The host lays the six bias vectors of the maps applied to the first input end to end, does the same for the five
  bias vectors of the maps applied to the second input followed by a zero vector, adds the two stacks entry by entry and
  gives the sum a leading unit axis: the array of input window 5.
-/
import proofs.«181006_j19473381720316_2_alg».proof.Proof.FrameKIHost
import Idealize.ShloMosaic.Lib.ValueIdx

noncomputable section

namespace Cert.KernelIdeal.HostVal

open Cert.KernelIdeal Cert.KernelIdeal.Gen Idealize.ShloMosaic Idealize.ShloMosaic.TcCoe Idealize.ShloMosaic.ValueIdx
open Idealize.SL.Sem

/-- The result of each host operation at the buffer asked for, once more: for the operands of a concatenation,
    whose references are literal only after the operation's function has been applied to them. -/
local macro "host_results" : tactic => `(tactic| repeat (first
  | rw [StableHlo.nullary_result] | rw [StableHlo.unary_result] | rw [StableHlo.binary_result]
  | rw [StableHlo.reshape_result] | rw [StableHlo.nary_result]
  | (rw [StableHlo.nullary_result_ne]; rotate_left; decide)
  | (rw [StableHlo.unary_result_ne]; rotate_left; decide)
  | (rw [StableHlo.binary_result_ne]; rotate_left; decide)
  | (rw [StableHlo.reshape_result_ne]; rotate_left; decide)
  | (rw [StableHlo.nary_result_ne]; rotate_left; decide)))

variable (m : (ℓ : Loc nD τ sig) → Buf (Elt Ideal) ℓ) (c : Dev nD)

set_option maxHeartbeats 4000000 in
/-- Window 5's array: the stack of the bias arguments 4, 6, 8, 10, 12, 24 plus the stack of 14, 16, 18, 20, 22 and a
    zero vector, with a leading unit axis. -/
theorem v10_eq : @Eq (FVec Ideal S1x6144 .f32) (Fr.V m c main_v10)
    (shapeCast (α := EReal) S1x6144 (addf (F := Ideal) (concatenate S6144 0 [⟨S1024, (m ((c : Thread nD τ).loc main_arg4))⟩, ⟨S1024, (m ((c : Thread nD τ).loc main_arg6))⟩, ⟨S1024, (m ((c : Thread nD τ).loc main_arg8))⟩, ⟨S1024, (m ((c : Thread nD τ).loc main_arg10))⟩, ⟨S1024, (m ((c : Thread nD τ).loc main_arg12))⟩, ⟨S1024, (m ((c : Thread nD τ).loc main_arg24))⟩] concatenates_S1024_S1024_S1024_S1024_S1024_S1024_S6144_d0)
        (concatenate S6144 0 [⟨S1024, (m ((c : Thread nD τ).loc main_arg14))⟩, ⟨S1024, (m ((c : Thread nD τ).loc main_arg16))⟩, ⟨S1024, (m ((c : Thread nD τ).loc main_arg18))⟩, ⟨S1024, (m ((c : Thread nD τ).loc main_arg20))⟩, ⟨S1024, (m ((c : Thread nD τ).loc main_arg22))⟩, ⟨S1024, broadcastInDim S1024 ![] bcast_S_S1024 (constant (F := Ideal) S_ .f32 0x00000000#32)⟩] concatenates_S1024_S1024_S1024_S1024_S1024_S1024_S6144_d0)) shapeCasts_S6144_S1x6144) := by
  dsimp only [Fr.V, Gen.hostOps0]; after_results
  dsimp only [Matrix.cons_val]
  host_results
  rfl

end Cert.KernelIdeal.HostVal

end
-- ==== Proof.KHost.lean ====
/-
  The weight blocks the region is handed hold the cell's weights.

  The cell's weights are read off the thirty launched weight arrays; the region's input windows 3 to 13 are handed
  arrays the host prepared from them.  Entry by entry: row `p * 1024 + n` of a stacked gate matrix is row `n` of the
  `p`-th matrix stacked (the sixth a column half of the 1024 x 2048 matrix); entry `p * 1024 + n` of the stacked bias
  row is the sum of the two `p`-th bias vectors at `n` (the sixth pair a bias vector and zero); a narrowing to bf16
  changes no entry of an array of extended reals, and a leading unit axis moves none.
-/
import proofs.«181006_j19473381720316_2_alg».proof.Proof.FrameKIHost
import proofs.«181006_j19473381720316_2_alg».proof.Proof.KHostTerms
import proofs.«181006_j19473381720316_2_alg».proof.Proof.KHostBias
import proofs.«181006_j19473381720316_2_alg».proof.Proof.KCell
import proofs.«181006_j19473381720316_2_alg».proof.Proof.CellArrays
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.HostVal

open Cert.KernelIdeal Cert.KernelIdeal.Gen Cert.Cell Idealize.ShloMosaic Idealize.ShloMosaic.TcCoe Idealize.ShloMosaic.ValueIdx
open Idealize.SL.Sem

/-! ## Six equal pieces laid end to end, read at an index -/

section Pieces

variable {α : Type}

/-- Six 1024 x 1024 matrices stacked along the rows: row `p * 1024 + n` of the stack is row `n` of piece `p`. -/
theorem stack6_mat (A0 A1 A2 A3 A4 A5 : S1024x1024.Idx → α)
    (h : Shape.Concatenates [S1024x1024, S1024x1024, S1024x1024, S1024x1024, S1024x1024, S1024x1024] S6144x1024 0)
    (n k : Fin 1024) :
    concatenate S6144x1024 0 [⟨S1024x1024, A0⟩, ⟨S1024x1024, A1⟩, ⟨S1024x1024, A2⟩, ⟨S1024x1024, A3⟩, ⟨S1024x1024, A4⟩, ⟨S1024x1024, A5⟩] h (ix2 (⟨0 + n.val, by have := n.isLt; omega⟩ : Fin 6144) k) = A0 (ix2 n k)
    ∧ concatenate S6144x1024 0 [⟨S1024x1024, A0⟩, ⟨S1024x1024, A1⟩, ⟨S1024x1024, A2⟩, ⟨S1024x1024, A3⟩, ⟨S1024x1024, A4⟩, ⟨S1024x1024, A5⟩] h (ix2 (⟨1024 + n.val, by have := n.isLt; omega⟩ : Fin 6144) k) = A1 (ix2 n k)
    ∧ concatenate S6144x1024 0 [⟨S1024x1024, A0⟩, ⟨S1024x1024, A1⟩, ⟨S1024x1024, A2⟩, ⟨S1024x1024, A3⟩, ⟨S1024x1024, A4⟩, ⟨S1024x1024, A5⟩] h (ix2 (⟨2048 + n.val, by have := n.isLt; omega⟩ : Fin 6144) k) = A2 (ix2 n k)
    ∧ concatenate S6144x1024 0 [⟨S1024x1024, A0⟩, ⟨S1024x1024, A1⟩, ⟨S1024x1024, A2⟩, ⟨S1024x1024, A3⟩, ⟨S1024x1024, A4⟩, ⟨S1024x1024, A5⟩] h (ix2 (⟨3072 + n.val, by have := n.isLt; omega⟩ : Fin 6144) k) = A3 (ix2 n k)
    ∧ concatenate S6144x1024 0 [⟨S1024x1024, A0⟩, ⟨S1024x1024, A1⟩, ⟨S1024x1024, A2⟩, ⟨S1024x1024, A3⟩, ⟨S1024x1024, A4⟩, ⟨S1024x1024, A5⟩] h (ix2 (⟨4096 + n.val, by have := n.isLt; omega⟩ : Fin 6144) k) = A4 (ix2 n k)
    ∧ concatenate S6144x1024 0 [⟨S1024x1024, A0⟩, ⟨S1024x1024, A1⟩, ⟨S1024x1024, A2⟩, ⟨S1024x1024, A3⟩, ⟨S1024x1024, A4⟩, ⟨S1024x1024, A5⟩] h (ix2 (⟨5120 + n.val, by have := n.isLt; omega⟩ : Fin 6144) k) = A5 (ix2 n k) := by
  have off : ∀ b : Fin S1024x1024.rank, ∀ r : Fin 6144, b.cast (rfl : S1024x1024.rank = S6144x1024.rank) ≠ (0 : Fin 2) →
      ((ix2 n k : S1024x1024.Idx) b).val = ((ix2 r k : S6144x1024.Idx) (b.cast rfl)).val := fun b r hb => by
    match b with
    | ⟨0, _⟩ => exact absurd rfl hb
    | ⟨1, _⟩ => rfl
  exact ⟨concatenate_apply_piece 0 [⟨S1024x1024, A0⟩, ⟨S1024x1024, A1⟩, ⟨S1024x1024, A2⟩, ⟨S1024x1024, A3⟩, ⟨S1024x1024, A4⟩, ⟨S1024x1024, A5⟩] h _ 0 (by simp) S1024x1024 A0 rfl rfl 0 rfl (ix2 n k) (fun b => off b _) rfl,
    concatenate_apply_piece 0 [⟨S1024x1024, A0⟩, ⟨S1024x1024, A1⟩, ⟨S1024x1024, A2⟩, ⟨S1024x1024, A3⟩, ⟨S1024x1024, A4⟩, ⟨S1024x1024, A5⟩] h _ 1 (by simp) S1024x1024 A1 rfl rfl 1024 rfl (ix2 n k) (fun b => off b _) rfl,
    concatenate_apply_piece 0 [⟨S1024x1024, A0⟩, ⟨S1024x1024, A1⟩, ⟨S1024x1024, A2⟩, ⟨S1024x1024, A3⟩, ⟨S1024x1024, A4⟩, ⟨S1024x1024, A5⟩] h _ 2 (by simp) S1024x1024 A2 rfl rfl 2048 rfl (ix2 n k) (fun b => off b _) rfl,
    concatenate_apply_piece 0 [⟨S1024x1024, A0⟩, ⟨S1024x1024, A1⟩, ⟨S1024x1024, A2⟩, ⟨S1024x1024, A3⟩, ⟨S1024x1024, A4⟩, ⟨S1024x1024, A5⟩] h _ 3 (by simp) S1024x1024 A3 rfl rfl 3072 rfl (ix2 n k) (fun b => off b _) rfl,
    concatenate_apply_piece 0 [⟨S1024x1024, A0⟩, ⟨S1024x1024, A1⟩, ⟨S1024x1024, A2⟩, ⟨S1024x1024, A3⟩, ⟨S1024x1024, A4⟩, ⟨S1024x1024, A5⟩] h _ 4 (by simp) S1024x1024 A4 rfl rfl 4096 rfl (ix2 n k) (fun b => off b _) rfl,
    concatenate_apply_piece 0 [⟨S1024x1024, A0⟩, ⟨S1024x1024, A1⟩, ⟨S1024x1024, A2⟩, ⟨S1024x1024, A3⟩, ⟨S1024x1024, A4⟩, ⟨S1024x1024, A5⟩] h _ 5 (by simp) S1024x1024 A5 rfl rfl 5120 rfl (ix2 n k) (fun b => off b _) rfl⟩

/-- Six vectors of 1024 entries laid end to end: entry `p * 1024 + n` is entry `n` of piece `p`. -/
theorem stack6_vec (b0 b1 b2 b3 b4 b5 : S1024.Idx → α)
    (h : Shape.Concatenates [S1024, S1024, S1024, S1024, S1024, S1024] S6144 0) (n : Fin 1024) :
    concatenate S6144 0 [⟨S1024, b0⟩, ⟨S1024, b1⟩, ⟨S1024, b2⟩, ⟨S1024, b3⟩, ⟨S1024, b4⟩, ⟨S1024, b5⟩] h (ix1 (⟨0 + n.val, by have := n.isLt; omega⟩ : Fin 6144)) = b0 (ix1 n)
    ∧ concatenate S6144 0 [⟨S1024, b0⟩, ⟨S1024, b1⟩, ⟨S1024, b2⟩, ⟨S1024, b3⟩, ⟨S1024, b4⟩, ⟨S1024, b5⟩] h (ix1 (⟨1024 + n.val, by have := n.isLt; omega⟩ : Fin 6144)) = b1 (ix1 n)
    ∧ concatenate S6144 0 [⟨S1024, b0⟩, ⟨S1024, b1⟩, ⟨S1024, b2⟩, ⟨S1024, b3⟩, ⟨S1024, b4⟩, ⟨S1024, b5⟩] h (ix1 (⟨2048 + n.val, by have := n.isLt; omega⟩ : Fin 6144)) = b2 (ix1 n)
    ∧ concatenate S6144 0 [⟨S1024, b0⟩, ⟨S1024, b1⟩, ⟨S1024, b2⟩, ⟨S1024, b3⟩, ⟨S1024, b4⟩, ⟨S1024, b5⟩] h (ix1 (⟨3072 + n.val, by have := n.isLt; omega⟩ : Fin 6144)) = b3 (ix1 n)
    ∧ concatenate S6144 0 [⟨S1024, b0⟩, ⟨S1024, b1⟩, ⟨S1024, b2⟩, ⟨S1024, b3⟩, ⟨S1024, b4⟩, ⟨S1024, b5⟩] h (ix1 (⟨4096 + n.val, by have := n.isLt; omega⟩ : Fin 6144)) = b4 (ix1 n)
    ∧ concatenate S6144 0 [⟨S1024, b0⟩, ⟨S1024, b1⟩, ⟨S1024, b2⟩, ⟨S1024, b3⟩, ⟨S1024, b4⟩, ⟨S1024, b5⟩] h (ix1 (⟨5120 + n.val, by have := n.isLt; omega⟩ : Fin 6144)) = b5 (ix1 n) := by
  have off : ∀ b : Fin S1024.rank, ∀ r : Fin 6144, b.cast (rfl : S1024.rank = S6144.rank) ≠ (0 : Fin 1) →
      ((ix1 n : S1024.Idx) b).val = ((ix1 r : S6144.Idx) (b.cast rfl)).val := fun b r hb => by
    match b with
    | ⟨0, _⟩ => exact absurd rfl hb
  exact ⟨concatenate_apply_piece 0 [⟨S1024, b0⟩, ⟨S1024, b1⟩, ⟨S1024, b2⟩, ⟨S1024, b3⟩, ⟨S1024, b4⟩, ⟨S1024, b5⟩] h _ 0 (by simp) S1024 b0 rfl rfl 0 rfl (ix1 n) (fun b => off b _) rfl,
    concatenate_apply_piece 0 [⟨S1024, b0⟩, ⟨S1024, b1⟩, ⟨S1024, b2⟩, ⟨S1024, b3⟩, ⟨S1024, b4⟩, ⟨S1024, b5⟩] h _ 1 (by simp) S1024 b1 rfl rfl 1024 rfl (ix1 n) (fun b => off b _) rfl,
    concatenate_apply_piece 0 [⟨S1024, b0⟩, ⟨S1024, b1⟩, ⟨S1024, b2⟩, ⟨S1024, b3⟩, ⟨S1024, b4⟩, ⟨S1024, b5⟩] h _ 2 (by simp) S1024 b2 rfl rfl 2048 rfl (ix1 n) (fun b => off b _) rfl,
    concatenate_apply_piece 0 [⟨S1024, b0⟩, ⟨S1024, b1⟩, ⟨S1024, b2⟩, ⟨S1024, b3⟩, ⟨S1024, b4⟩, ⟨S1024, b5⟩] h _ 3 (by simp) S1024 b3 rfl rfl 3072 rfl (ix1 n) (fun b => off b _) rfl,
    concatenate_apply_piece 0 [⟨S1024, b0⟩, ⟨S1024, b1⟩, ⟨S1024, b2⟩, ⟨S1024, b3⟩, ⟨S1024, b4⟩, ⟨S1024, b5⟩] h _ 4 (by simp) S1024 b4 rfl rfl 4096 rfl (ix1 n) (fun b => off b _) rfl,
    concatenate_apply_piece 0 [⟨S1024, b0⟩, ⟨S1024, b1⟩, ⟨S1024, b2⟩, ⟨S1024, b3⟩, ⟨S1024, b4⟩, ⟨S1024, b5⟩] h _ 5 (by simp) S1024 b5 rfl rfl 5120 rfl (ix1 n) (fun b => off b _) rfl⟩

end Pieces

/-- The zero vector the host makes (a zero scalar broadcast to 1024 entries) is zero at every entry. -/
theorem zero_vec_apply (n : Fin 1024) :
    broadcastInDim S1024 ![] bcast_S_S1024 (constant (F := Ideal) S_ .f32 0x00000000#32) (ix1 n) = (0 : EReal) := by
  rw [broadcastInDim_apply ![] bcast_S_S1024 _ (ix1 n) ix0 (fun a => a.elim0), constant_apply]
  exact Ideal.ofBits_zero_f32

/-! ## The blocks hold the weights -/

variable (m : (ℓ : Loc nD τ sig) → Buf (Elt Ideal) ℓ) (c : Dev nD)

/-- The arrays of input windows 3 to 13, as the region finds them, hold the cell's weights read off the launched
    weight arrays (arguments 3 to 32). -/
theorem host_blocks :
    Cert.KernelIdeal.Body.BlockOf
      (Cert.Cell.wtsOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)))
      (Fr.V m c main_v3) (Fr.V m c main_v5) (Fr.V m c main_v10) (Fr.V m c main_arg25) (Fr.V m c main_v11)
      (Fr.V m c main_v12) (Fr.V m c main_v15) (Fr.V m c main_v13) (Fr.V m c main_v16) (Fr.V m c main_v14) (Fr.V m c main_v17) where
  Wi := fun n k => (congrFun (v3_eq m c) _).trans (stack6_mat _ _ _ _ _ _ concatenates_S1024x1024_S1024x1024_S1024x1024_S1024x1024_S1024x1024_S1024x1024_S6144x1024_d0 n k).1
  Wf := fun n k => (congrFun (v3_eq m c) _).trans (stack6_mat _ _ _ _ _ _ concatenates_S1024x1024_S1024x1024_S1024x1024_S1024x1024_S1024x1024_S1024x1024_S6144x1024_d0 n k).2.1
  Wo := fun n k => (congrFun (v3_eq m c) _).trans (stack6_mat _ _ _ _ _ _ concatenates_S1024x1024_S1024x1024_S1024x1024_S1024x1024_S1024x1024_S1024x1024_S6144x1024_d0 n k).2.2.1
  Wc := fun n k => (congrFun (v3_eq m c) _).trans (stack6_mat _ _ _ _ _ _ concatenates_S1024x1024_S1024x1024_S1024x1024_S1024x1024_S1024x1024_S1024x1024_S6144x1024_d0 n k).2.2.2.1
  Ws := fun n k => (congrFun (v3_eq m c) _).trans (stack6_mat _ _ _ _ _ _ concatenates_S1024x1024_S1024x1024_S1024x1024_S1024x1024_S1024x1024_S1024x1024_S6144x1024_d0 n k).2.2.2.2.1
  A1x := fun n k => (congrFun (v3_eq m c) _).trans ((stack6_mat _ _ _ _ _ _ concatenates_S1024x1024_S1024x1024_S1024x1024_S1024x1024_S1024x1024_S1024x1024_S6144x1024_d0 n k).2.2.2.2.2.trans
    (slice2_axis1_apply 0 _ _ n k ⟨k.val, by have := k.isLt; omega⟩ (Nat.zero_add _).symm))
  Ui := fun n k => (congrFun (v5_eq m c) _).trans (stack6_mat _ _ _ _ _ _ concatenates_S1024x1024_S1024x1024_S1024x1024_S1024x1024_S1024x1024_S1024x1024_S6144x1024_d0 n k).1
  Uf := fun n k => (congrFun (v5_eq m c) _).trans (stack6_mat _ _ _ _ _ _ concatenates_S1024x1024_S1024x1024_S1024x1024_S1024x1024_S1024x1024_S1024x1024_S6144x1024_d0 n k).2.1
  Uo := fun n k => (congrFun (v5_eq m c) _).trans (stack6_mat _ _ _ _ _ _ concatenates_S1024x1024_S1024x1024_S1024x1024_S1024x1024_S1024x1024_S1024x1024_S6144x1024_d0 n k).2.2.1
  Uc := fun n k => (congrFun (v5_eq m c) _).trans (stack6_mat _ _ _ _ _ _ concatenates_S1024x1024_S1024x1024_S1024x1024_S1024x1024_S1024x1024_S1024x1024_S6144x1024_d0 n k).2.2.2.1
  Us := fun n k => (congrFun (v5_eq m c) _).trans (stack6_mat _ _ _ _ _ _ concatenates_S1024x1024_S1024x1024_S1024x1024_S1024x1024_S1024x1024_S1024x1024_S6144x1024_d0 n k).2.2.2.2.1
  A1h := fun n k => (congrFun (v5_eq m c) _).trans ((stack6_mat _ _ _ _ _ _ concatenates_S1024x1024_S1024x1024_S1024x1024_S1024x1024_S1024x1024_S1024x1024_S6144x1024_d0 n k).2.2.2.2.2.trans
    (slice2_axis1_apply 1024 _ _ n k ⟨1024 + k.val, by have := k.isLt; omega⟩ rfl))
  bi := fun n => (congrFun (v10_eq m c) _).trans ((shapeCast_a_1a_apply _ _ _ _).trans ((addf_apply _ _ _).trans
    (congrArg₂ (· + ·) (stack6_vec _ _ _ _ _ _ concatenates_S1024_S1024_S1024_S1024_S1024_S1024_S6144_d0 n).1 (stack6_vec _ _ _ _ _ _ concatenates_S1024_S1024_S1024_S1024_S1024_S1024_S6144_d0 n).1)))
  bf := fun n => (congrFun (v10_eq m c) _).trans ((shapeCast_a_1a_apply _ _ _ _).trans ((addf_apply _ _ _).trans
    (congrArg₂ (· + ·) (stack6_vec _ _ _ _ _ _ concatenates_S1024_S1024_S1024_S1024_S1024_S1024_S6144_d0 n).2.1 (stack6_vec _ _ _ _ _ _ concatenates_S1024_S1024_S1024_S1024_S1024_S1024_S6144_d0 n).2.1)))
  bo := fun n => (congrFun (v10_eq m c) _).trans ((shapeCast_a_1a_apply _ _ _ _).trans ((addf_apply _ _ _).trans
    (congrArg₂ (· + ·) (stack6_vec _ _ _ _ _ _ concatenates_S1024_S1024_S1024_S1024_S1024_S1024_S6144_d0 n).2.2.1 (stack6_vec _ _ _ _ _ _ concatenates_S1024_S1024_S1024_S1024_S1024_S1024_S6144_d0 n).2.2.1)))
  bc := fun n => (congrFun (v10_eq m c) _).trans ((shapeCast_a_1a_apply _ _ _ _).trans ((addf_apply _ _ _).trans
    (congrArg₂ (· + ·) (stack6_vec _ _ _ _ _ _ concatenates_S1024_S1024_S1024_S1024_S1024_S1024_S6144_d0 n).2.2.2.1 (stack6_vec _ _ _ _ _ _ concatenates_S1024_S1024_S1024_S1024_S1024_S1024_S6144_d0 n).2.2.2.1)))
  bs := fun n => (congrFun (v10_eq m c) _).trans ((shapeCast_a_1a_apply _ _ _ _).trans ((addf_apply _ _ _).trans
    (congrArg₂ (· + ·) (stack6_vec _ _ _ _ _ _ concatenates_S1024_S1024_S1024_S1024_S1024_S1024_S6144_d0 n).2.2.2.2.1 (stack6_vec _ _ _ _ _ _ concatenates_S1024_S1024_S1024_S1024_S1024_S1024_S6144_d0 n).2.2.2.2.1)))
  bA1 := fun n => (congrFun (v10_eq m c) _).trans ((shapeCast_a_1a_apply _ _ _ _).trans ((addf_apply _ _ _).trans
    (congrArg₂ (· + ·) (stack6_vec _ _ _ _ _ _ concatenates_S1024_S1024_S1024_S1024_S1024_S1024_S6144_d0 n).2.2.2.2.2 ((stack6_vec _ _ _ _ _ _ concatenates_S1024_S1024_S1024_S1024_S1024_S1024_S6144_d0 n).2.2.2.2.2.trans (zero_vec_apply n)))))
  A2 := fun k => congrFun (Fr.V_main_arg25 m c) _
  bA2 := (congrFun (v11_eq m c) _).trans (shapeCast_a_1a_apply _ _ _ _)
  R1 := fun n k => congrFun (v12_eq m c) _
  bR1 := fun n => (congrFun (v15_eq m c) _).trans (shapeCast_a_1a_apply _ _ _ _)
  R2 := fun n k => congrFun (v13_eq m c) _
  bR2 := fun n => (congrFun (v16_eq m c) _).trans (shapeCast_a_1a_apply _ _ _ _)
  R3 := fun n k => congrFun (v14_eq m c) _
  bR3 := fun n => (congrFun (v17_eq m c) _).trans (shapeCast_a_1a_apply _ _ _ _)

end Cert.KernelIdeal.HostVal

end
-- ==== Proof.RefSideBlocks.lean ====
/-
  The reference program's repeated building blocks, each read at one entry.

  The program applies a few kinds of step over whole arrays: an affine map of every row (a contraction of the row
  against each row of a weight matrix, plus a bias), the logistic function written as 1 / (1 + exp (-z)), the
  rectifier written as max z 0, and, for the scalar gate, an affine map of the row x followed by the row h
  (2048 entries), a contraction of an 8192 x 1024 array against one weight row giving one number per row, and the
  spreading of that number along the row.  Each block is defined here exactly as the program spells it and read at
  an entry (r, n): the entry depends on row r of the array operands only.
-/
import proofs.«181006_j19473381720316_2_alg».proof.Proof.Gen.ReferenceIdeal.Read
import proofs.«181006_j19473381720316_2_alg».proof.Proof.CellArrays

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.Cell

/-- An array of extended reals of a given shape, as the program's buffers hold it. -/
abbrev RA (s : Shape) : Type := FVec Ideal s .f32

/-! ## The two literals -/

/-- The word 0x3F800000 is the number one. -/
theorem ofBits_one : Ideal.ofBits .f32 0x3F800000#32 = 1 := by
  simp [Ideal.ofBits, Ideal.ieee, -EReal.coe_mul]; norm_num

/-- The constant one spread over an 8192 x 1024 array. -/
def ones : RA S8192x1024 := broadcastInDim S8192x1024 ![] bcast_S_S8192x1024 (constant (F := Ideal) S_ .f32 0x3F800000#32)
/-- The constant zero spread over an 8192 x 1024 array. -/
def zeros : RA S8192x1024 := broadcastInDim S8192x1024 ![] bcast_S_S8192x1024 (constant (F := Ideal) S_ .f32 0x00000000#32)
/-- The constant one spread over an 8192 x 1 column. -/
def ones1 : RA S8192x1 := broadcastInDim S8192x1 ![] bcast_S_S8192x1 (constant (F := Ideal) S_ .f32 0x3F800000#32)

theorem ones_apply (i : S8192x1024.Idx) : ones i = 1 := by
  unfold ones
  exact (broadcastInDim_apply _ bcast_S_S8192x1024 _ i (fun a => a.elim0) (fun a => a.elim0)).trans ofBits_one
theorem zeros_apply (i : S8192x1024.Idx) : zeros i = 0 := by
  unfold zeros
  exact (broadcastInDim_apply _ bcast_S_S8192x1024 _ i (fun a => a.elim0) (fun a => a.elim0)).trans Ideal.ofBits_zero_f32
theorem ones1_apply (i : S8192x1.Idx) : ones1 i = 1 := by
  unfold ones1
  exact (broadcastInDim_apply _ bcast_S_S8192x1 _ i (fun a => a.elim0) (fun a => a.elim0)).trans ofBits_one

/-! ## The pointwise blocks -/

/-- The logistic function as the program writes it over an 8192 x 1024 array: one over (one plus exp of minus z). -/
def hsig (z : RA S8192x1024) : RA S8192x1024 :=
  Host.divf (F := Ideal) ones (addf ones (Host.exp (F := Ideal) (Host.negf (F := Ideal) z)))
/-- The same over an 8192 x 1 column. -/
def hsig1 (z : RA S8192x1) : RA S8192x1 :=
  Host.divf (F := Ideal) ones1 (addf ones1 (Host.exp (F := Ideal) (Host.negf (F := Ideal) z)))
/-- The rectifier as the program writes it: the larger of z and the zero array. -/
def hrelu (z : RA S8192x1024) : RA S8192x1024 := maximumf z zeros

theorem hsig_apply (z : RA S8192x1024) (i : S8192x1024.Idx) : hsig z i = Ideal.logistic (z i) := by
  show Ideal.div (ones i) (ones i + Ideal.exp (-(z i))) = Ideal.logistic (z i)
  rw [ones_apply]; rfl
theorem hsig1_apply (z : RA S8192x1) (i : S8192x1.Idx) : hsig1 z i = Ideal.logistic (z i) := by
  show Ideal.div (ones1 i) (ones1 i + Ideal.exp (-(z i))) = Ideal.logistic (z i)
  rw [ones1_apply]; rfl
theorem hrelu_apply (z : RA S8192x1024) (i : S8192x1024.Idx) : hrelu z i = relu (z i) := by
  show max (z i) (zeros i) = relu (z i)
  rw [zeros_apply]; rfl

theorem add_at {s : Shape} (a b : RA s) (i : s.Idx) : addf a b i = a i + b i := rfl
theorem mul_at {s : Shape} (a b : RA s) (i : s.Idx) : mulf a b i = a i * b i := rfl
theorem tanh_at {s : Shape} (a : RA s) (i : s.Idx) : Host.tanh (F := Ideal) a i = Ideal.tanh (a i) := rfl

/-! ## An affine map of every row -/

/-- Every row of an 8192 x 1024 array contracted against each row of a 1024 x 1024 matrix, plus a bias. -/
def lin (x : RA S8192x1024) (w : RA S1024x1024) (b : RA S1024) : RA S8192x1024 :=
  addf (Host.dotGeneral (F := Ideal) dot_S8192x1024_S1024x1024_S8192x1024_1_0_0_1_n_n none x
      (transpose S1024x1024 [1, 0] w transposes_S1024x1024_S1024x1024_1_0))
    (broadcastInDim S8192x1024 ![0, 1] bcast_S1x1024_S8192x1024_0_1 (broadcastInDim S1x1024 ![1] bcast_S1024_S1x1024_1 b))

/-- The block is the program's first affine map, taken at arbitrary operands. -/
theorem lin_eq (x : RA S8192x1024) (w : RA S1024x1024) (b : RA S1024) : lin x w b = Read.val_main_v4 (F := Ideal) x w b := rfl

theorem lidx1 (r : Fin 8192) (n k : Fin 1024) : Read.lidx_main_v1 (ix2 r n) k = ix2 r k :=
  funext fun a => by match a with | ⟨0, _⟩ => rfl | ⟨1, _⟩ => rfl
theorem ridx1 (r : Fin 8192) (n k : Fin 1024) : Read.idx_main_v0 (Read.ridx_main_v1 (ix2 r n) k) = ix2 n k :=
  funext fun a => by match a with | ⟨0, _⟩ => rfl | ⟨1, _⟩ => rfl
theorem bidx1 (r : Fin 8192) (n : Fin 1024) : Read.idx_main_v2 (Read.idx_main_v3 (ix2 r n)) = ix1 n :=
  funext fun a => by match a with | ⟨0, _⟩ => rfl

/-- Entry (r, n) of the affine map: row r of the array against row n of the matrix, plus entry n of the bias. -/
theorem lin_apply (x : RA S8192x1024) (w : RA S1024x1024) (b : RA S1024) (r : Fin 8192) (n : Fin 1024) :
    lin x w b (ix2 r n) = dot (rowOf x r) (matOf w n) + vecOf b n := by
  rw [lin_eq, Read.val_main_v4_apply, Read.val_main_v1_apply, Read.val_main_v3_apply, Read.val_main_v2_apply, bidx1]
  simp only [Read.val_main_v0_apply, lidx1, ridx1]
  rfl

/-! ## The scalar gate's blocks -/

/-- Row r of x followed by row r of h, as the program's concatenation along the second axis holds it. -/
theorem cat_apply (x h : RA S8192x1024) (r : Fin 8192) (k : Fin 2048) :
    Read.val_main_v63 (F := Ideal) x h (ix2 r k) = joined (rowOf x r) (rowOf h r) k := by
  unfold Read.val_main_v63 joined
  by_cases hk : k.val < 1024
  · rw [dif_pos hk]
    exact concatenate_pair_apply_left (1 : Fin S8192x2048.rank) x h concatenates_S8192x1024_S8192x1024_S8192x2048_d1
      (ix2 r k) rfl (ix2 r ⟨k.val, hk⟩) (fun b => by match b with | ⟨0, _⟩ => rfl | ⟨1, _⟩ => rfl)
  · rw [dif_neg hk]
    have hk2 : k.val - 1024 < 1024 := by have := k.isLt; omega
    exact concatenate_pair_apply_right (1 : Fin S8192x2048.rank) x h concatenates_S8192x1024_S8192x1024_S8192x2048_d1
      (ix2 r k) rfl rfl (ix2 r ⟨k.val - 1024, hk2⟩)
      (fun b hb => by match b with | ⟨0, _⟩ => rfl | ⟨1, _⟩ => exact absurd rfl hb)
      (by show (k.val - 1024) + 1024 = k.val; omega)

/-- Every row of x followed by the same row of h, contracted against each row of a 1024 x 2048 matrix, plus a bias. -/
def lin2 (x h : RA S8192x1024) (w : RA S1024x2048) (b : RA S1024) : RA S8192x1024 :=
  addf (Host.dotGeneral (F := Ideal) dot_S8192x2048_S2048x1024_S8192x1024_1_0_0_1_n_n none
      (concatenate S8192x2048 1 [⟨S8192x1024, x⟩, ⟨S8192x1024, h⟩] concatenates_S8192x1024_S8192x1024_S8192x2048_d1)
      (transpose S2048x1024 [1, 0] w transposes_S1024x2048_S2048x1024_1_0))
    (broadcastInDim S8192x1024 ![0, 1] bcast_S1x1024_S8192x1024_0_1 (broadcastInDim S1x1024 ![1] bcast_S1024_S1x1024_1 b))

theorem lin2_eq (x h : RA S8192x1024) (w : RA S1024x2048) (b : RA S1024) :
    lin2 x h w b = Read.val_main_v68 (F := Ideal) x h w b := rfl

theorem lidx65 (r : Fin 8192) (n : Fin 1024) (k : Fin 2048) : Read.lidx_main_v65 (ix2 r n) k = ix2 r k :=
  funext fun a => by match a with | ⟨0, _⟩ => rfl | ⟨1, _⟩ => rfl
theorem ridx65 (r : Fin 8192) (n : Fin 1024) (k : Fin 2048) : Read.idx_main_v64 (Read.ridx_main_v65 (ix2 r n) k) = ix2 n k :=
  funext fun a => by match a with | ⟨0, _⟩ => rfl | ⟨1, _⟩ => rfl
theorem bidx67 (r : Fin 8192) (n : Fin 1024) : Read.idx_main_v66 (Read.idx_main_v67 (ix2 r n)) = ix1 n :=
  funext fun a => by match a with | ⟨0, _⟩ => rfl

/-- Entry (r, n): the joined row r against row n of the matrix, plus entry n of the bias. -/
theorem lin2_apply (x h : RA S8192x1024) (w : RA S1024x2048) (b : RA S1024) (r : Fin 8192) (n : Fin 1024) :
    lin2 x h w b (ix2 r n) = dot (joined (rowOf x r) (rowOf h r)) (matOf w n) + vecOf b n := by
  rw [lin2_eq, Read.val_main_v68_apply, Read.val_main_v65_apply, Read.val_main_v67_apply, Read.val_main_v66_apply, bidx67]
  simp only [Read.val_main_v64_apply, lidx65, ridx65, cat_apply]
  rfl

/-- The rectified joined layer contracted against the one weight row, plus the one-entry bias: one number per row. -/
def gateCol (x h : RA S8192x1024) (w1 : RA S1024x2048) (b1 : RA S1024) (w2 : RA S1x1024) (b2 : RA S1) : RA S8192x1 :=
  addf (Host.dotGeneral (F := Ideal) dot_S8192x1024_S1024x1_S8192x1_1_0_0_1_n_n none (hrelu (lin2 x h w1 b1))
      (transpose S1024x1 [1, 0] w2 transposes_S1x1024_S1024x1_1_0))
    (broadcastInDim S8192x1 ![0, 1] bcast_S1x1_S8192x1_0_1 (broadcastInDim S1x1 ![1] bcast_S1_S1x1_1 b2))

theorem gateCol_eq (x h : RA S8192x1024) (w1 : RA S1024x2048) (b1 : RA S1024) (w2 : RA S1x1024) (b2 : RA S1) :
    gateCol x h w1 b1 w2 b2 = Read.val_main_v74 (F := Ideal) x h w1 b1 w2 b2 := rfl
theorem hid_eq (x h : RA S8192x1024) (w1 : RA S1024x2048) (b1 : RA S1024) :
    Read.val_main_v69 (F := Ideal) x h w1 b1 = hrelu (lin2 x h w1 b1) := rfl

theorem lidx71 (r : Fin 8192) (k : Fin 1024) : Read.lidx_main_v71 (ix2 r (0 : Fin 1)) k = ix2 r k :=
  funext fun a => by match a with | ⟨0, _⟩ => rfl | ⟨1, _⟩ => rfl
theorem ridx71 (r : Fin 8192) (k : Fin 1024) : Read.idx_main_v70 (Read.ridx_main_v71 (ix2 r (0 : Fin 1)) k) = ix2 (0 : Fin 1) k :=
  funext fun a => by match a with | ⟨0, _⟩ => rfl | ⟨1, _⟩ => rfl
theorem bidx73 (r : Fin 8192) : Read.idx_main_v72 (Read.idx_main_v73 (ix2 r (0 : Fin 1))) = ix1 (0 : Fin 1) :=
  funext fun a => by match a with | ⟨0, _⟩ => rfl

/-- The number of row r: the rectified joined layer of that row against the weight row, plus the bias. -/
theorem gateCol_apply (x h : RA S8192x1024) (w1 : RA S1024x2048) (b1 : RA S1024) (w2 : RA S1x1024) (b2 : RA S1) (r : Fin 8192) :
    gateCol x h w1 b1 w2 b2 (ix2 r (0 : Fin 1))
      = dot (fun k => relu (dot (joined (rowOf x r) (rowOf h r)) (matOf w1 k) + vecOf b1 k)) (rowOf w2 0) + b2 (ix1 0) := by
  rw [gateCol_eq, Read.val_main_v74_apply, Read.val_main_v71_apply, Read.val_main_v73_apply, Read.val_main_v72_apply, bidx73]
  simp only [Read.val_main_v70_apply, lidx71, ridx71, hid_eq, hrelu_apply, lin2_apply]
  rfl

/-- A column of one number per row spread along the row. -/
def spread (z : RA S8192x1) : RA S8192x1024 := broadcastInDim S8192x1024 ![0, 1] bcast_S8192x1_S8192x1024_0_1 z

theorem spread_apply (z : RA S8192x1) (r : Fin 8192) (n : Fin 1024) : spread z (ix2 r n) = z (ix2 r (0 : Fin 1)) := by
  unfold spread
  exact broadcastInDim_apply _ bcast_S8192x1_S8192x1024_0_1 z (ix2 r n) (ix2 r (0 : Fin 1)) (fun a => match a with
    | ⟨0, _⟩ => by show r.val = if (8192 : Nat) = 1 then 0 else r.val; rw [if_neg (by decide)]
    | ⟨1, _⟩ => by show 0 = if (1 : Nat) = 1 then 0 else n.val; rw [if_pos rfl])

/-- The scalar gate over the whole array: the logistic function of each row's number, spread along the row. -/
def gate (x h : RA S8192x1024) (w1 : RA S1024x2048) (b1 : RA S1024) (w2 : RA S1x1024) (b2 : RA S1) : RA S8192x1024 :=
  spread (hsig1 (gateCol x h w1 b1 w2 b2))

theorem gate_apply (x h : RA S8192x1024) (w1 : RA S1024x2048) (b1 : RA S1024) (w2 : RA S1x1024) (b2 : RA S1)
    (r : Fin 8192) (n : Fin 1024) :
    gate x h w1 b1 w2 b2 (ix2 r n)
      = Ideal.logistic (dot (fun k => relu (dot (joined (rowOf x r) (rowOf h r)) (matOf w1 k) + vecOf b1 k)) (rowOf w2 0) + b2 (ix1 0)) := by
  unfold gate
  rw [spread_apply, hsig1_apply, gateCol_apply]

end Cert.ReferenceIdeal.RefValue

end
-- ==== Proof.RefSide.lean ====
/-
  The reference program's two results are the cell, row by row.

  The program's composed term for the new cell array is, block for block, the row function of the specification:
  four gates' pre-activations (each the sum of two affine maps, of row r of x and of row r of h), the logistic
  function or the hyperbolic tangent of each, the scalar gate of the row spread along it, the previous cell array
  and the three-layer residual of h.  Read at entry (r, n) every block depends on row r only, and the entry is the
  specification's new cell row of that row at n.  The new hidden array is the output gate times the hyperbolic
  tangent of the new cell array, entry by entry.
-/
import proofs.«181006_j19473381720316_2_alg».proof.Proof.RefSideBlocks

noncomputable section

namespace Cert.ReferenceIdeal.RefValue

open Cert.ReferenceIdeal Cert.ReferenceIdeal.Value Cert.ReferenceIdeal.Gen Idealize.ShloMosaic Idealize.ShloMosaic.TcCoe
  Idealize.SL.Sem Idealize.ShloMosaic.StableHlo Idealize.ShloMosaic.ValueIdx Cert.Cell

/-! ## The composite blocks -/

/-- A gate's pre-activation over the whole array: an affine map of x plus an affine map of h. -/
def gatePre (x h : RA S8192x1024) (w : RA S1024x1024) (bw : RA S1024) (u : RA S1024x1024) (bu : RA S1024) : RA S8192x1024 :=
  addf (lin x w bw) (lin h u bu)

theorem gatePre_apply (x h : RA S8192x1024) (w : RA S1024x1024) (bw : RA S1024) (u : RA S1024x1024) (bu : RA S1024)
    (r : Fin 8192) (n : Fin 1024) :
    gatePre x h w bw u bu (ix2 r n) = preSep (rowOf x r) (rowOf h r) (matOf w) (matOf u) (vecOf bw) (vecOf bu) n := by
  unfold gatePre preSep
  rw [add_at, lin_apply, lin_apply]

/-- Row r of a rectified affine map is the rectified affine map of row r. -/
theorem rowOf_hrelu_lin (x : RA S8192x1024) (w : RA S1024x1024) (b : RA S1024) (r : Fin 8192) :
    rowOf (hrelu (lin x w b)) r = fun j => relu (dot (rowOf x r) (matOf w j) + vecOf b j) :=
  funext fun j => by
    show hrelu (lin x w b) (ix2 r j) = _
    rw [hrelu_apply, lin_apply]

/-- The residual over the whole array: three affine layers of h, the first two rectified. -/
def resid (h : RA S8192x1024) (w1 : RA S1024x1024) (b1 : RA S1024) (w2 : RA S1024x1024) (b2 : RA S1024)
    (w3 : RA S1024x1024) (b3 : RA S1024) : RA S8192x1024 :=
  lin (hrelu (lin (hrelu (lin h w1 b1)) w2 b2)) w3 b3

theorem resid_apply (h : RA S8192x1024) (w1 : RA S1024x1024) (b1 : RA S1024) (w2 : RA S1024x1024) (b2 : RA S1024)
    (w3 : RA S1024x1024) (b3 : RA S1024) (r : Fin 8192) (n : Fin 1024) :
    resid h w1 b1 w2 b2 w3 b3 (ix2 r n)
      = dot (fun j => relu (dot (fun i => relu (dot (rowOf h r) (matOf w1 i) + vecOf b1 i)) (matOf w2 j) + vecOf b2 j)) (matOf w3 n)
        + vecOf b3 n := by
  unfold resid
  rw [lin_apply, rowOf_hrelu_lin, rowOf_hrelu_lin]

/-- The new cell array from the four pre-activation arrays, the scalar gate's array, the residual and the previous cell array. -/
def cellBody (f i g s al res cp : RA S8192x1024) : RA S8192x1024 :=
  addf (addf (mulf (hsig f) cp) (mulf (mulf (mulf (hsig i) (Host.tanh (F := Ideal) g)) (hsig s)) al)) res

theorem cellBody_apply (f i g s al res cp : RA S8192x1024) (j : S8192x1024.Idx) :
    cellBody f i g s al res cp j
      = (Ideal.logistic (f j) * cp j + Ideal.logistic (i j) * Ideal.tanh (g j) * Ideal.logistic (s j) * al j) + res j := by
  unfold cellBody
  rw [add_at, add_at, mul_at, mul_at, mul_at, mul_at, hsig_apply, hsig_apply, hsig_apply, tanh_at]

/-- The new hidden array from the output gate's pre-activation array and the new cell array. -/
def hiddenBody (o cell : RA S8192x1024) : RA S8192x1024 := mulf (hsig o) (Host.tanh (F := Ideal) cell)

theorem hiddenBody_apply (o cell : RA S8192x1024) (j : S8192x1024.Idx) :
    hiddenBody o cell j = Ideal.logistic (o j) * Ideal.tanh (cell j) := by
  unfold hiddenBody
  rw [mul_at, hsig_apply, tanh_at]

/-! ## The two results -/

/-- The program's term for the new cell array, block for block. -/
theorem cell_term (m : (ℓ : Loc nD τ sig) → Buf (Elt Ideal) ℓ) (c : Dev nD) :
    Value.res_main_v121 (F := Ideal) m c = (cellBody (gatePre (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg15)) (m ((c.tc : Thread nD τ).loc main_arg16))) (gatePre (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg13)) (m ((c.tc : Thread nD τ).loc main_arg14))) (gatePre (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg19)) (m ((c.tc : Thread nD τ).loc main_arg20))) (gatePre (m ((c.tc : Thread nD τ).loc main_arg0)) (m ((c.tc : Thread nD τ).loc main_arg1)) (m ((c.tc : Thread nD τ).loc main_arg11)) (m ((c.tc : Thread nD τ).loc main_arg12)) (m ((c.tc : Thread nD τ).loc main_arg21)) (m ((c.tc : Thread nD τ).loc main_arg22)))
      (gate (m ((c.tc : Thread nD τ).loc main_arg0)) (m ((c.tc : Thread nD τ).loc main_arg1)) (m ((c.tc : Thread nD τ).loc main_arg23)) (m ((c.tc : Thread nD τ).loc main_arg24)) (m ((c.tc : Thread nD τ).loc main_arg25)) (m ((c.tc : Thread nD τ).loc main_arg26)))
      (resid (m ((c.tc : Thread nD τ).loc main_arg1)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32))) (m ((c.tc : Thread nD τ).loc main_arg2))) := by
  unfold Value.res_main_v121; rfl

/-- The program's term for the new hidden array: the output gate against the new cell array. -/
theorem hidden_term (m : (ℓ : Loc nD τ sig) → Buf (Elt Ideal) ℓ) (c : Dev nD) :
    Value.res_main_v123 (F := Ideal) m c = hiddenBody (gatePre (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg17)) (m ((c.tc : Thread nD τ).loc main_arg18))) (Value.res_main_v121 (F := Ideal) m c) := by
  unfold Value.res_main_v123 Value.res_main_v121; rfl

/-- The reference's second result is the specification's new cell array. -/
theorem ref_cell (m : (ℓ : Loc nD τ sig) → Buf (Elt Ideal) ℓ) (c : Dev nD) :
    Value.res_out1 (F := Ideal) m c
      = cellArr (wtsOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)))
          (m ((c.tc : Thread nD τ).loc main_arg0)) (m ((c.tc : Thread nD τ).loc main_arg1)) (m ((c.tc : Thread nD τ).loc main_arg2)) := by
  refine (cell_term m c).trans ?_
  funext j
  obtain ⟨r, n, rfl⟩ : ∃ (r : Fin 8192) (n : Fin 1024), j = ix2 r n := ⟨j 0, j 1, eq_ix2 j⟩
  rw [cellArr_apply, cellBody_apply, gatePre_apply, gatePre_apply, gatePre_apply, gatePre_apply, gate_apply, resid_apply]
  rfl

/-- The reference's first result is the specification's new hidden array. -/
theorem ref_hidden (m : (ℓ : Loc nD τ sig) → Buf (Elt Ideal) ℓ) (c : Dev nD) :
    Value.res_out0 (F := Ideal) m c
      = hiddenArr (wtsOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)))
          (m ((c.tc : Thread nD τ).loc main_arg0)) (m ((c.tc : Thread nD τ).loc main_arg1)) (m ((c.tc : Thread nD τ).loc main_arg2)) := by
  refine (hidden_term m c).trans ?_
  funext j
  obtain ⟨r, n, rfl⟩ : ∃ (r : Fin 8192) (n : Fin 1024), j = ix2 r n := ⟨j 0, j 1, eq_ix2 j⟩
  rw [hiddenArr_apply, hiddenBody_apply, gatePre_apply]
  have hc := congrFun (ref_cell m c) (ix2 r n)
  rw [cellArr_apply] at hc
  rw [show Value.res_main_v121 (F := Ideal) m c (ix2 r n) = _ from hc]
  rfl

end Cert.ReferenceIdeal.RefValue

end
-- ==== Proof.lean ====
/-
  The certificate of the cell kernel against its reference, over the extended reals.

  Both programs take a batch of 8192 rows (an input row, the previous hidden row, the previous cell row, each of
  length 1024) and the weights of a recurrent cell with five gates, a scalar gate computed from the joined input and
  hidden rows, and a three-layer residual of the hidden row; both return the new hidden array and the new cell array.
  The rows do not interact, so each result is one row function applied at every row (CellSpec, CellArrays).

  The reference computes every affine map with its own bias and contracts the joined row of 2048 entries at once.  The
  kernel stacks the gates' matrices, adds the two contractions first and a bias row that already holds the sum of the
  two biases, contracts the two halves of the 2048-column matrix separately, and works block by block: 32 blocks of
  256 rows.  At this instance a change of number format is the identity, the logistic function is 1 / (1 + exp (-z))
  on both sides, and the rectifier is the larger of a number and zero on both sides.  What remains is that addition of
  extended reals is commutative and associative, that a sum over 1024 + 1024 indices is the sum of its two halves, and
  that b + 0 = b: none of it needs an entry to be finite, so the precondition is not used.

  The three frame claims: each kernel program's entry function is nineteen host operations and one pipelined region;
  the frame modules run the region's body at every grid point and conclude that every argument array ends as
  launched.  The reference is host operations only; its frame is its run with the results dropped.  The kernel's
  idealization rewrote nothing, so there is nothing to preserve.
-/
import proofs.«181006_j19473381720316_2_alg».proof.Defs
import proofs.«181006_j19473381720316_2_alg».proof.Proof.Gen.Kernel
import proofs.«181006_j19473381720316_2_alg».proof.Proof.Gen.KernelIdeal
import proofs.«181006_j19473381720316_2_alg».proof.Proof.Gen.ReferenceIdeal
import proofs.«181006_j19473381720316_2_alg».proof.Proof.Gen.ReferenceIdeal.Run
import proofs.«181006_j19473381720316_2_alg».proof.Proof.Gen.Pre_finite_inputs
import proofs.«181006_j19473381720316_2_alg».proof.Proof.FrameK
import proofs.«181006_j19473381720316_2_alg».proof.Proof.FrameKI
import proofs.«181006_j19473381720316_2_alg».proof.Proof.KValue
import proofs.«181006_j19473381720316_2_alg».proof.Proof.KHost
import proofs.«181006_j19473381720316_2_alg».proof.Proof.RefSide
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Fr.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

set_option maxHeartbeats 2000000 in
/-- The reference's hidden result, from a memory agreeing with the kernel's on the arguments, is the hidden array of the
    kernel's launched arrays. -/
theorem hidden_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) :
    Cert.ReferenceIdeal.Value.res_out0 (F := Ideal) m' c
      = Cert.Cell.hiddenArr (Cert.KernelIdeal.Val.wts m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  obtain ⟨h0, h1, h2, h3, h4, h5, h6, h7, h8, h9, h10, h11, h12, h13, h14, h15, h16, h17, h18, h19, h20, h21, h22, h23, h24, h25, h26, h27, h28, h29, h30, h31, h32⟩ := hagree
  refine (Cert.ReferenceIdeal.RefValue.ref_hidden m' c).trans ?_
  rw [h0, h1, h2, h3, h4, h5, h6, h7, h8, h9, h10, h11, h12, h13, h14, h15, h16, h17, h18, h19, h20, h21, h22, h23, h24, h25, h26, h27, h28, h29, h30, h31, h32]
  rfl

set_option maxHeartbeats 2000000 in
/-- The reference's cell result, from a memory agreeing with the kernel's on the arguments, is the cell array of the
    kernel's launched arrays. -/
theorem cell_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) :
    Cert.ReferenceIdeal.Value.res_out1 (F := Ideal) m' c
      = Cert.Cell.cellArr (Cert.KernelIdeal.Val.wts m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  obtain ⟨h0, h1, h2, h3, h4, h5, h6, h7, h8, h9, h10, h11, h12, h13, h14, h15, h16, h17, h18, h19, h20, h21, h22, h23, h24, h25, h26, h27, h28, h29, h30, h31, h32⟩ := hagree
  refine (Cert.ReferenceIdeal.RefValue.ref_cell m' c).trans ?_
  rw [h0, h1, h2, h3, h4, h5, h6, h7, h8, h9, h10, h11, h12, h13, h14, h15, h16, h17, h18, h19, h20, h21, h22, h23, h24, h25, h26, h27, h28, h29, h30, h31, h32]
  rfl

/-- Run from memories that agree on the arguments, the idealized kernel and the reference end with the same two arrays:
    the hidden array and the cell array of the row-wise cell function of the launched arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Val.run m ρ (fun c => Cert.KernelIdeal.HostVal.host_blocks m c), ?_⟩
  exact (θ_run Cert.ReferenceIdeal.defs _ _).mono (fun _ h c => ⟨(h c).1.trans (hidden_agree m m' c (hagree c)),
      (h c).2.1.trans (cell_agree m m' c (hagree c)), (h c).2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
